-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_arg12 : FVec F S1024x4096 .f32) (main_v48 : IVec S_ 1) (main_v49 : FVec F S1024x4096 .f32) (main_v50 : FVec F S1024x4096 .f32) : IVec S_ 1 :=
  let main_v51 : IVec S1024x4096 1 := cmpf .olt main_v49 main_v50
  let main_c_19 : IVec S_ 1 := constantI S_ 1 1#1
  let main_v52 : IVec S_ 1 := (fun x v => Host.reduce IntOp.andi x v reducesTo_S1024x4096_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x4096 .f32 := Host.absf main_arg12
  let main_cst_22 : FVec F S_ .f32 := constant S_ .f32 0x7F800000#32
  let main_v60 : FVec F S1024x4096 .f32 := broadcastInDim S1024x4096 ![] bcast_S_S1024x4096 main_cst_22
  let main_v61 : IVec S1024x4096 1 := cmpf .olt main_v59 main_v60
  let main_c_23 : IVec S_ 1 := constantI S_ 1 1#1
  let main_v62 : IVec S_ 1 := (fun x v => Host.reduce IntOp.andi x v reducesTo_S1024x4096_S_d0_1 h_S_) main_v61 main_c_23
  let main_v63 : IVec S_ 1 := andi main_v58 main_v62
  main_v63

def fn_part2 {F : FTy → Type} [FloatOps F] (main_arg7 : FVec F S4096x8192 .f32) (main_arg8 : FVec F S4096 .f32) (main_arg9 : FVec F S4096x8192 .f32) (main_arg10 : FVec F S1024x4096 .f32) (main_arg11 : FVec F S1024 .f32) (main_arg12 : FVec F S1024x4096 .f32) (main_v33 : IVec S_ 1) : IVec S_ 1 :=
  let main_v34 : FVec F S4096x8192 .f32 := Host.absf main_arg7
  let main_cst_12 : FVec F S_ .f32 := constant S_ .f32 0x7F800000#32
  let main_v35 : FVec F S4096x8192 .f32 := broadcastInDim S4096x8192 ![] bcast_S_S4096x8192 main_cst_12
  let main_v36 : IVec S4096x8192 1 := cmpf .olt main_v34 main_v35
  let main_c_13 : IVec S_ 1 := constantI S_ 1 1#1
  let main_v37 : IVec S_ 1 := (fun x v => Host.reduce IntOp.andi x v reducesTo_S4096x8192_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x8192 .f32 := Host.absf main_arg9
  let main_cst_16 : FVec F S_ .f32 := constant S_ .f32 0x7F800000#32
  let main_v45 : FVec F S4096x8192 .f32 := broadcastInDim S4096x8192 ![] bcast_S_S4096x8192 main_cst_16
  let main_v46 : IVec S4096x8192 1 := cmpf .olt main_v44 main_v45
  let main_c_17 : IVec S_ 1 := constantI S_ 1 1#1
  let main_v47 : IVec S_ 1 := (fun x v => Host.reduce IntOp.andi x v reducesTo_S4096x8192_S_d0_1 h_S_) main_v46 main_c_17
  let main_v48 : IVec S_ 1 := andi main_v43 main_v47
  let main_v49 : FVec F S1024x4096 .f32 := Host.absf main_arg10
  let main_cst_18 : FVec F S_ .f32 := constant S_ .f32 0x7F800000#32
  let main_v50 : FVec F S1024x4096 .f32 := broadcastInDim S1024x4096 ![] bcast_S_S1024x4096 main_cst_18
  fn_part3 (F := F) main_arg11 main_arg12 main_v48 main_v49 main_v50

def fn_part1 {F : FTy → Type} [FloatOps F] (main_arg4 : FVec F S8192x8192 .f32) (main_arg5 : FVec F S8192 .f32) (main_arg6 : FVec F S8192x8192 .f32) (main_arg7 : FVec F S4096x8192 .f32) (main_arg8 : FVec F S4096 .f32) (main_arg9 : FVec F S4096x8192 .f32) (main_arg10 : FVec F S1024x4096 .f32) (main_arg11 : FVec F S1024 .f32) (main_arg12 : FVec F S1024x4096 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x4096 .f32) (main_arg1 : FVec F S8192x4096 .f32) (main_arg2 : FVec F S8192 .f32) (main_arg3 : FVec F S8192x4096 .f32) (main_arg4 : FVec F S8192x8192 .f32) (main_arg5 : FVec F S8192 .f32) (main_arg6 : FVec F S8192x8192 .f32) (main_arg7 : FVec F S4096x8192 .f32) (main_arg8 : FVec F S4096 .f32) (main_arg9 : FVec F S4096x8192 .f32) (main_arg10 : FVec F S1024x4096 .f32) (main_arg11 : FVec F S1024 .f32) (main_arg12 : FVec F S1024x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_arg9 main_arg10 main_arg11 main_arg12 main_v13 main_v16
-- ==== Kernel.lean ====
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S1024x4096 : Shape := ⟨2, ![1024, 4096]⟩
abbrev S1024 : Shape := ⟨1, ![1024]⟩
abbrev S1x8192 : Shape := ⟨2, ![1, 8192]⟩
abbrev S2048x1024 : Shape := ⟨2, ![2048, 1024]⟩
abbrev S1024x1024 : Shape := ⟨2, ![1024, 1024]⟩
abbrev S1x1024 : Shape := ⟨2, ![1, 1024]⟩
abbrev S1x4096 : Shape := ⟨2, ![1, 4096]⟩
abbrev S8192x1024 : Shape := ⟨2, ![8192, 1024]⟩

abbrev nBuf : Space → Nat
  | .hbm => 30
  | .vmem => 35
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .f32⟩
  | .hbm, ⟨3, _⟩ => ⟨S8192x4096, .f32⟩
  | .hbm, ⟨4, _⟩ => ⟨S8192x8192, .f32⟩
  | .hbm, ⟨5, _⟩ => ⟨S8192, .f32⟩
  | .hbm, ⟨6, _⟩ => ⟨S8192x8192, .f32⟩
  | .hbm, ⟨7, _⟩ => ⟨S4096x8192, .f32⟩
  | .hbm, ⟨8, _⟩ => ⟨S4096, .f32⟩
  | .hbm, ⟨9, _⟩ => ⟨S4096x8192, .f32⟩
  | .hbm, ⟨10, _⟩ => ⟨S1024x4096, .f32⟩
  | .hbm, ⟨11, _⟩ => ⟨S1024, .f32⟩
  | .hbm, ⟨12, _⟩ => ⟨S1024x4096, .f32⟩
  | .hbm, ⟨13, _⟩ => ⟨S8192x4096, .f32⟩
  | .hbm, ⟨14, _⟩ => ⟨S8192x4096, .bf16⟩
  | .hbm, ⟨15, _⟩ => ⟨S8192x8192, .f32⟩
  | .hbm, ⟨16, _⟩ => ⟨S8192x8192, .bf16⟩
  | .hbm, ⟨17, _⟩ => ⟨S4096x8192, .f32⟩
  | .hbm, ⟨18, _⟩ => ⟨S4096x8192, .bf16⟩
  | .hbm, ⟨19, _⟩ => ⟨S1024x4096, .f32⟩
  | .hbm, ⟨20, _⟩ => ⟨S1024x4096, .bf16⟩
  | .hbm, ⟨21, _⟩ => ⟨S8192x4096, .bf16⟩
  | .hbm, ⟨22, _⟩ => ⟨S1x8192, .f32⟩
  | .hbm, ⟨23, _⟩ => ⟨S8192x8192, .bf16⟩
  | .hbm, ⟨24, _⟩ => ⟨S1x8192, .f32⟩
  | .hbm, ⟨25, _⟩ => ⟨S8192x8192, .bf16⟩
  | .hbm, ⟨26, _⟩ => ⟨S1x4096, .f32⟩
  | .hbm, ⟨27, _⟩ => ⟨S8192x4096, .bf16⟩
  | .hbm, ⟨28, _⟩ => ⟨S1x1024, .f32⟩
  | .hbm, ⟨29, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | .local _ .vmem, ⟨9, _⟩ => ⟨S2048x1024, .bf16⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S2048x1024, .bf16⟩
  | .local _ .vmem, ⟨16, _⟩ => ⟨S2048x1024, .bf16⟩
  | .local _ .vmem, ⟨17, _⟩ => ⟨S2048x1024, .f32⟩
  | .local _ .vmem, ⟨18, _⟩ => ⟨S2048x1024, .bf16⟩
  | .local _ .vmem, ⟨19, _⟩ => ⟨S2048x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S2048x1024, .bf16⟩
  | .local _ .vmem, ⟨25, _⟩ => ⟨S2048x1024, .bf16⟩
  | .local _ .vmem, ⟨26, _⟩ => ⟨S2048x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1x1024, .f32⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem3_1 : DmaSem sig := 30

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S2048x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 1, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  bitsLt_bf16_f32 : FTy.bits .bf16 < FTy.bits .f32
  shapeCasts_S8192_S1x8192 : S8192.ShapeCasts S1x8192
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  shapeCasts_S4096_S1x4096 : S4096.ShapeCasts S1x4096
  shapeCasts_S1024_S1x1024 : S1024.ShapeCasts S1x1024
  broadcasts_S1x1024_S1024x1024 : S1x1024.Broadcasts S1024x1024
  dot_S2048x1024_S1024x1024_S2048x1024_1_1_0_0_n_n_wf : DotDims.WF S2048x1024 S1024x1024 S2048x1024 [1] [1] [0] [0] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x4096.size a
  hwx0_1 : ∀ i : grid0.Coords, EltTy.bits .bf16 = 32 ∨ (Rect.block (s := S8192x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x8192.size a
  hwx0_3 : ∀ i : grid0.Coords, EltTy.bits .bf16 = 32 ∨ (Rect.block (s := S8192x8192) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .bf16 = 32 ∨ (Rect.block (s := S8192x8192) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .bf16 = 32 ∨ (Rect.block (s := S8192x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x8192.size a
  hwx1_3 : ∀ i : grid1.Coords, EltTy.bits .bf16 = 32 ∨ (Rect.block (s := S8192x8192) S2048x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .bf16 = 32 ∨ (Rect.block (s := S8192x8192) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x8192.size a
  hwx2_1 : ∀ i : grid2.Coords, EltTy.bits .bf16 = 32 ∨ (Rect.block (s := S4096x8192) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S8192x4096.size a
  hwx2_3 : ∀ i : grid2.Coords, EltTy.bits .bf16 = 32 ∨ (Rect.block (s := S8192x4096) S2048x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x4096.size a
  hwx3_0 : ∀ i : grid3.Coords, EltTy.bits .bf16 = 32 ∨ (Rect.block (s := S8192x4096) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x4096.size a
  hwx3_1 : ∀ i : grid3.Coords, EltTy.bits .bf16 = 32 ∨ (Rect.block (s := S1024x4096) S1024x1024.size (cc3_transform_1 i) (hinb3_1 i)).WholeWords (EltTy.packing .bf16)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S8192x1024.size a
  hwx3_3 : ∀ i : grid3.Coords, EltTy.bits .f32 = 32 ∨ (Rect.block (s := S8192x1024) S1024x1024.size (cc3_transform_3 i) (hinb3_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v8) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v10) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v12) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v14) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x1024.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S1024x4096 : Shape := ⟨2, ![1024, 4096]⟩
abbrev S1024 : Shape := ⟨1, ![1024]⟩
abbrev S1x8192 : Shape := ⟨2, ![1, 8192]⟩
abbrev S_ : Shape := ⟨0, ![]⟩
abbrev S1x4096 : Shape := ⟨2, ![1, 4096]⟩
abbrev S4096x1024 : Shape := ⟨2, ![4096, 1024]⟩
abbrev S8192x1024 : Shape := ⟨2, ![8192, 1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .f32⟩
  | .hbm, ⟨3, _⟩ => ⟨S8192x4096, .f32⟩
  | .hbm, ⟨4, _⟩ => ⟨S8192x8192, .f32⟩
  | .hbm, ⟨5, _⟩ => ⟨S8192, .f32⟩
  | .hbm, ⟨6, _⟩ => ⟨S8192x8192, .f32⟩
  | .hbm, ⟨7, _⟩ => ⟨S4096x8192, .f32⟩
  | .hbm, ⟨8, _⟩ => ⟨S4096, .f32⟩
  | .hbm, ⟨9, _⟩ => ⟨S4096x8192, .f32⟩
  | .hbm, ⟨10, _⟩ => ⟨S1024x4096, .f32⟩
  | .hbm, ⟨11, _⟩ => ⟨S1024, .f32⟩
  | .hbm, ⟨12, _⟩ => ⟨S1024x4096, .f32⟩
  | .hbm, ⟨13, _⟩ => ⟨S8192x4096, .f32⟩
  | .hbm, ⟨14, _⟩ => ⟨S4096x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S4096x8192, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S1024x4096, .f32⟩
  | .hbm, ⟨41, _⟩ => ⟨S4096x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_cst : Ref sig .tc := ⟨.hbm, 28, rfl⟩
abbrev main_call1_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call2_cst : Ref sig .tc := ⟨.hbm, 37, rfl⟩
abbrev main_call2_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩

abbrev nD : Nat := 1
abbrev τ : Topo := Topo.v7x

variable {F : FTy → Type} [FloatOps F]

class Facts₀ : Prop where
  transposes_S8192x4096_S4096x8192_1_0 : S8192x4096.Transposes [1, 0] S4096x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x8192_S8192x8192_1_0 : S8192x8192.Transposes [1, 0] S8192x8192
  transposes_S4096x8192_S8192x4096_1_0 : S4096x8192.Transposes [1, 0] S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x4096_S4096x8192_S8192x8192_1_0_0_1_n_n_wf : DotDims.WF S8192x4096 S4096x8192 S8192x8192 [1] [0] [0] [1] [] []
  dot_S8192x8192_S8192x8192_S8192x8192_1_0_0_1_n_n_wf : DotDims.WF S8192x8192 S8192x8192 S8192x8192 [1] [0] [0] [1] [] []
  dot_S8192x8192_S8192x4096_S8192x4096_1_0_0_1_n_n_wf : DotDims.WF S8192x8192 S8192x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.BH0Base.lean ====
/-
  Layer 0's kernel region: the blocks its windows stage, the two conditions its body branches on, and where
  its output window rests.

  The grid's innermost axis walks the fan-in in 4 steps. The body clears its accumulator at step 0, adds one
  block product at every step, and at the last step adds the bias, applies the activation and stores the output
  block; at every other step the output block's buffer is left as found and is not written back.
-/
import proofs.«122649_j45518063403493_2_alg».proof.Proof.Gen.Kernel.Launch
import proofs.«122649_j45518063403493_2_alg».proof.Proof.Gen.Kernel.Skeleton
import proofs.«122649_j45518063403493_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions, in closed form over the grid -/

/-- "This is the first step along the fan-in axis." -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step along the fan-in axis." -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows rest -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last step the output window rests, and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last step it is stored. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S2048x1024 .f32 := Memref.whole cc0_scratch0
/-- Views through which the output block's and the accumulator's contents are stated. -/
abbrev VO0 : View sig .tc .vmem S2048x1024 .bf16 := (Memref.whole cc0_stg3_0 : Memref sig .tc .vmem S2048x1024 .bf16).view
abbrev VS0 : View sig .tc .vmem S2048x1024 .f32 := scM0.view

/-- The region's resting invariant with the accumulator split off: the accumulator at some contents, every other
    scoped buffer the region does not stage, and the generator register. -/
theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.Kernel.Hand

end
-- ==== Proof.BH0RunA.lean ====
/-
  Layer 0's kernel body run whole, in one of its three control cases.
-/
import proofs.«122649_j45518063403493_2_alg».proof.Proof.BH0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first step along the fan-in axis: the accumulator, found at anything, is cleared and then holds the first block
    product; the output block's buffer is handed back as found.
    The pieces the stores leave are found by running the body. -/
noncomputable def kernelRun0_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i)
    (x0 : Vec F S2048x1024 .bf16) (x1 : Vec F S1024x1024 .bf16) (x2 : Vec F S1x1024 .f32) :
    { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__masked_linear_kernel i arg3 harg3 arg4 harg4 arg5 harg5 arg6 harg6 arg7 harg7) K } := by
  refine ⟨?_, fun xi3 E K => ?run⟩
  case run =>
    simp only [cc0__masked_linear_kernel_eq_skeleton]; unfold cc0__masked_linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.BH0RunB.lean ====
/-
  Layer 0's kernel body run whole, in one of its three control cases.
-/
import proofs.«122649_j45518063403493_2_alg».proof.Proof.BH0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step: the accumulator, found at what the step before left, gains one block product; the output block's
    buffer is handed back as found.
    The pieces the stores leave are found by running the body. -/
noncomputable def kernelRun0_B (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i)
    (x0 : Vec F S2048x1024 .bf16) (x1 : Vec F S1024x1024 .bf16) (x2 : Vec F S1x1024 .f32) (xs : Vec F S2048x1024 .f32) :
    { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__masked_linear_kernel i arg3 harg3 arg4 harg4 arg5 harg5 arg6 harg6 arg7 harg7) K } := by
  refine ⟨?_, fun xi3 E K => ?run⟩
  case run =>
    simp only [cc0__masked_linear_kernel_eq_skeleton]; unfold cc0__masked_linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.BH0RunC.lean ====
/-
  Layer 0's kernel body run whole, in one of its three control cases.
-/
import proofs.«122649_j45518063403493_2_alg».proof.Proof.BH0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last step: the accumulator gains the last block product, and the output block, found at anything, is stored
    from it and the bias.
    The pieces the stores leave are found by running the body. -/
noncomputable def kernelRun0_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i)
    (x0 : Vec F S2048x1024 .bf16) (x1 : Vec F S1024x1024 .bf16) (x2 : Vec F S1x1024 .f32) (xs : Vec F S2048x1024 .f32) :
    Σ' (L3 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__masked_linear_kernel i arg3 harg3 arg4 harg4 arg5 harg5 arg6 harg6 arg7 harg7) K } := by
  refine ⟨?_, ?_, fun E K => ?run⟩
  case run =>
    simp only [cc0__masked_linear_kernel_eq_skeleton]; unfold cc0__masked_linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.BH0Frame.lean ====
/-
  Layer 0's kernel region, point by point: what the accumulator holds after each grid point, what the output
  block holds after each last step, the invariant that carries the accumulator from one point to the next, and the
  body's run at a generic point.

  Points are numbered with the fan-in axis innermost, so point `t` is step `t % 4` of its output block. After
  a first step the accumulator holds that step's block product; after any later step, what the step before left
  plus this step's block product; after a last step the output block's buffer holds the activation of the
  accumulator plus the bias.
-/
import proofs.«122649_j45518063403493_2_alg».proof.Proof.BH0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

theorem scover0_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x1024 .bf16) (x1 : Vec F S1024x1024 .bf16) (x2 : Vec F S1x1024 .f32) (y : S2048x1024.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S2048x1024.size (by sl_kernel_rfl) y

/-- The accumulator after a first step. -/
def sout0_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x1024 .bf16) (x1 : Vec F S1024x1024 .bf16) (x2 : Vec F S1x1024 .f32) : Vec F S2048x1024 .f32 :=
  VS0.read (Elt F) (VS0.writes (Elt F) VS0.junk (kernelRun0_A c i arg3 harg3 arg4 harg4 arg5 harg5 arg6 harg6 arg7 harg7 hc0 hc1 x0 x1 x2).1)

theorem scover0_B (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x1024 .bf16) (x1 : Vec F S1024x1024 .bf16) (x2 : Vec F S1x1024 .f32) (xs : Vec F S2048x1024 .f32) (y : S2048x1024.Idx) :
    ∃ pc ∈ (kernelRun0_B c i arg3 harg3 arg4 harg4 arg5 harg5 arg6 harg6 arg7 harg7 hc0 hc1 x0 x1 x2 xs).1, y ∈ pc.1.set :=
  View.cover_of_tiledL (kernelRun0_B c i arg3 harg3 arg4 harg4 arg5 harg5 arg6 harg6 arg7 harg7 hc0 hc1 x0 x1 x2 xs).1 S2048x1024.size (by sl_kernel_rfl) y

/-- The accumulator after a middle step. -/
def sout0_B (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x1024 .bf16) (x1 : Vec F S1024x1024 .bf16) (x2 : Vec F S1x1024 .f32) (xs : Vec F S2048x1024 .f32) : Vec F S2048x1024 .f32 :=
  VS0.read (Elt F) (VS0.writes (Elt F) VS0.junk (kernelRun0_B c i arg3 harg3 arg4 harg4 arg5 harg5 arg6 harg6 arg7 harg7 hc0 hc1 x0 x1 x2 xs).1)

theorem cover0_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x1024 .bf16) (x1 : Vec F S1024x1024 .bf16) (x2 : Vec F S1x1024 .f32) (xs : Vec F S2048x1024 .f32) (y : S2048x1024.Idx) :
    ∃ pc ∈ (kernelRun0_C c i arg3 harg3 arg4 harg4 arg5 harg5 arg6 harg6 arg7 harg7 hc0 hc1 x0 x1 x2 xs).1, y ∈ pc.1.set :=
  View.cover_of_tiledL (kernelRun0_C c i arg3 harg3 arg4 harg4 arg5 harg5 arg6 harg6 arg7 harg7 hc0 hc1 x0 x1 x2 xs).1 S2048x1024.size (by sl_kernel_rfl) y

/-- The output block's buffer after a last step. -/
def out0_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x1024 .bf16) (x1 : Vec F S1024x1024 .bf16) (x2 : Vec F S1x1024 .f32) (xs : Vec F S2048x1024 .f32) : Vec F S2048x1024 .bf16 :=
  VO0.read (Elt F) (VO0.writes (Elt F) VO0.junk (kernelRun0_C c i arg3 harg3 arg4 harg4 arg5 harg5 arg6 harg6 arg7 harg7 hc0 hc1 x0 x1 x2 xs).1)

theorem scover0_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x1024 .bf16) (x1 : Vec F S1024x1024 .bf16) (x2 : Vec F S1x1024 .f32) (xs : Vec F S2048x1024 .f32) (y : S2048x1024.Idx) :
    ∃ pc ∈ (kernelRun0_C c i arg3 harg3 arg4 harg4 arg5 harg5 arg6 harg6 arg7 harg7 hc0 hc1 x0 x1 x2 xs).2.1, y ∈ pc.1.set :=
  View.cover_of_tiledL (kernelRun0_C c i arg3 harg3 arg4 harg4 arg5 harg5 arg6 harg6 arg7 harg7 hc0 hc1 x0 x1 x2 xs).2.1 S2048x1024.size (by sl_kernel_rfl) y

/-- The accumulator after a last step. -/
def sout0_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x1024 .bf16) (x1 : Vec F S1024x1024 .bf16) (x2 : Vec F S1x1024 .f32) (xs : Vec F S2048x1024 .f32) : Vec F S2048x1024 .f32 :=
  VS0.read (Elt F) (VS0.writes (Elt F) VS0.junk (kernelRun0_C c i arg3 harg3 arg4 harg4 arg5 harg5 arg6 harg6 arg7 harg7 hc0 hc1 x0 x1 x2 xs).2.1)

section
variable (V : (c : Dev nD) → (b : Ref sig .tc) → Buf (Elt F) ((c : Thread nD τ).loc b))

/-! ## The accumulation -/

/-- What the accumulator holds after the body at position `n`. -/
def accAt0 (c : Dev nD) : (n : ℕ) → n < cfg0.N → Vec F S2048x1024 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)
  | n + 1, hn =>
    if h0 : (n + 1) % 4 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩)
    else if h1 : (n + 1) % 4 = 3 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (accAt0 c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (accAt0 c n (Nat.lt_of_succ_lt hn))

theorem accAt0_A (c : Dev nD) (t : Fin cfg0.N) (h0 : t.val % 4 = 0) (h1 : ¬t.val % 4 = 3) :
    accAt0 V c t.val t.isLt = sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t) := by
  obtain ⟨n, hn⟩ := t
  cases n with
  | zero => exact rfl
  | succ n => exact (dif_pos h0).trans rfl

theorem accAt0_B (c : Dev nD) (t : Fin cfg0.N) (h0 : ¬t.val % 4 = 0) (h1 : ¬t.val % 4 = 3) :
    accAt0 V c t.val t.isLt = sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) :
    accAt0 V c t.val t.isLt = sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's buffer holds after the body at position `n`: at a last step, the stored block; elsewhere the
    window rests and this value is consulted by nothing. -/
def outAt0 (c : Dev nD) (n : ℕ) (hn : n < cfg0.N) : Vec F S2048x1024 .bf16 :=
  if h1 : n % 4 = 3 then
    out0_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) (fun h => (fun h => by (try dsimp only at h); omega) ((hcond0_0 ⟨n, hn⟩).mp h)) ((hcond0_1 ⟨n, hn⟩).mpr h1) (iblk0 V c 0 ⟨n, hn⟩) (iblk0 V c 1 ⟨n, hn⟩) (iblk0 V c 2 ⟨n, hn⟩) (accAt0 V c (n - 1) (Nat.lt_of_le_of_lt (Nat.sub_le _ _) hn))
  else VO0.read (Elt F) VO0.junk

theorem outAt0_C (c : Dev nD) (t : Fin cfg0.N) (h0 : ¬t.val % 4 = 0) (h1 : t.val % 4 = 3) :
    outAt0 V c t.val t.isLt = out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) := by
  unfold outAt0; exact (dif_pos h1).trans rfl

/-! ## The invariant -/

/-- Before position `n`: at the region's entry, its resting invariant; afterwards the accumulator at what the point before
    left, every other scoped buffer the region does not stage, and the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The region's proof data -/

/-- The arrays as the region finds them; after the body each input's buffer at its block, the output's at `outAt`; the
    invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The inputs' buffers hold their blocks; the closed forms say which case the point is in; the invariant hands the body
    the accumulator at what the point before left (at anything, at the region's first point) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [accAt0_A V c t h0 h1]
    unfold sout0_A; (try dsimp only)
    by_cases hz : t.val = 0
    · rw [PhiS0_castSucc V c t, PhiS0_zero V c _ _ hz, PhiA0_eq]
      iintro ⟨⟨⟨HS, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by omega)
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [accAt0_C V c t h0 h1, outAt0_C V c t h0 h1]
      unfold out0_C sout0_C; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [accAt0_B V c t h0 h1]
      unfold sout0_B; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before its first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After its last point the invariant gives the resting invariant back: the accumulator's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ hN, PhiA0_eq]
  iintro ⟨⟨HS, Hrest⟩, Hg⟩
  isplitl [HS Hrest]
  · isplitl [HS]
    · iexists _; iexact HS
    iexact Hrest
  iexact Hg

end

end Cert.Kernel.Hand

end
-- ==== Proof.BH1Base.lean ====
/-
  Layer 1's kernel region: the blocks its windows stage, the two conditions its body branches on, and where
  its output window rests.

  The grid's innermost axis walks the fan-in in 8 steps. The body clears its accumulator at step 0, adds one
  block product at every step, and at the last step adds the bias, applies the activation and stores the output
  block; at every other step the output block's buffer is left as found and is not written back.
-/
import proofs.«122649_j45518063403493_2_alg».proof.Proof.Gen.Kernel.Launch
import proofs.«122649_j45518063403493_2_alg».proof.Proof.Gen.Kernel.Skeleton
import proofs.«122649_j45518063403493_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, in closed form over the grid -/

/-- "This is the first step along the fan-in axis." -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last step along the fan-in axis." -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows rest -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last step the output window rests, and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last step it is stored. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S2048x1024 .f32 := Memref.whole cc1_scratch0
/-- Views through which the output block's and the accumulator's contents are stated. -/
abbrev VO1 : View sig .tc .vmem S2048x1024 .bf16 := (Memref.whole cc1_stg3_0 : Memref sig .tc .vmem S2048x1024 .bf16).view
abbrev VS1 : View sig .tc .vmem S2048x1024 .f32 := scM1.view

/-- The region's resting invariant with the accumulator split off: the accumulator at some contents, every other
    scoped buffer the region does not stage, and the generator register. -/
theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.Kernel.Hand

end
-- ==== Proof.BH1RunA.lean ====
/-
  Layer 1's kernel body run whole, in one of its three control cases.
-/
import proofs.«122649_j45518063403493_2_alg».proof.Proof.BH1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first step along the fan-in axis: the accumulator, found at anything, is cleared and then holds the first block
    product; the output block's buffer is handed back as found.
    The pieces the stores leave are found by running the body. -/
noncomputable def kernelRun1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) :
    { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__masked_linear_kernel i arg3 harg3 arg4 harg4 arg5 harg5 arg6 harg6 arg7 harg7) K } := by
  refine ⟨?_, fun xi3 E K => ?run⟩
  case run =>
    simp only [cc1__masked_linear_kernel_eq_skeleton]; unfold cc1__masked_linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.BH1RunB.lean ====
/-
  Layer 1's kernel body run whole, in one of its three control cases.
-/
import proofs.«122649_j45518063403493_2_alg».proof.Proof.BH1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step: the accumulator, found at what the step before left, gains one block product; the output block's
    buffer is handed back as found.
    The pieces the stores leave are found by running the body. -/
noncomputable def kernelRun1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs : Vec F S2048x1024 .f32) :
    { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__masked_linear_kernel i arg3 harg3 arg4 harg4 arg5 harg5 arg6 harg6 arg7 harg7) K } := by
  refine ⟨?_, fun xi3 E K => ?run⟩
  case run =>
    simp only [cc1__masked_linear_kernel_eq_skeleton]; unfold cc1__masked_linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.BH1RunC.lean ====
/-
  Layer 1's kernel body run whole, in one of its three control cases.
-/
import proofs.«122649_j45518063403493_2_alg».proof.Proof.BH1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last step: the accumulator gains the last block product, and the output block, found at anything, is stored
    from it and the bias.
    The pieces the stores leave are found by running the body. -/
noncomputable def kernelRun1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs : Vec F S2048x1024 .f32) :
    Σ' (L3 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__masked_linear_kernel i arg3 harg3 arg4 harg4 arg5 harg5 arg6 harg6 arg7 harg7) K } := by
  refine ⟨?_, ?_, fun E K => ?run⟩
  case run =>
    simp only [cc1__masked_linear_kernel_eq_skeleton]; unfold cc1__masked_linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.BH1Frame.lean ====
/-
  Layer 1's kernel region, point by point: what the accumulator holds after each grid point, what the output
  block holds after each last step, the invariant that carries the accumulator from one point to the next, and the
  body's run at a generic point.

  Points are numbered with the fan-in axis innermost, so point `t` is step `t % 8` of its output block. After
  a first step the accumulator holds that step's block product; after any later step, what the step before left
  plus this step's block product; after a last step the output block's buffer holds the activation of the
  accumulator plus the bias.
-/
import proofs.«122649_j45518063403493_2_alg».proof.Proof.BH1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

theorem scover1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i) (x0 : Vec F S2048x1024 .bf16) (x1 : Vec F S1024x1024 .bf16) (x2 : Vec F S1x1024 .f32) (y : S2048x1024.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S2048x1024.size (by sl_kernel_rfl) y

/-- The accumulator after a first step. -/
def sout1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i) (x0 : Vec F S2048x1024 .bf16) (x1 : Vec F S1024x1024 .bf16) (x2 : Vec F S1x1024 .f32) : Vec F S2048x1024 .f32 :=
  VS1.read (Elt F) (VS1.writes (Elt F) VS1.junk (kernelRun1_A c i arg3 harg3 arg4 harg4 arg5 harg5 arg6 harg6 arg7 harg7 hc0 hc1 x0 x1 x2).1)

theorem scover1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i) (x0 : Vec F S2048x1024 .bf16) (x1 : Vec F S1024x1024 .bf16) (x2 : Vec F S1x1024 .f32) (xs : Vec F S2048x1024 .f32) (y : S2048x1024.Idx) :
    ∃ pc ∈ (kernelRun1_B c i arg3 harg3 arg4 harg4 arg5 harg5 arg6 harg6 arg7 harg7 hc0 hc1 x0 x1 x2 xs).1, y ∈ pc.1.set :=
  View.cover_of_tiledL (kernelRun1_B c i arg3 harg3 arg4 harg4 arg5 harg5 arg6 harg6 arg7 harg7 hc0 hc1 x0 x1 x2 xs).1 S2048x1024.size (by sl_kernel_rfl) y

/-- The accumulator after a middle step. -/
def sout1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i) (x0 : Vec F S2048x1024 .bf16) (x1 : Vec F S1024x1024 .bf16) (x2 : Vec F S1x1024 .f32) (xs : Vec F S2048x1024 .f32) : Vec F S2048x1024 .f32 :=
  VS1.read (Elt F) (VS1.writes (Elt F) VS1.junk (kernelRun1_B c i arg3 harg3 arg4 harg4 arg5 harg5 arg6 harg6 arg7 harg7 hc0 hc1 x0 x1 x2 xs).1)

theorem cover1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i) (x0 : Vec F S2048x1024 .bf16) (x1 : Vec F S1024x1024 .bf16) (x2 : Vec F S1x1024 .f32) (xs : Vec F S2048x1024 .f32) (y : S2048x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S2048x1024.size (by sl_kernel_rfl) y

/-- The output block's buffer after a last step. -/
def out1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i) (x0 : Vec F S2048x1024 .bf16) (x1 : Vec F S1024x1024 .bf16) (x2 : Vec F S1x1024 .f32) (xs : Vec F S2048x1024 .f32) : Vec F S2048x1024 .bf16 :=
  VO1.read (Elt F) (VO1.writes (Elt F) VO1.junk (kernelRun1_C c i arg3 harg3 arg4 harg4 arg5 harg5 arg6 harg6 arg7 harg7 hc0 hc1 x0 x1 x2 xs).1)

theorem scover1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i) (x0 : Vec F S2048x1024 .bf16) (x1 : Vec F S1024x1024 .bf16) (x2 : Vec F S1x1024 .f32) (xs : Vec F S2048x1024 .f32) (y : S2048x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S2048x1024.size (by sl_kernel_rfl) y

/-- The accumulator after a last step. -/
def sout1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i) (x0 : Vec F S2048x1024 .bf16) (x1 : Vec F S1024x1024 .bf16) (x2 : Vec F S1x1024 .f32) (xs : Vec F S2048x1024 .f32) : Vec F S2048x1024 .f32 :=
  VS1.read (Elt F) (VS1.writes (Elt F) VS1.junk (kernelRun1_C c i arg3 harg3 arg4 harg4 arg5 harg5 arg6 harg6 arg7 harg7 hc0 hc1 x0 x1 x2 xs).2.1)

section
variable (V : (c : Dev nD) → (b : Ref sig .tc) → Buf (Elt F) ((c : Thread nD τ).loc b))

/-! ## The accumulation -/

/-- What the accumulator holds after the body at position `n`. -/
def accAt1 (c : Dev nD) : (n : ℕ) → n < cfg1.N → Vec F S2048x1024 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 8 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩)
    else if h1 : (n + 1) % 8 = 7 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (accAt1 c n (Nat.lt_of_succ_lt hn))

theorem accAt1_A (c : Dev nD) (t : Fin cfg1.N) (h0 : t.val % 8 = 0) (h1 : ¬t.val % 8 = 7) :
    accAt1 V c t.val t.isLt = sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans rfl

theorem accAt1_B (c : Dev nD) (t : Fin cfg1.N) (h0 : ¬t.val % 8 = 0) (h1 : ¬t.val % 8 = 7) :
    accAt1 V c t.val t.isLt = sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 8 = 0) (h1 : t.val % 8 = 7) :
    accAt1 V c t.val t.isLt = sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's buffer holds after the body at position `n`: at a last step, the stored block; elsewhere the
    window rests and this value is consulted by nothing. -/
def outAt1 (c : Dev nD) (n : ℕ) (hn : n < cfg1.N) : Vec F S2048x1024 .bf16 :=
  if h1 : n % 8 = 7 then
    out1_C c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun h => (fun h => by (try dsimp only at h); omega) ((hcond1_0 ⟨n, hn⟩).mp h)) ((hcond1_1 ⟨n, hn⟩).mpr h1) (iblk1 V c 0 ⟨n, hn⟩) (iblk1 V c 1 ⟨n, hn⟩) (iblk1 V c 2 ⟨n, hn⟩) (accAt1 V c (n - 1) (Nat.lt_of_le_of_lt (Nat.sub_le _ _) hn))
  else VO1.read (Elt F) VO1.junk

theorem outAt1_C (c : Dev nD) (t : Fin cfg1.N) (h0 : ¬t.val % 8 = 0) (h1 : t.val % 8 = 7) :
    outAt1 V c t.val t.isLt = out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) := by
  unfold outAt1; exact (dif_pos h1).trans rfl

/-! ## The invariant -/

/-- Before position `n`: at the region's entry, its resting invariant; afterwards the accumulator at what the point before
    left, every other scoped buffer the region does not stage, and the generator register. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The region's proof data -/

/-- The arrays as the region finds them; after the body each input's buffer at its block, the output's at `outAt`; the
    invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The inputs' buffers hold their blocks; the closed forms say which case the point is in; the invariant hands the body
    the accumulator at what the point before left (at anything, at the region's first point) and takes it back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [accAt1_A V c t h0 h1]
    unfold sout1_A; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by omega)
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [accAt1_C V c t h0 h1, outAt1_C V c t h0 h1]
      unfold out1_C sout1_C; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [accAt1_B V c t h0 h1]
      unfold sout1_B; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before its first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After its last point the invariant gives the resting invariant back: the accumulator's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ hN, PhiA1_eq]
  iintro ⟨⟨HS, Hrest⟩, Hg⟩
  isplitl [HS Hrest]
  · isplitl [HS]
    · iexists _; iexact HS
    iexact Hrest
  iexact Hg

end

end Cert.Kernel.Hand

end
-- ==== Proof.BH2Base.lean ====
/-
  Layer 2's kernel region: the blocks its windows stage, the two conditions its body branches on, and where
  its output window rests.

  The grid's innermost axis walks the fan-in in 8 steps. The body clears its accumulator at step 0, adds one
  block product at every step, and at the last step adds the bias, applies the activation and stores the output
  block; at every other step the output block's buffer is left as found and is not written back.
-/
import proofs.«122649_j45518063403493_2_alg».proof.Proof.Gen.Kernel.Launch
import proofs.«122649_j45518063403493_2_alg».proof.Proof.Gen.Kernel.Skeleton
import proofs.«122649_j45518063403493_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The body's two conditions, in closed form over the grid -/

/-- "This is the first step along the fan-in axis." -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "This is the last step along the fan-in axis." -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows rest -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last step the output window rests, and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last step it is stored. -/
theorem liveAt2_3 : ∀ t : Fin cfg2.N, cond2_1 (grid2.coords t) → cfg2.idle 3 (grid2.coords t) = false := by decide +kernel

/-! ## The memrefs the body is called with -/

abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1024 .bf16 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S2048x1024 .f32 := Memref.whole cc2_scratch0
/-- Views through which the output block's and the accumulator's contents are stated. -/
abbrev VO2 : View sig .tc .vmem S2048x1024 .bf16 := (Memref.whole cc2_stg3_0 : Memref sig .tc .vmem S2048x1024 .bf16).view
abbrev VS2 : View sig .tc .vmem S2048x1024 .f32 := scM2.view

/-- The region's resting invariant with the accumulator split off: the accumulator at some contents, every other
    scoped buffer the region does not stage, and the generator register. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.Kernel.Hand

end
-- ==== Proof.BH2RunA.lean ====
/-
  Layer 2's kernel body run whole, in one of its three control cases.
-/
import proofs.«122649_j45518063403493_2_alg».proof.Proof.BH2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first step along the fan-in axis: the accumulator, found at anything, is cleared and then holds the first block
    product; the output block's buffer is handed back as found.
    The pieces the stores leave are found by running the body. -/
noncomputable def kernelRun2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) :
    { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__masked_linear_kernel i arg3 harg3 arg4 harg4 arg5 harg5 arg6 harg6 arg7 harg7) K } := by
  refine ⟨?_, fun xi3 E K => ?run⟩
  case run =>
    simp only [cc2__masked_linear_kernel_eq_skeleton]; unfold cc2__masked_linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.BH2RunB.lean ====
/-
  Layer 2's kernel body run whole, in one of its three control cases.
-/
import proofs.«122649_j45518063403493_2_alg».proof.Proof.BH2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step: the accumulator, found at what the step before left, gains one block product; the output block's
    buffer is handed back as found.
    The pieces the stores leave are found by running the body. -/
noncomputable def kernelRun2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs : Vec F S2048x1024 .f32) :
    { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__masked_linear_kernel i arg3 harg3 arg4 harg4 arg5 harg5 arg6 harg6 arg7 harg7) K } := by
  refine ⟨?_, fun xi3 E K => ?run⟩
  case run =>
    simp only [cc2__masked_linear_kernel_eq_skeleton]; unfold cc2__masked_linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.BH2RunC.lean ====
/-
  Layer 2's kernel body run whole, in one of its three control cases.
-/
import proofs.«122649_j45518063403493_2_alg».proof.Proof.BH2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last step: the accumulator gains the last block product, and the output block, found at anything, is stored
    from it and the bias.
    The pieces the stores leave are found by running the body. -/
noncomputable def kernelRun2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) :
    Σ' (L3 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc2__masked_linear_kernel i arg3 harg3 arg4 harg4 arg5 harg5 arg6 harg6 arg7 harg7) K } := by
  refine ⟨?_, ?_, fun E K => ?run⟩
  case run =>
    simp only [cc2__masked_linear_kernel_eq_skeleton]; unfold cc2__masked_linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.BH2Frame.lean ====
/-
  Layer 2's kernel region, point by point: what the accumulator holds after each grid point, what the output
  block holds after each last step, the invariant that carries the accumulator from one point to the next, and the
  body's run at a generic point.

  Points are numbered with the fan-in axis innermost, so point `t` is step `t % 8` of its output block. After
  a first step the accumulator holds that step's block product; after any later step, what the step before left
  plus this step's block product; after a last step the output block's buffer holds the activation of the
  accumulator plus the bias.
-/
import proofs.«122649_j45518063403493_2_alg».proof.Proof.BH2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

theorem scover2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i) (x0 : Vec F S2048x1024 .bf16) (x1 : Vec F S1024x1024 .bf16) (x2 : Vec F S1x1024 .f32) (y : S2048x1024.Idx) :
    ∃ pc ∈ (kernelRun2_A c i arg3 harg3 arg4 harg4 arg5 harg5 arg6 harg6 arg7 harg7 hc0 hc1 x0 x1 x2).1, y ∈ pc.1.set :=
  View.cover_of_tiledL (kernelRun2_A c i arg3 harg3 arg4 harg4 arg5 harg5 arg6 harg6 arg7 harg7 hc0 hc1 x0 x1 x2).1 S2048x1024.size (by sl_kernel_rfl) y

/-- The accumulator after a first step. -/
def sout2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i) (x0 : Vec F S2048x1024 .bf16) (x1 : Vec F S1024x1024 .bf16) (x2 : Vec F S1x1024 .f32) : Vec F S2048x1024 .f32 :=
  VS2.read (Elt F) (VS2.writes (Elt F) VS2.junk (kernelRun2_A c i arg3 harg3 arg4 harg4 arg5 harg5 arg6 harg6 arg7 harg7 hc0 hc1 x0 x1 x2).1)

theorem scover2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i) (x0 : Vec F S2048x1024 .bf16) (x1 : Vec F S1024x1024 .bf16) (x2 : Vec F S1x1024 .f32) (xs : Vec F S2048x1024 .f32) (y : S2048x1024.Idx) :
    ∃ pc ∈ (kernelRun2_B c i arg3 harg3 arg4 harg4 arg5 harg5 arg6 harg6 arg7 harg7 hc0 hc1 x0 x1 x2 xs).1, y ∈ pc.1.set :=
  View.cover_of_tiledL (kernelRun2_B c i arg3 harg3 arg4 harg4 arg5 harg5 arg6 harg6 arg7 harg7 hc0 hc1 x0 x1 x2 xs).1 S2048x1024.size (by sl_kernel_rfl) y

/-- The accumulator after a middle step. -/
def sout2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i) (x0 : Vec F S2048x1024 .bf16) (x1 : Vec F S1024x1024 .bf16) (x2 : Vec F S1x1024 .f32) (xs : Vec F S2048x1024 .f32) : Vec F S2048x1024 .f32 :=
  VS2.read (Elt F) (VS2.writes (Elt F) VS2.junk (kernelRun2_B c i arg3 harg3 arg4 harg4 arg5 harg5 arg6 harg6 arg7 harg7 hc0 hc1 x0 x1 x2 xs).1)

theorem cover2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i) (x0 : Vec F S2048x1024 .bf16) (x1 : Vec F S1024x1024 .bf16) (x2 : Vec F S1x1024 .f32) (xs : Vec F S2048x1024 .f32) (y : S2048x1024.Idx) :
    ∃ pc ∈ (kernelRun2_C c i arg3 harg3 arg4 harg4 arg5 harg5 arg6 harg6 arg7 harg7 hc0 hc1 x0 x1 x2 xs).1, y ∈ pc.1.set :=
  View.cover_of_tiledL (kernelRun2_C c i arg3 harg3 arg4 harg4 arg5 harg5 arg6 harg6 arg7 harg7 hc0 hc1 x0 x1 x2 xs).1 S2048x1024.size (by sl_kernel_rfl) y

/-- The output block's buffer after a last step. -/
def out2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i) (x0 : Vec F S2048x1024 .bf16) (x1 : Vec F S1024x1024 .bf16) (x2 : Vec F S1x1024 .f32) (xs : Vec F S2048x1024 .f32) : Vec F S2048x1024 .bf16 :=
  VO2.read (Elt F) (VO2.writes (Elt F) VO2.junk (kernelRun2_C c i arg3 harg3 arg4 harg4 arg5 harg5 arg6 harg6 arg7 harg7 hc0 hc1 x0 x1 x2 xs).1)

theorem scover2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i) (x0 : Vec F S2048x1024 .bf16) (x1 : Vec F S1024x1024 .bf16) (x2 : Vec F S1x1024 .f32) (xs : Vec F S2048x1024 .f32) (y : S2048x1024.Idx) :
    ∃ pc ∈ (kernelRun2_C c i arg3 harg3 arg4 harg4 arg5 harg5 arg6 harg6 arg7 harg7 hc0 hc1 x0 x1 x2 xs).2.1, y ∈ pc.1.set :=
  View.cover_of_tiledL (kernelRun2_C c i arg3 harg3 arg4 harg4 arg5 harg5 arg6 harg6 arg7 harg7 hc0 hc1 x0 x1 x2 xs).2.1 S2048x1024.size (by sl_kernel_rfl) y

/-- The accumulator after a last step. -/
def sout2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i) (x0 : Vec F S2048x1024 .bf16) (x1 : Vec F S1024x1024 .bf16) (x2 : Vec F S1x1024 .f32) (xs : Vec F S2048x1024 .f32) : Vec F S2048x1024 .f32 :=
  VS2.read (Elt F) (VS2.writes (Elt F) VS2.junk (kernelRun2_C c i arg3 harg3 arg4 harg4 arg5 harg5 arg6 harg6 arg7 harg7 hc0 hc1 x0 x1 x2 xs).2.1)

section
variable (V : (c : Dev nD) → (b : Ref sig .tc) → Buf (Elt F) ((c : Thread nD τ).loc b))

/-! ## The accumulation -/

/-- What the accumulator holds after the body at position `n`. -/
def accAt2 (c : Dev nD) : (n : ℕ) → n < cfg2.N → Vec F S2048x1024 .f32
  | 0, hn => sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 8 = 0 then
      sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩)
    else if h1 : (n + 1) % 8 = 7 then
      sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (accAt2 c n (Nat.lt_of_succ_lt hn))
    else
      sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (accAt2 c n (Nat.lt_of_succ_lt hn))

theorem accAt2_A (c : Dev nD) (t : Fin cfg2.N) (h0 : t.val % 8 = 0) (h1 : ¬t.val % 8 = 7) :
    accAt2 V c t.val t.isLt = sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t) := by
  obtain ⟨n, hn⟩ := t
  cases n with
  | zero => exact rfl
  | succ n => exact (dif_pos h0).trans rfl

theorem accAt2_B (c : Dev nD) (t : Fin cfg2.N) (h0 : ¬t.val % 8 = 0) (h1 : ¬t.val % 8 = 7) :
    accAt2 V c t.val t.isLt = sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt2_C (c : Dev nD) (t : Fin cfg2.N) (h0 : ¬t.val % 8 = 0) (h1 : t.val % 8 = 7) :
    accAt2 V c t.val t.isLt = sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's buffer holds after the body at position `n`: at a last step, the stored block; elsewhere the
    window rests and this value is consulted by nothing. -/
def outAt2 (c : Dev nD) (n : ℕ) (hn : n < cfg2.N) : Vec F S2048x1024 .bf16 :=
  if h1 : n % 8 = 7 then
    out2_C c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2 (Memref.isWhole_whole _) (fun h => (fun h => by (try dsimp only at h); omega) ((hcond2_0 ⟨n, hn⟩).mp h)) ((hcond2_1 ⟨n, hn⟩).mpr h1) (iblk2 V c 0 ⟨n, hn⟩) (iblk2 V c 1 ⟨n, hn⟩) (iblk2 V c 2 ⟨n, hn⟩) (accAt2 V c (n - 1) (Nat.lt_of_le_of_lt (Nat.sub_le _ _) hn))
  else VO2.read (Elt F) VO2.junk

theorem outAt2_C (c : Dev nD) (t : Fin cfg2.N) (h0 : ¬t.val % 8 = 0) (h1 : t.val % 8 = 7) :
    outAt2 V c t.val t.isLt = out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (accAt2 V c (t.val - 1) (Nat.lt_of_le_of_lt (Nat.sub_le _ _) t.isLt)) := by
  unfold outAt2; exact (dif_pos h1).trans rfl

/-! ## The invariant -/

/-- Before position `n`: at the region's entry, its resting invariant; afterwards the accumulator at what the point before
    left, every other scoped buffer the region does not stage, and the generator register. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (accAt2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The region's proof data -/

/-- The arrays as the region finds them; after the body each input's buffer at its block, the output's at `outAt`; the
    invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The inputs' buffers hold their blocks; the closed forms say which case the point is in; the invariant hands the body
    the accumulator at what the point before left (at anything, at the region's first point) and takes it back at this
    point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val % 8 = 0
  · have h1 : ¬t.val % 8 = 7 := by omega
    rw [Dat.leavesExact_idle (dat2 V c) 3 t (idleAt2_3 t (fun h => h1 ((hcond2_1 t).mp h))) (noFlush2_3 t (fun h => h1 ((hcond2_1 t).mp h)))]
    rw [accAt2_A V c t h0 h1]
    unfold sout2_A; (try dsimp only)
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by omega)
    by_cases h1 : t.val % 8 = 7
    · rw [show (dat2 V c).leavesExact 3 t = owns (c : Thread nD τ) (ms2_3 t) fullShare ((dat2 V c).after 3 t) from by
        unfold Dat.leavesExact; rw [liveAt2_3 t ((hcond2_1 t).mpr h1)], after2_3]
      rw [accAt2_C V c t h0 h1, outAt2_C V c t h0 h1]
      unfold out2_C sout2_C; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover2_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [accAt2_B V c t h0 h1]
      unfold sout2_B; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover2_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before its first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After its last point the invariant gives the resting invariant back: the accumulator's contents are forgotten. -/
theorem hout2 (c : Dev nD) : (dat2 V c).Φ (Fin.last cfg2.N) ⊢ Pipeline.ΦA spec2 c := by
  have hN : (Fin.last cfg2.N).val ≠ 0 := by rw [Fin.val_last]; have : cfg2.N = 128 := N_2; omega
  rw [show (dat2 V c).Φ (Fin.last cfg2.N) = PhiS2 V c (Fin.last cfg2.N).val (Nat.le_of_lt_succ (Fin.last cfg2.N).isLt) from rfl, PhiS2_pos V c _ _ hN, PhiA2_eq]
  iintro ⟨⟨HS, Hrest⟩, Hg⟩
  isplitl [HS Hrest]
  · isplitl [HS]
    · iexists _; iexact HS
    iexact Hrest
  iexact Hg

end

end Cert.Kernel.Hand

end
-- ==== Proof.BH3Base.lean ====
/-
  Layer 3's kernel region: the blocks its windows stage, the two conditions its body branches on, and where
  its output window rests.

  The grid's innermost axis walks the fan-in in 4 steps. The body clears its accumulator at step 0, adds one
  block product at every step, and at the last step adds the bias, applies the activation and stores the output
  block; at every other step the output block's buffer is left as found and is not written back.
-/
import proofs.«122649_j45518063403493_2_alg».proof.Proof.Gen.Kernel.Launch
import proofs.«122649_j45518063403493_2_alg».proof.Proof.Gen.Kernel.Skeleton
import proofs.«122649_j45518063403493_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

/-! ## The body's two conditions, in closed form over the grid -/

/-- "This is the first step along the fan-in axis." -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- "This is the last step along the fan-in axis." -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows rest -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last step the output window rests, and its block is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At the last step it is stored. -/
theorem liveAt3_3 : ∀ t : Fin cfg3.N, cond3_1 (grid3.coords t) → cfg3.idle 3 (grid3.coords t) = false := by decide +kernel

/-! ## The memrefs the body is called with -/

abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3 : Memref sig .tc .vmem S1024x1024 .f32 := Memref.whole cc3_scratch0
/-- Views through which the output block's and the accumulator's contents are stated. -/
abbrev VO3 : View sig .tc .vmem S1024x1024 .f32 := (Memref.whole cc3_stg3_0 : Memref sig .tc .vmem S1024x1024 .f32).view
abbrev VS3 : View sig .tc .vmem S1024x1024 .f32 := scM3.view

/-- The region's resting invariant with the accumulator split off: the accumulator at some contents, every other
    scoped buffer the region does not stage, and the generator register. -/
theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.Kernel.Hand

end
-- ==== Proof.BH3RunA.lean ====
/-
  Layer 3's kernel body run whole, in one of its three control cases.
-/
import proofs.«122649_j45518063403493_2_alg».proof.Proof.BH3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first step along the fan-in axis: the accumulator, found at anything, is cleared and then holds the first block
    product; the output block's buffer is handed back as found.
    The pieces the stores leave are found by running the body. -/
noncomputable def kernelRun3_A (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond3_0 i) (hc1 : ¬cond3_1 i)
    (x0 : Vec F S1024x1024 .bf16) (x1 : Vec F S1024x1024 .bf16) (x2 : Vec F S1x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc3__masked_linear_kernel i arg3 harg3 arg4 harg4 arg5 harg5 arg6 harg6 arg7 harg7) K } := by
  refine ⟨?_, fun xi3 E K => ?run⟩
  case run =>
    simp only [cc3__masked_linear_kernel_eq_skeleton]; unfold cc3__masked_linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.BH3RunB.lean ====
/-
  Layer 3's kernel body run whole, in one of its three control cases.
-/
import proofs.«122649_j45518063403493_2_alg».proof.Proof.BH3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step: the accumulator, found at what the step before left, gains one block product; the output block's
    buffer is handed back as found.
    The pieces the stores leave are found by running the body. -/
noncomputable def kernelRun3_B (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : ¬cond3_1 i)
    (x0 : Vec F S1024x1024 .bf16) (x1 : Vec F S1024x1024 .bf16) (x2 : Vec F S1x1024 .f32) (xs : Vec F S1024x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc3__masked_linear_kernel i arg3 harg3 arg4 harg4 arg5 harg5 arg6 harg6 arg7 harg7) K } := by
  refine ⟨?_, fun xi3 E K => ?run⟩
  case run =>
    simp only [cc3__masked_linear_kernel_eq_skeleton]; unfold cc3__masked_linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.BH3RunC.lean ====
/-
  Layer 3's kernel body run whole, in one of its three control cases.
-/
import proofs.«122649_j45518063403493_2_alg».proof.Proof.BH3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last step: the accumulator gains the last block product, and the output block, found at anything, is stored
    from it and the bias.
    The pieces the stores leave are found by running the body. -/
noncomputable def kernelRun3_C (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : cond3_1 i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc3__masked_linear_kernel i arg3 harg3 arg4 harg4 arg5 harg5 arg6 harg6 arg7 harg7) K } := by
  refine ⟨?_, ?_, fun E K => ?run⟩
  case run =>
    simp only [cc3__masked_linear_kernel_eq_skeleton]; unfold cc3__masked_linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.BH3Frame.lean ====
/-
  Layer 3's kernel region, point by point: what the accumulator holds after each grid point, what the output
  block holds after each last step, the invariant that carries the accumulator from one point to the next, and the
  body's run at a generic point.

  Points are numbered with the fan-in axis innermost, so point `t` is step `t % 4` of its output block. After
  a first step the accumulator holds that step's block product; after any later step, what the step before left
  plus this step's block product; after a last step the output block's buffer holds the activation of the
  accumulator plus the bias.
-/
import proofs.«122649_j45518063403493_2_alg».proof.Proof.BH3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

theorem scover3_A (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond3_0 i) (hc1 : ¬cond3_1 i) (x0 : Vec F S1024x1024 .bf16) (x1 : Vec F S1024x1024 .bf16) (x2 : Vec F S1x1024 .f32) (y : S1024x1024.Idx) :
    ∃ pc ∈ (kernelRun3_A c i arg3 harg3 arg4 harg4 arg5 harg5 arg6 harg6 arg7 harg7 hc0 hc1 x0 x1 x2).1, y ∈ pc.1.set :=
  View.cover_of_tiledL (kernelRun3_A c i arg3 harg3 arg4 harg4 arg5 harg5 arg6 harg6 arg7 harg7 hc0 hc1 x0 x1 x2).1 S1024x1024.size (by sl_kernel_rfl) y

/-- The accumulator after a first step. -/
def sout3_A (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond3_0 i) (hc1 : ¬cond3_1 i) (x0 : Vec F S1024x1024 .bf16) (x1 : Vec F S1024x1024 .bf16) (x2 : Vec F S1x1024 .f32) : Vec F S1024x1024 .f32 :=
  VS3.read (Elt F) (VS3.writes (Elt F) VS3.junk (kernelRun3_A c i arg3 harg3 arg4 harg4 arg5 harg5 arg6 harg6 arg7 harg7 hc0 hc1 x0 x1 x2).1)

theorem scover3_B (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : ¬cond3_1 i) (x0 : Vec F S1024x1024 .bf16) (x1 : Vec F S1024x1024 .bf16) (x2 : Vec F S1x1024 .f32) (xs : Vec F S1024x1024 .f32) (y : S1024x1024.Idx) :
    ∃ pc ∈ (kernelRun3_B c i arg3 harg3 arg4 harg4 arg5 harg5 arg6 harg6 arg7 harg7 hc0 hc1 x0 x1 x2 xs).1, y ∈ pc.1.set :=
  View.cover_of_tiledL (kernelRun3_B c i arg3 harg3 arg4 harg4 arg5 harg5 arg6 harg6 arg7 harg7 hc0 hc1 x0 x1 x2 xs).1 S1024x1024.size (by sl_kernel_rfl) y

/-- The accumulator after a middle step. -/
def sout3_B (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : ¬cond3_1 i) (x0 : Vec F S1024x1024 .bf16) (x1 : Vec F S1024x1024 .bf16) (x2 : Vec F S1x1024 .f32) (xs : Vec F S1024x1024 .f32) : Vec F S1024x1024 .f32 :=
  VS3.read (Elt F) (VS3.writes (Elt F) VS3.junk (kernelRun3_B c i arg3 harg3 arg4 harg4 arg5 harg5 arg6 harg6 arg7 harg7 hc0 hc1 x0 x1 x2 xs).1)

theorem cover3_C (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : cond3_1 i) (x0 : Vec F S1024x1024 .bf16) (x1 : Vec F S1024x1024 .bf16) (x2 : Vec F S1x1024 .f32) (xs : Vec F S1024x1024 .f32) (y : S1024x1024.Idx) :
    ∃ pc ∈ (kernelRun3_C c i arg3 harg3 arg4 harg4 arg5 harg5 arg6 harg6 arg7 harg7 hc0 hc1 x0 x1 x2 xs).1, y ∈ pc.1.set :=
  View.cover_of_tiledL (kernelRun3_C c i arg3 harg3 arg4 harg4 arg5 harg5 arg6 harg6 arg7 harg7 hc0 hc1 x0 x1 x2 xs).1 S1024x1024.size (by sl_kernel_rfl) y

/-- The output block's buffer after a last step. -/
def out3_C (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : cond3_1 i) (x0 : Vec F S1024x1024 .bf16) (x1 : Vec F S1024x1024 .bf16) (x2 : Vec F S1x1024 .f32) (xs : Vec F S1024x1024 .f32) : Vec F S1024x1024 .f32 :=
  VO3.read (Elt F) (VO3.writes (Elt F) VO3.junk (kernelRun3_C c i arg3 harg3 arg4 harg4 arg5 harg5 arg6 harg6 arg7 harg7 hc0 hc1 x0 x1 x2 xs).1)

theorem scover3_C (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : cond3_1 i) (x0 : Vec F S1024x1024 .bf16) (x1 : Vec F S1024x1024 .bf16) (x2 : Vec F S1x1024 .f32) (xs : Vec F S1024x1024 .f32) (y : S1024x1024.Idx) :
    ∃ pc ∈ (kernelRun3_C c i arg3 harg3 arg4 harg4 arg5 harg5 arg6 harg6 arg7 harg7 hc0 hc1 x0 x1 x2 xs).2.1, y ∈ pc.1.set :=
  View.cover_of_tiledL (kernelRun3_C c i arg3 harg3 arg4 harg4 arg5 harg5 arg6 harg6 arg7 harg7 hc0 hc1 x0 x1 x2 xs).2.1 S1024x1024.size (by sl_kernel_rfl) y

/-- The accumulator after a last step. -/
def sout3_C (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : cond3_1 i) (x0 : Vec F S1024x1024 .bf16) (x1 : Vec F S1024x1024 .bf16) (x2 : Vec F S1x1024 .f32) (xs : Vec F S1024x1024 .f32) : Vec F S1024x1024 .f32 :=
  VS3.read (Elt F) (VS3.writes (Elt F) VS3.junk (kernelRun3_C c i arg3 harg3 arg4 harg4 arg5 harg5 arg6 harg6 arg7 harg7 hc0 hc1 x0 x1 x2 xs).2.1)

section
variable (V : (c : Dev nD) → (b : Ref sig .tc) → Buf (Elt F) ((c : Thread nD τ).loc b))

/-! ## The accumulation -/

/-- What the accumulator holds after the body at position `n`. -/
def accAt3 (c : Dev nD) : (n : ℕ) → n < cfg3.N → Vec F S1024x1024 .f32
  | 0, hn => sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩)
  | n + 1, hn =>
    if h0 : (n + 1) % 4 = 0 then
      sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => (fun h => by (try dsimp only at h); omega) ((hcond3_1 ⟨n + 1, hn⟩).mp h)) (iblk3 V c 0 ⟨n + 1, hn⟩) (iblk3 V c 1 ⟨n + 1, hn⟩) (iblk3 V c 2 ⟨n + 1, hn⟩)
    else if h1 : (n + 1) % 4 = 3 then
      sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (accAt3 c n (Nat.lt_of_succ_lt hn))
    else
      sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (accAt3 c n (Nat.lt_of_succ_lt hn))

theorem accAt3_A (c : Dev nD) (t : Fin cfg3.N) (h0 : t.val % 4 = 0) (h1 : ¬t.val % 4 = 3) :
    accAt3 V c t.val t.isLt = sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t) := by
  obtain ⟨n, hn⟩ := t
  cases n with
  | zero => exact rfl
  | succ n => exact (dif_pos h0).trans rfl

theorem accAt3_B (c : Dev nD) (t : Fin cfg3.N) (h0 : ¬t.val % 4 = 0) (h1 : ¬t.val % 4 = 3) :
    accAt3 V c t.val t.isLt = sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (accAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt3_C (c : Dev nD) (t : Fin cfg3.N) (h0 : ¬t.val % 4 = 0) (h1 : t.val % 4 = 3) :
    accAt3 V c t.val t.isLt = sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (accAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's buffer holds after the body at position `n`: at a last step, the stored block; elsewhere the
    window rests and this value is consulted by nothing. -/
def outAt3 (c : Dev nD) (n : ℕ) (hn : n < cfg3.N) : Vec F S1024x1024 .f32 :=
  if h1 : n % 4 = 3 then
    out3_C c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3 (Memref.isWhole_whole _) (fun h => (fun h => by (try dsimp only at h); omega) ((hcond3_0 ⟨n, hn⟩).mp h)) ((hcond3_1 ⟨n, hn⟩).mpr h1) (iblk3 V c 0 ⟨n, hn⟩) (iblk3 V c 1 ⟨n, hn⟩) (iblk3 V c 2 ⟨n, hn⟩) (accAt3 V c (n - 1) (Nat.lt_of_le_of_lt (Nat.sub_le _ _) hn))
  else VO3.read (Elt F) VO3.junk

theorem outAt3_C (c : Dev nD) (t : Fin cfg3.N) (h0 : ¬t.val % 4 = 0) (h1 : t.val % 4 = 3) :
    outAt3 V c t.val t.isLt = out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (accAt3 V c (t.val - 1) (Nat.lt_of_le_of_lt (Nat.sub_le _ _) t.isLt)) := by
  unfold outAt3; exact (dif_pos h1).trans rfl

/-! ## The invariant -/

/-- Before position `n`: at the region's entry, its resting invariant; afterwards the accumulator at what the point before
    left, every other scoped buffer the region does not stage, and the generator register. -/
def PhiS3 (c : Dev nD) : (n : ℕ) → n ≤ cfg3.N → sProp 𝕄
  | 0, _ => Pipeline.ΦA spec3 c
  | n + 1, hn => iprop(iprop(owns (c : Thread nD τ) scM3 fullShare (accAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (accAt3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (accAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The region's proof data -/

/-- The arrays as the region finds them; after the body each input's buffer at its block, the output's at `outAt`; the
    invariant `PhiS`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The inputs' buffers hold their blocks; the closed forms say which case the point is in; the invariant hands the body
    the accumulator at what the point before left (at anything, at the region's first point) and takes it back at this
    point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  by_cases h0 : t.val % 4 = 0
  · have h1 : ¬t.val % 4 = 3 := by omega
    rw [Dat.leavesExact_idle (dat3 V c) 3 t (idleAt3_3 t (fun h => h1 ((hcond3_1 t).mp h))) (noFlush3_3 t (fun h => h1 ((hcond3_1 t).mp h)))]
    rw [accAt3_A V c t h0 h1]
    unfold sout3_A; (try dsimp only)
    by_cases hz : t.val = 0
    · rw [PhiS3_castSucc V c t, PhiS3_zero V c _ _ hz, PhiA3_eq]
      iintro ⟨⟨⟨HS, Hrest⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by omega)
    by_cases h1 : t.val % 4 = 3
    · rw [show (dat3 V c).leavesExact 3 t = owns (c : Thread nD τ) (ms3_3 t) fullShare ((dat3 V c).after 3 t) from by
        unfold Dat.leavesExact; rw [liveAt3_3 t ((hcond3_1 t).mpr h1)], after3_3]
      rw [accAt3_C V c t h0 h1, outAt3_C V c t h0 h1]
      unfold out3_C sout3_C; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover3_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [accAt3_B V c t h0 h1]
      unfold sout3_B; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-- What the region is handed is the invariant before its first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After its last point the invariant gives the resting invariant back: the accumulator's contents are forgotten. -/
theorem hout3 (c : Dev nD) : (dat3 V c).Φ (Fin.last cfg3.N) ⊢ Pipeline.ΦA spec3 c := by
  have hN : (Fin.last cfg3.N).val ≠ 0 := by rw [Fin.val_last]; have : cfg3.N = 32 := N_3; omega
  rw [show (dat3 V c).Φ (Fin.last cfg3.N) = PhiS3 V c (Fin.last cfg3.N).val (Nat.le_of_lt_succ (Fin.last cfg3.N).isLt) from rfl, PhiS3_pos V c _ _ hN, PhiA3_eq]
  iintro ⟨⟨HS, Hrest⟩, Hg⟩
  isplitl [HS Hrest]
  · isplitl [HS]
    · iexists _; iexact HS
    iexact Hrest
  iexact Hg

end

end Cert.Kernel.Hand

end
-- ==== Proof.BHRun.lean ====
/-
  The whole program: four kernel regions among stretches of host operations.

  Between two items the core holds every unscoped buffer at a known valuation: the launch memory, then each host
  stretch's operations applied, then — after a region — that region's arrays at what its write-backs leave and every
  other buffer untouched. No host operation and no region writes an argument array, so each argument reaches the end
  as launched; the result array ends at what the last region's write-backs leave.
-/
import proofs.«122649_j45518063403493_2_alg».proof.Proof.BH0Frame
import proofs.«122649_j45518063403493_2_alg».proof.Proof.BH1Frame
import proofs.«122649_j45518063403493_2_alg».proof.Proof.BH2Frame
import proofs.«122649_j45518063403493_2_alg».proof.Proof.BH3Frame
import proofs.«122649_j45518063403493_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)

/-- After the host stretch before region 0 (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch before region 1 (region 1's entry). -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At region 1's exit: its arrays at what its write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch before region 2 (region 2's entry). -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At region 2's exit: its arrays at what its write-backs leave, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host stretch before region 3 (region 3's entry). -/
abbrev W7 : Dev nD → Valuation τ sig (Elt F) := fun c => StableHlo.after hostOps3 (W6 m c)
/-- The same read at the TensorCore's references. -/
abbrev V7 : (c : Dev nD) → (b : Ref sig .tc) → Buf (Elt F) ((c : Thread nD τ).loc b) := fun c b => W7 m c b
/-- At region 3's exit: its arrays at what its write-backs leave, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## What no item changes -/

/-- A buffer that no host stretch writes and no region stages reaches the end as launched. -/
theorem W8_keep (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) (a3 : ∀ w, Pipeline.arrRef spec3 w ≠ r) :
    W8 m c (Proc.devRef .tc r) = m ((c : Thread nD τ).loc r) :=
  calc W8 m c (Proc.devRef .tc r)
    _ = W7 m c (Proc.devRef .tc r) := W8_of_ne m c r a3
    _ = W6 m c (Proc.devRef .tc r) := StableHlo.after_of_writes_sub hostOps3 _ hostOps3_writes h3
    _ = W5 m c (Proc.devRef .tc r) := W6_of_ne m c r a2
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl

theorem W8_main_arg0 (c : Dev nD) : W8 m c (Proc.devRef .tc main_arg0) = m ((c : Thread nD τ).loc main_arg0) :=
  W8_keep m c main_arg0 (by decide) (by decide) (by decide) (by decide) (by decide) (by decide) (by decide) (by decide)
theorem W8_main_arg1 (c : Dev nD) : W8 m c (Proc.devRef .tc main_arg1) = m ((c : Thread nD τ).loc main_arg1) :=
  W8_keep m c main_arg1 (by decide) (by decide) (by decide) (by decide) (by decide) (by decide) (by decide) (by decide)
theorem W8_main_arg2 (c : Dev nD) : W8 m c (Proc.devRef .tc main_arg2) = m ((c : Thread nD τ).loc main_arg2) :=
  W8_keep m c main_arg2 (by decide) (by decide) (by decide) (by decide) (by decide) (by decide) (by decide) (by decide)
theorem W8_main_arg3 (c : Dev nD) : W8 m c (Proc.devRef .tc main_arg3) = m ((c : Thread nD τ).loc main_arg3) :=
  W8_keep m c main_arg3 (by decide) (by decide) (by decide) (by decide) (by decide) (by decide) (by decide) (by decide)
theorem W8_main_arg4 (c : Dev nD) : W8 m c (Proc.devRef .tc main_arg4) = m ((c : Thread nD τ).loc main_arg4) :=
  W8_keep m c main_arg4 (by decide) (by decide) (by decide) (by decide) (by decide) (by decide) (by decide) (by decide)
theorem W8_main_arg5 (c : Dev nD) : W8 m c (Proc.devRef .tc main_arg5) = m ((c : Thread nD τ).loc main_arg5) :=
  W8_keep m c main_arg5 (by decide) (by decide) (by decide) (by decide) (by decide) (by decide) (by decide) (by decide)
theorem W8_main_arg6 (c : Dev nD) : W8 m c (Proc.devRef .tc main_arg6) = m ((c : Thread nD τ).loc main_arg6) :=
  W8_keep m c main_arg6 (by decide) (by decide) (by decide) (by decide) (by decide) (by decide) (by decide) (by decide)
theorem W8_main_arg7 (c : Dev nD) : W8 m c (Proc.devRef .tc main_arg7) = m ((c : Thread nD τ).loc main_arg7) :=
  W8_keep m c main_arg7 (by decide) (by decide) (by decide) (by decide) (by decide) (by decide) (by decide) (by decide)
theorem W8_main_arg8 (c : Dev nD) : W8 m c (Proc.devRef .tc main_arg8) = m ((c : Thread nD τ).loc main_arg8) :=
  W8_keep m c main_arg8 (by decide) (by decide) (by decide) (by decide) (by decide) (by decide) (by decide) (by decide)
theorem W8_main_arg9 (c : Dev nD) : W8 m c (Proc.devRef .tc main_arg9) = m ((c : Thread nD τ).loc main_arg9) :=
  W8_keep m c main_arg9 (by decide) (by decide) (by decide) (by decide) (by decide) (by decide) (by decide) (by decide)
theorem W8_main_arg10 (c : Dev nD) : W8 m c (Proc.devRef .tc main_arg10) = m ((c : Thread nD τ).loc main_arg10) :=
  W8_keep m c main_arg10 (by decide) (by decide) (by decide) (by decide) (by decide) (by decide) (by decide) (by decide)
theorem W8_main_arg11 (c : Dev nD) : W8 m c (Proc.devRef .tc main_arg11) = m ((c : Thread nD τ).loc main_arg11) :=
  W8_keep m c main_arg11 (by decide) (by decide) (by decide) (by decide) (by decide) (by decide) (by decide) (by decide)
theorem W8_main_arg12 (c : Dev nD) : W8 m c (Proc.devRef .tc main_arg12) = m ((c : Thread nD τ).loc main_arg12) :=
  W8_keep m c main_arg12 (by decide) (by decide) (by decide) (by decide) (by decide) (by decide) (by decide) (by decide)

/-! ## The proof data family and the thread state -/

/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. Its arrays are split out of
    the unscoped buffers and put back at the exit contents; the generator register goes into the invariant and comes out;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of
    the unscoped buffers and put back at the exit contents; the generator register goes into the invariant and comes out;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out of
    the unscoped buffers and put back at the exit contents; the generator register goes into the invariant and comes out;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m) c)
    unfold Pipeline.ΦA
    iintro ⟨Hp, -, Hr⟩
    isplitl [Hr]; · iexact Hr
    iexact Hp
  hout c := by
    rw [Pipeline.ownSems0_none]
    refine (hout2 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out of
    the unscoped buffers and put back at the exit contents; the generator register goes into the invariant and comes out;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(iprop(StableHlo.held (c : Thread nD τ) (Pipeline.ucRefs τ sig) (W8 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m) c)
    unfold Pipeline.ΦA
    iintro ⟨Hp, -, Hr⟩
    isplitl [Hr]; · iexact Hr
    iexact Hp
  hout c := by
    rw [Pipeline.ownSems0_none]
    refine (hout3 (V7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

theorem main_run (c : Dev nD) : main (F := F) c = Pipeline.Seg.run (segs m) := (main_chain c).trans (by chain_rfl)

set_option backward.isDefEq.respectTransparency.types false in
/-- From any memory with zero counters every weakly fair execution of @main terminates, nothing faulting, and every final
    state holds each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c)⟩) (run_all m ρ)

/-- The result array ends at what the last region's write-backs leave, and every argument array as launched. -/
theorem run_result : θ_run defs (onTc (τ := τ) (main (F := F))) ⟨m, fun _ => 0, ρ⟩ (fun r => ∀ c : Dev nD,
      r.2.mem ((c.tc : Thread nD τ).loc main_v16) = (dat3 (V7 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v16 (by decide))).trans (W8_arr m c 3),
    (h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c)⟩) (run_all m ρ)

end Cert.Kernel.Hand

end
-- ==== Proof.IH0Base.lean ====
/-
  Layer 0's kernel region: the blocks its windows stage, the two conditions its body branches on, and where
  its output window rests.

  The grid's innermost axis walks the fan-in in 4 steps. The body clears its accumulator at step 0, adds one
  block product at every step, and at the last step adds the bias, applies the activation and stores the output
  block; at every other step the output block's buffer is left as found and is not written back.
-/
import proofs.«122649_j45518063403493_2_alg».proof.Proof.Gen.KernelIdeal.Launch
import proofs.«122649_j45518063403493_2_alg».proof.Proof.Gen.KernelIdeal.Skeleton
import proofs.«122649_j45518063403493_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions, in closed form over the grid -/

/-- "This is the first step along the fan-in axis." -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step along the fan-in axis." -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows rest -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last step the output window rests, and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last step it is stored. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S2048x1024 .f32 := Memref.whole cc0_scratch0
/-- Views through which the output block's and the accumulator's contents are stated. -/
abbrev VO0 : View sig .tc .vmem S2048x1024 .bf16 := (Memref.whole cc0_stg3_0 : Memref sig .tc .vmem S2048x1024 .bf16).view
abbrev VS0 : View sig .tc .vmem S2048x1024 .f32 := scM0.view

/-- The region's resting invariant with the accumulator split off: the accumulator at some contents, every other
    scoped buffer the region does not stage, and the generator register. -/
theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.KernelIdeal.Hand

end
-- ==== Proof.IH0RunA.lean ====
/-
  Layer 0's kernel body run whole, in one of its three control cases.
-/
import proofs.«122649_j45518063403493_2_alg».proof.Proof.IH0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first step along the fan-in axis: the accumulator, found at anything, is cleared and then holds the first block
    product; the output block's buffer is handed back as found.
    The pieces the stores leave are found by running the body. -/
noncomputable def kernelRun0_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i)
    (x0 : Vec F S2048x1024 .bf16) (x1 : Vec F S1024x1024 .bf16) (x2 : Vec F S1x1024 .f32) :
    { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__masked_linear_kernel i arg3 harg3 arg4 harg4 arg5 harg5 arg6 harg6 arg7 harg7) K } := by
  refine ⟨?_, fun xi3 E K => ?run⟩
  case run =>
    simp only [cc0__masked_linear_kernel_eq_skeleton]; unfold cc0__masked_linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.IH0RunB.lean ====
/-
  Layer 0's kernel body run whole, in one of its three control cases.
-/
import proofs.«122649_j45518063403493_2_alg».proof.Proof.IH0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step: the accumulator, found at what the step before left, gains one block product; the output block's
    buffer is handed back as found.
    The pieces the stores leave are found by running the body. -/
noncomputable def kernelRun0_B (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i)
    (x0 : Vec F S2048x1024 .bf16) (x1 : Vec F S1024x1024 .bf16) (x2 : Vec F S1x1024 .f32) (xs : Vec F S2048x1024 .f32) :
    { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__masked_linear_kernel i arg3 harg3 arg4 harg4 arg5 harg5 arg6 harg6 arg7 harg7) K } := by
  refine ⟨?_, fun xi3 E K => ?run⟩
  case run =>
    simp only [cc0__masked_linear_kernel_eq_skeleton]; unfold cc0__masked_linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.IH0RunC.lean ====
/-
  Layer 0's kernel body run whole, in one of its three control cases.
-/
import proofs.«122649_j45518063403493_2_alg».proof.Proof.IH0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last step: the accumulator gains the last block product, and the output block, found at anything, is stored
    from it and the bias.
    The pieces the stores leave are found by running the body. -/
noncomputable def kernelRun0_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i)
    (x0 : Vec F S2048x1024 .bf16) (x1 : Vec F S1024x1024 .bf16) (x2 : Vec F S1x1024 .f32) (xs : Vec F S2048x1024 .f32) :
    Σ' (L3 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__masked_linear_kernel i arg3 harg3 arg4 harg4 arg5 harg5 arg6 harg6 arg7 harg7) K } := by
  refine ⟨?_, ?_, fun E K => ?run⟩
  case run =>
    simp only [cc0__masked_linear_kernel_eq_skeleton]; unfold cc0__masked_linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.IH0Frame.lean ====
/-
  Layer 0's kernel region, point by point: what the accumulator holds after each grid point, what the output
  block holds after each last step, the invariant that carries the accumulator from one point to the next, and the
  body's run at a generic point.

  Points are numbered with the fan-in axis innermost, so point `t` is step `t % 4` of its output block. After
  a first step the accumulator holds that step's block product; after any later step, what the step before left
  plus this step's block product; after a last step the output block's buffer holds the activation of the
  accumulator plus the bias.
-/
import proofs.«122649_j45518063403493_2_alg».proof.Proof.IH0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

theorem scover0_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x1024 .bf16) (x1 : Vec F S1024x1024 .bf16) (x2 : Vec F S1x1024 .f32) (y : S2048x1024.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S2048x1024.size (by sl_kernel_rfl) y

/-- The accumulator after a first step. -/
def sout0_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x1024 .bf16) (x1 : Vec F S1024x1024 .bf16) (x2 : Vec F S1x1024 .f32) : Vec F S2048x1024 .f32 :=
  VS0.read (Elt F) (VS0.writes (Elt F) VS0.junk (kernelRun0_A c i arg3 harg3 arg4 harg4 arg5 harg5 arg6 harg6 arg7 harg7 hc0 hc1 x0 x1 x2).1)

theorem scover0_B (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x1024 .bf16) (x1 : Vec F S1024x1024 .bf16) (x2 : Vec F S1x1024 .f32) (xs : Vec F S2048x1024 .f32) (y : S2048x1024.Idx) :
    ∃ pc ∈ (kernelRun0_B c i arg3 harg3 arg4 harg4 arg5 harg5 arg6 harg6 arg7 harg7 hc0 hc1 x0 x1 x2 xs).1, y ∈ pc.1.set :=
  View.cover_of_tiledL (kernelRun0_B c i arg3 harg3 arg4 harg4 arg5 harg5 arg6 harg6 arg7 harg7 hc0 hc1 x0 x1 x2 xs).1 S2048x1024.size (by sl_kernel_rfl) y

/-- The accumulator after a middle step. -/
def sout0_B (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x1024 .bf16) (x1 : Vec F S1024x1024 .bf16) (x2 : Vec F S1x1024 .f32) (xs : Vec F S2048x1024 .f32) : Vec F S2048x1024 .f32 :=
  VS0.read (Elt F) (VS0.writes (Elt F) VS0.junk (kernelRun0_B c i arg3 harg3 arg4 harg4 arg5 harg5 arg6 harg6 arg7 harg7 hc0 hc1 x0 x1 x2 xs).1)

theorem cover0_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x1024 .bf16) (x1 : Vec F S1024x1024 .bf16) (x2 : Vec F S1x1024 .f32) (xs : Vec F S2048x1024 .f32) (y : S2048x1024.Idx) :
    ∃ pc ∈ (kernelRun0_C c i arg3 harg3 arg4 harg4 arg5 harg5 arg6 harg6 arg7 harg7 hc0 hc1 x0 x1 x2 xs).1, y ∈ pc.1.set :=
  View.cover_of_tiledL (kernelRun0_C c i arg3 harg3 arg4 harg4 arg5 harg5 arg6 harg6 arg7 harg7 hc0 hc1 x0 x1 x2 xs).1 S2048x1024.size (by sl_kernel_rfl) y

/-- The output block's buffer after a last step. -/
def out0_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x1024 .bf16) (x1 : Vec F S1024x1024 .bf16) (x2 : Vec F S1x1024 .f32) (xs : Vec F S2048x1024 .f32) : Vec F S2048x1024 .bf16 :=
  VO0.read (Elt F) (VO0.writes (Elt F) VO0.junk (kernelRun0_C c i arg3 harg3 arg4 harg4 arg5 harg5 arg6 harg6 arg7 harg7 hc0 hc1 x0 x1 x2 xs).1)

theorem scover0_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x1024 .bf16) (x1 : Vec F S1024x1024 .bf16) (x2 : Vec F S1x1024 .f32) (xs : Vec F S2048x1024 .f32) (y : S2048x1024.Idx) :
    ∃ pc ∈ (kernelRun0_C c i arg3 harg3 arg4 harg4 arg5 harg5 arg6 harg6 arg7 harg7 hc0 hc1 x0 x1 x2 xs).2.1, y ∈ pc.1.set :=
  View.cover_of_tiledL (kernelRun0_C c i arg3 harg3 arg4 harg4 arg5 harg5 arg6 harg6 arg7 harg7 hc0 hc1 x0 x1 x2 xs).2.1 S2048x1024.size (by sl_kernel_rfl) y

/-- The accumulator after a last step. -/
def sout0_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x1024 .bf16) (x1 : Vec F S1024x1024 .bf16) (x2 : Vec F S1x1024 .f32) (xs : Vec F S2048x1024 .f32) : Vec F S2048x1024 .f32 :=
  VS0.read (Elt F) (VS0.writes (Elt F) VS0.junk (kernelRun0_C c i arg3 harg3 arg4 harg4 arg5 harg5 arg6 harg6 arg7 harg7 hc0 hc1 x0 x1 x2 xs).2.1)

section
variable (V : (c : Dev nD) → (b : Ref sig .tc) → Buf (Elt F) ((c : Thread nD τ).loc b))

/-! ## The accumulation -/

/-- What the accumulator holds after the body at position `n`. -/
def accAt0 (c : Dev nD) : (n : ℕ) → n < cfg0.N → Vec F S2048x1024 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)
  | n + 1, hn =>
    if h0 : (n + 1) % 4 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩)
    else if h1 : (n + 1) % 4 = 3 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (accAt0 c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (accAt0 c n (Nat.lt_of_succ_lt hn))

theorem accAt0_A (c : Dev nD) (t : Fin cfg0.N) (h0 : t.val % 4 = 0) (h1 : ¬t.val % 4 = 3) :
    accAt0 V c t.val t.isLt = sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t) := by
  obtain ⟨n, hn⟩ := t
  cases n with
  | zero => exact rfl
  | succ n => exact (dif_pos h0).trans rfl

theorem accAt0_B (c : Dev nD) (t : Fin cfg0.N) (h0 : ¬t.val % 4 = 0) (h1 : ¬t.val % 4 = 3) :
    accAt0 V c t.val t.isLt = sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) :
    accAt0 V c t.val t.isLt = sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's buffer holds after the body at position `n`: at a last step, the stored block; elsewhere the
    window rests and this value is consulted by nothing. -/
def outAt0 (c : Dev nD) (n : ℕ) (hn : n < cfg0.N) : Vec F S2048x1024 .bf16 :=
  if h1 : n % 4 = 3 then
    out0_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) (fun h => (fun h => by (try dsimp only at h); omega) ((hcond0_0 ⟨n, hn⟩).mp h)) ((hcond0_1 ⟨n, hn⟩).mpr h1) (iblk0 V c 0 ⟨n, hn⟩) (iblk0 V c 1 ⟨n, hn⟩) (iblk0 V c 2 ⟨n, hn⟩) (accAt0 V c (n - 1) (Nat.lt_of_le_of_lt (Nat.sub_le _ _) hn))
  else VO0.read (Elt F) VO0.junk

theorem outAt0_C (c : Dev nD) (t : Fin cfg0.N) (h0 : ¬t.val % 4 = 0) (h1 : t.val % 4 = 3) :
    outAt0 V c t.val t.isLt = out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) := by
  unfold outAt0; exact (dif_pos h1).trans rfl

/-! ## The invariant -/

/-- Before position `n`: at the region's entry, its resting invariant; afterwards the accumulator at what the point before
    left, every other scoped buffer the region does not stage, and the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The region's proof data -/

/-- The arrays as the region finds them; after the body each input's buffer at its block, the output's at `outAt`; the
    invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The inputs' buffers hold their blocks; the closed forms say which case the point is in; the invariant hands the body
    the accumulator at what the point before left (at anything, at the region's first point) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [accAt0_A V c t h0 h1]
    unfold sout0_A; (try dsimp only)
    by_cases hz : t.val = 0
    · rw [PhiS0_castSucc V c t, PhiS0_zero V c _ _ hz, PhiA0_eq]
      iintro ⟨⟨⟨HS, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by omega)
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [accAt0_C V c t h0 h1, outAt0_C V c t h0 h1]
      unfold out0_C sout0_C; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [accAt0_B V c t h0 h1]
      unfold sout0_B; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before its first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After its last point the invariant gives the resting invariant back: the accumulator's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ hN, PhiA0_eq]
  iintro ⟨⟨HS, Hrest⟩, Hg⟩
  isplitl [HS Hrest]
  · isplitl [HS]
    · iexists _; iexact HS
    iexact Hrest
  iexact Hg

end

end Cert.KernelIdeal.Hand

end
-- ==== Proof.IH1Base.lean ====
/-
  Layer 1's kernel region: the blocks its windows stage, the two conditions its body branches on, and where
  its output window rests.

  The grid's innermost axis walks the fan-in in 8 steps. The body clears its accumulator at step 0, adds one
  block product at every step, and at the last step adds the bias, applies the activation and stores the output
  block; at every other step the output block's buffer is left as found and is not written back.
-/
import proofs.«122649_j45518063403493_2_alg».proof.Proof.Gen.KernelIdeal.Launch
import proofs.«122649_j45518063403493_2_alg».proof.Proof.Gen.KernelIdeal.Skeleton
import proofs.«122649_j45518063403493_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, in closed form over the grid -/

/-- "This is the first step along the fan-in axis." -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last step along the fan-in axis." -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows rest -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last step the output window rests, and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last step it is stored. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S2048x1024 .f32 := Memref.whole cc1_scratch0
/-- Views through which the output block's and the accumulator's contents are stated. -/
abbrev VO1 : View sig .tc .vmem S2048x1024 .bf16 := (Memref.whole cc1_stg3_0 : Memref sig .tc .vmem S2048x1024 .bf16).view
abbrev VS1 : View sig .tc .vmem S2048x1024 .f32 := scM1.view

/-- The region's resting invariant with the accumulator split off: the accumulator at some contents, every other
    scoped buffer the region does not stage, and the generator register. -/
theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.KernelIdeal.Hand

end
-- ==== Proof.IH1RunA.lean ====
/-
  Layer 1's kernel body run whole, in one of its three control cases.
-/
import proofs.«122649_j45518063403493_2_alg».proof.Proof.IH1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first step along the fan-in axis: the accumulator, found at anything, is cleared and then holds the first block
    product; the output block's buffer is handed back as found.
    The pieces the stores leave are found by running the body. -/
noncomputable def kernelRun1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) :
    { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__masked_linear_kernel i arg3 harg3 arg4 harg4 arg5 harg5 arg6 harg6 arg7 harg7) K } := by
  refine ⟨?_, fun xi3 E K => ?run⟩
  case run =>
    simp only [cc1__masked_linear_kernel_eq_skeleton]; unfold cc1__masked_linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.IH1RunB.lean ====
/-
  Layer 1's kernel body run whole, in one of its three control cases.
-/
import proofs.«122649_j45518063403493_2_alg».proof.Proof.IH1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step: the accumulator, found at what the step before left, gains one block product; the output block's
    buffer is handed back as found.
    The pieces the stores leave are found by running the body. -/
noncomputable def kernelRun1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs : Vec F S2048x1024 .f32) :
    { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__masked_linear_kernel i arg3 harg3 arg4 harg4 arg5 harg5 arg6 harg6 arg7 harg7) K } := by
  refine ⟨?_, fun xi3 E K => ?run⟩
  case run =>
    simp only [cc1__masked_linear_kernel_eq_skeleton]; unfold cc1__masked_linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.IH1RunC.lean ====
/-
  Layer 1's kernel body run whole, in one of its three control cases.
-/
import proofs.«122649_j45518063403493_2_alg».proof.Proof.IH1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last step: the accumulator gains the last block product, and the output block, found at anything, is stored
    from it and the bias.
    The pieces the stores leave are found by running the body. -/
noncomputable def kernelRun1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs : Vec F S2048x1024 .f32) :
    Σ' (L3 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__masked_linear_kernel i arg3 harg3 arg4 harg4 arg5 harg5 arg6 harg6 arg7 harg7) K } := by
  refine ⟨?_, ?_, fun E K => ?run⟩
  case run =>
    simp only [cc1__masked_linear_kernel_eq_skeleton]; unfold cc1__masked_linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.IH1Frame.lean ====
/-
  Layer 1's kernel region, point by point: what the accumulator holds after each grid point, what the output
  block holds after each last step, the invariant that carries the accumulator from one point to the next, and the
  body's run at a generic point.

  Points are numbered with the fan-in axis innermost, so point `t` is step `t % 8` of its output block. After
  a first step the accumulator holds that step's block product; after any later step, what the step before left
  plus this step's block product; after a last step the output block's buffer holds the activation of the
  accumulator plus the bias.
-/
import proofs.«122649_j45518063403493_2_alg».proof.Proof.IH1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

theorem scover1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i) (x0 : Vec F S2048x1024 .bf16) (x1 : Vec F S1024x1024 .bf16) (x2 : Vec F S1x1024 .f32) (y : S2048x1024.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S2048x1024.size (by sl_kernel_rfl) y

/-- The accumulator after a first step. -/
def sout1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i) (x0 : Vec F S2048x1024 .bf16) (x1 : Vec F S1024x1024 .bf16) (x2 : Vec F S1x1024 .f32) : Vec F S2048x1024 .f32 :=
  VS1.read (Elt F) (VS1.writes (Elt F) VS1.junk (kernelRun1_A c i arg3 harg3 arg4 harg4 arg5 harg5 arg6 harg6 arg7 harg7 hc0 hc1 x0 x1 x2).1)

theorem scover1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i) (x0 : Vec F S2048x1024 .bf16) (x1 : Vec F S1024x1024 .bf16) (x2 : Vec F S1x1024 .f32) (xs : Vec F S2048x1024 .f32) (y : S2048x1024.Idx) :
    ∃ pc ∈ (kernelRun1_B c i arg3 harg3 arg4 harg4 arg5 harg5 arg6 harg6 arg7 harg7 hc0 hc1 x0 x1 x2 xs).1, y ∈ pc.1.set :=
  View.cover_of_tiledL (kernelRun1_B c i arg3 harg3 arg4 harg4 arg5 harg5 arg6 harg6 arg7 harg7 hc0 hc1 x0 x1 x2 xs).1 S2048x1024.size (by sl_kernel_rfl) y

/-- The accumulator after a middle step. -/
def sout1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i) (x0 : Vec F S2048x1024 .bf16) (x1 : Vec F S1024x1024 .bf16) (x2 : Vec F S1x1024 .f32) (xs : Vec F S2048x1024 .f32) : Vec F S2048x1024 .f32 :=
  VS1.read (Elt F) (VS1.writes (Elt F) VS1.junk (kernelRun1_B c i arg3 harg3 arg4 harg4 arg5 harg5 arg6 harg6 arg7 harg7 hc0 hc1 x0 x1 x2 xs).1)

theorem cover1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i) (x0 : Vec F S2048x1024 .bf16) (x1 : Vec F S1024x1024 .bf16) (x2 : Vec F S1x1024 .f32) (xs : Vec F S2048x1024 .f32) (y : S2048x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S2048x1024.size (by sl_kernel_rfl) y

/-- The output block's buffer after a last step. -/
def out1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i) (x0 : Vec F S2048x1024 .bf16) (x1 : Vec F S1024x1024 .bf16) (x2 : Vec F S1x1024 .f32) (xs : Vec F S2048x1024 .f32) : Vec F S2048x1024 .bf16 :=
  VO1.read (Elt F) (VO1.writes (Elt F) VO1.junk (kernelRun1_C c i arg3 harg3 arg4 harg4 arg5 harg5 arg6 harg6 arg7 harg7 hc0 hc1 x0 x1 x2 xs).1)

theorem scover1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i) (x0 : Vec F S2048x1024 .bf16) (x1 : Vec F S1024x1024 .bf16) (x2 : Vec F S1x1024 .f32) (xs : Vec F S2048x1024 .f32) (y : S2048x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S2048x1024.size (by sl_kernel_rfl) y

/-- The accumulator after a last step. -/
def sout1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i) (x0 : Vec F S2048x1024 .bf16) (x1 : Vec F S1024x1024 .bf16) (x2 : Vec F S1x1024 .f32) (xs : Vec F S2048x1024 .f32) : Vec F S2048x1024 .f32 :=
  VS1.read (Elt F) (VS1.writes (Elt F) VS1.junk (kernelRun1_C c i arg3 harg3 arg4 harg4 arg5 harg5 arg6 harg6 arg7 harg7 hc0 hc1 x0 x1 x2 xs).2.1)

section
variable (V : (c : Dev nD) → (b : Ref sig .tc) → Buf (Elt F) ((c : Thread nD τ).loc b))

/-! ## The accumulation -/

/-- What the accumulator holds after the body at position `n`. -/
def accAt1 (c : Dev nD) : (n : ℕ) → n < cfg1.N → Vec F S2048x1024 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 8 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩)
    else if h1 : (n + 1) % 8 = 7 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (accAt1 c n (Nat.lt_of_succ_lt hn))

theorem accAt1_A (c : Dev nD) (t : Fin cfg1.N) (h0 : t.val % 8 = 0) (h1 : ¬t.val % 8 = 7) :
    accAt1 V c t.val t.isLt = sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans rfl

theorem accAt1_B (c : Dev nD) (t : Fin cfg1.N) (h0 : ¬t.val % 8 = 0) (h1 : ¬t.val % 8 = 7) :
    accAt1 V c t.val t.isLt = sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 8 = 0) (h1 : t.val % 8 = 7) :
    accAt1 V c t.val t.isLt = sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's buffer holds after the body at position `n`: at a last step, the stored block; elsewhere the
    window rests and this value is consulted by nothing. -/
def outAt1 (c : Dev nD) (n : ℕ) (hn : n < cfg1.N) : Vec F S2048x1024 .bf16 :=
  if h1 : n % 8 = 7 then
    out1_C c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun h => (fun h => by (try dsimp only at h); omega) ((hcond1_0 ⟨n, hn⟩).mp h)) ((hcond1_1 ⟨n, hn⟩).mpr h1) (iblk1 V c 0 ⟨n, hn⟩) (iblk1 V c 1 ⟨n, hn⟩) (iblk1 V c 2 ⟨n, hn⟩) (accAt1 V c (n - 1) (Nat.lt_of_le_of_lt (Nat.sub_le _ _) hn))
  else VO1.read (Elt F) VO1.junk

theorem outAt1_C (c : Dev nD) (t : Fin cfg1.N) (h0 : ¬t.val % 8 = 0) (h1 : t.val % 8 = 7) :
    outAt1 V c t.val t.isLt = out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) := by
  unfold outAt1; exact (dif_pos h1).trans rfl

/-! ## The invariant -/

/-- Before position `n`: at the region's entry, its resting invariant; afterwards the accumulator at what the point before
    left, every other scoped buffer the region does not stage, and the generator register. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The region's proof data -/

/-- The arrays as the region finds them; after the body each input's buffer at its block, the output's at `outAt`; the
    invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The inputs' buffers hold their blocks; the closed forms say which case the point is in; the invariant hands the body
    the accumulator at what the point before left (at anything, at the region's first point) and takes it back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [accAt1_A V c t h0 h1]
    unfold sout1_A; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by omega)
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [accAt1_C V c t h0 h1, outAt1_C V c t h0 h1]
      unfold out1_C sout1_C; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [accAt1_B V c t h0 h1]
      unfold sout1_B; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before its first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After its last point the invariant gives the resting invariant back: the accumulator's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ hN, PhiA1_eq]
  iintro ⟨⟨HS, Hrest⟩, Hg⟩
  isplitl [HS Hrest]
  · isplitl [HS]
    · iexists _; iexact HS
    iexact Hrest
  iexact Hg

end

end Cert.KernelIdeal.Hand

end
-- ==== Proof.IH2Base.lean ====
/-
  Layer 2's kernel region: the blocks its windows stage, the two conditions its body branches on, and where
  its output window rests.

  The grid's innermost axis walks the fan-in in 8 steps. The body clears its accumulator at step 0, adds one
  block product at every step, and at the last step adds the bias, applies the activation and stores the output
  block; at every other step the output block's buffer is left as found and is not written back.
-/
import proofs.«122649_j45518063403493_2_alg».proof.Proof.Gen.KernelIdeal.Launch
import proofs.«122649_j45518063403493_2_alg».proof.Proof.Gen.KernelIdeal.Skeleton
import proofs.«122649_j45518063403493_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The body's two conditions, in closed form over the grid -/

/-- "This is the first step along the fan-in axis." -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "This is the last step along the fan-in axis." -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows rest -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last step the output window rests, and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last step it is stored. -/
theorem liveAt2_3 : ∀ t : Fin cfg2.N, cond2_1 (grid2.coords t) → cfg2.idle 3 (grid2.coords t) = false := by decide +kernel

/-! ## The memrefs the body is called with -/

abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1024 .bf16 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S2048x1024 .f32 := Memref.whole cc2_scratch0
/-- Views through which the output block's and the accumulator's contents are stated. -/
abbrev VO2 : View sig .tc .vmem S2048x1024 .bf16 := (Memref.whole cc2_stg3_0 : Memref sig .tc .vmem S2048x1024 .bf16).view
abbrev VS2 : View sig .tc .vmem S2048x1024 .f32 := scM2.view

/-- The region's resting invariant with the accumulator split off: the accumulator at some contents, every other
    scoped buffer the region does not stage, and the generator register. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.KernelIdeal.Hand

end
-- ==== Proof.IH2RunA.lean ====
/-
  Layer 2's kernel body run whole, in one of its three control cases.
-/
import proofs.«122649_j45518063403493_2_alg».proof.Proof.IH2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first step along the fan-in axis: the accumulator, found at anything, is cleared and then holds the first block
    product; the output block's buffer is handed back as found.
    The pieces the stores leave are found by running the body. -/
noncomputable def kernelRun2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) :
    { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__masked_linear_kernel i arg3 harg3 arg4 harg4 arg5 harg5 arg6 harg6 arg7 harg7) K } := by
  refine ⟨?_, fun xi3 E K => ?run⟩
  case run =>
    simp only [cc2__masked_linear_kernel_eq_skeleton]; unfold cc2__masked_linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.IH2RunB.lean ====
/-
  Layer 2's kernel body run whole, in one of its three control cases.
-/
import proofs.«122649_j45518063403493_2_alg».proof.Proof.IH2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step: the accumulator, found at what the step before left, gains one block product; the output block's
    buffer is handed back as found.
    The pieces the stores leave are found by running the body. -/
noncomputable def kernelRun2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs : Vec F S2048x1024 .f32) :
    { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__masked_linear_kernel i arg3 harg3 arg4 harg4 arg5 harg5 arg6 harg6 arg7 harg7) K } := by
  refine ⟨?_, fun xi3 E K => ?run⟩
  case run =>
    simp only [cc2__masked_linear_kernel_eq_skeleton]; unfold cc2__masked_linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.IH2RunC.lean ====
/-
  Layer 2's kernel body run whole, in one of its three control cases.
-/
import proofs.«122649_j45518063403493_2_alg».proof.Proof.IH2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last step: the accumulator gains the last block product, and the output block, found at anything, is stored
    from it and the bias.
    The pieces the stores leave are found by running the body. -/
noncomputable def kernelRun2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs : Vec F S2048x1024 .f32) :
    Σ' (L3 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc2__masked_linear_kernel i arg3 harg3 arg4 harg4 arg5 harg5 arg6 harg6 arg7 harg7) K } := by
  refine ⟨?_, ?_, fun E K => ?run⟩
  case run =>
    simp only [cc2__masked_linear_kernel_eq_skeleton]; unfold cc2__masked_linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.IH2Frame.lean ====
/-
  Layer 2's kernel region, point by point: what the accumulator holds after each grid point, what the output
  block holds after each last step, the invariant that carries the accumulator from one point to the next, and the
  body's run at a generic point.

  Points are numbered with the fan-in axis innermost, so point `t` is step `t % 8` of its output block. After
  a first step the accumulator holds that step's block product; after any later step, what the step before left
  plus this step's block product; after a last step the output block's buffer holds the activation of the
  accumulator plus the bias.
-/
import proofs.«122649_j45518063403493_2_alg».proof.Proof.IH2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

theorem scover2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i) (x0 : Vec F S2048x1024 .bf16) (x1 : Vec F S1024x1024 .bf16) (x2 : Vec F S1x1024 .f32) (y : S2048x1024.Idx) :
    ∃ pc ∈ (kernelRun2_A c i arg3 harg3 arg4 harg4 arg5 harg5 arg6 harg6 arg7 harg7 hc0 hc1 x0 x1 x2).1, y ∈ pc.1.set :=
  View.cover_of_tiledL (kernelRun2_A c i arg3 harg3 arg4 harg4 arg5 harg5 arg6 harg6 arg7 harg7 hc0 hc1 x0 x1 x2).1 S2048x1024.size (by sl_kernel_rfl) y

/-- The accumulator after a first step. -/
def sout2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i) (x0 : Vec F S2048x1024 .bf16) (x1 : Vec F S1024x1024 .bf16) (x2 : Vec F S1x1024 .f32) : Vec F S2048x1024 .f32 :=
  VS2.read (Elt F) (VS2.writes (Elt F) VS2.junk (kernelRun2_A c i arg3 harg3 arg4 harg4 arg5 harg5 arg6 harg6 arg7 harg7 hc0 hc1 x0 x1 x2).1)

theorem scover2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i) (x0 : Vec F S2048x1024 .bf16) (x1 : Vec F S1024x1024 .bf16) (x2 : Vec F S1x1024 .f32) (xs : Vec F S2048x1024 .f32) (y : S2048x1024.Idx) :
    ∃ pc ∈ (kernelRun2_B c i arg3 harg3 arg4 harg4 arg5 harg5 arg6 harg6 arg7 harg7 hc0 hc1 x0 x1 x2 xs).1, y ∈ pc.1.set :=
  View.cover_of_tiledL (kernelRun2_B c i arg3 harg3 arg4 harg4 arg5 harg5 arg6 harg6 arg7 harg7 hc0 hc1 x0 x1 x2 xs).1 S2048x1024.size (by sl_kernel_rfl) y

/-- The accumulator after a middle step. -/
def sout2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i) (x0 : Vec F S2048x1024 .bf16) (x1 : Vec F S1024x1024 .bf16) (x2 : Vec F S1x1024 .f32) (xs : Vec F S2048x1024 .f32) : Vec F S2048x1024 .f32 :=
  VS2.read (Elt F) (VS2.writes (Elt F) VS2.junk (kernelRun2_B c i arg3 harg3 arg4 harg4 arg5 harg5 arg6 harg6 arg7 harg7 hc0 hc1 x0 x1 x2 xs).1)

theorem cover2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i) (x0 : Vec F S2048x1024 .bf16) (x1 : Vec F S1024x1024 .bf16) (x2 : Vec F S1x1024 .f32) (xs : Vec F S2048x1024 .f32) (y : S2048x1024.Idx) :
    ∃ pc ∈ (kernelRun2_C c i arg3 harg3 arg4 harg4 arg5 harg5 arg6 harg6 arg7 harg7 hc0 hc1 x0 x1 x2 xs).1, y ∈ pc.1.set :=
  View.cover_of_tiledL (kernelRun2_C c i arg3 harg3 arg4 harg4 arg5 harg5 arg6 harg6 arg7 harg7 hc0 hc1 x0 x1 x2 xs).1 S2048x1024.size (by sl_kernel_rfl) y

/-- The output block's buffer after a last step. -/
def out2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i) (x0 : Vec F S2048x1024 .bf16) (x1 : Vec F S1024x1024 .bf16) (x2 : Vec F S1x1024 .f32) (xs : Vec F S2048x1024 .f32) : Vec F S2048x1024 .bf16 :=
  VO2.read (Elt F) (VO2.writes (Elt F) VO2.junk (kernelRun2_C c i arg3 harg3 arg4 harg4 arg5 harg5 arg6 harg6 arg7 harg7 hc0 hc1 x0 x1 x2 xs).1)

theorem scover2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i) (x0 : Vec F S2048x1024 .bf16) (x1 : Vec F S1024x1024 .bf16) (x2 : Vec F S1x1024 .f32) (xs : Vec F S2048x1024 .f32) (y : S2048x1024.Idx) :
    ∃ pc ∈ (kernelRun2_C c i arg3 harg3 arg4 harg4 arg5 harg5 arg6 harg6 arg7 harg7 hc0 hc1 x0 x1 x2 xs).2.1, y ∈ pc.1.set :=
  View.cover_of_tiledL (kernelRun2_C c i arg3 harg3 arg4 harg4 arg5 harg5 arg6 harg6 arg7 harg7 hc0 hc1 x0 x1 x2 xs).2.1 S2048x1024.size (by sl_kernel_rfl) y

/-- The accumulator after a last step. -/
def sout2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i) (x0 : Vec F S2048x1024 .bf16) (x1 : Vec F S1024x1024 .bf16) (x2 : Vec F S1x1024 .f32) (xs : Vec F S2048x1024 .f32) : Vec F S2048x1024 .f32 :=
  VS2.read (Elt F) (VS2.writes (Elt F) VS2.junk (kernelRun2_C c i arg3 harg3 arg4 harg4 arg5 harg5 arg6 harg6 arg7 harg7 hc0 hc1 x0 x1 x2 xs).2.1)

section
variable (V : (c : Dev nD) → (b : Ref sig .tc) → Buf (Elt F) ((c : Thread nD τ).loc b))

/-! ## The accumulation -/

/-- What the accumulator holds after the body at position `n`. -/
def accAt2 (c : Dev nD) : (n : ℕ) → n < cfg2.N → Vec F S2048x1024 .f32
  | 0, hn => sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 8 = 0 then
      sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩)
    else if h1 : (n + 1) % 8 = 7 then
      sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (accAt2 c n (Nat.lt_of_succ_lt hn))
    else
      sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (accAt2 c n (Nat.lt_of_succ_lt hn))

theorem accAt2_A (c : Dev nD) (t : Fin cfg2.N) (h0 : t.val % 8 = 0) (h1 : ¬t.val % 8 = 7) :
    accAt2 V c t.val t.isLt = sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t) := by
  obtain ⟨n, hn⟩ := t
  cases n with
  | zero => exact rfl
  | succ n => exact (dif_pos h0).trans rfl

theorem accAt2_B (c : Dev nD) (t : Fin cfg2.N) (h0 : ¬t.val % 8 = 0) (h1 : ¬t.val % 8 = 7) :
    accAt2 V c t.val t.isLt = sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt2_C (c : Dev nD) (t : Fin cfg2.N) (h0 : ¬t.val % 8 = 0) (h1 : t.val % 8 = 7) :
    accAt2 V c t.val t.isLt = sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's buffer holds after the body at position `n`: at a last step, the stored block; elsewhere the
    window rests and this value is consulted by nothing. -/
def outAt2 (c : Dev nD) (n : ℕ) (hn : n < cfg2.N) : Vec F S2048x1024 .bf16 :=
  if h1 : n % 8 = 7 then
    out2_C c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2 (Memref.isWhole_whole _) (fun h => (fun h => by (try dsimp only at h); omega) ((hcond2_0 ⟨n, hn⟩).mp h)) ((hcond2_1 ⟨n, hn⟩).mpr h1) (iblk2 V c 0 ⟨n, hn⟩) (iblk2 V c 1 ⟨n, hn⟩) (iblk2 V c 2 ⟨n, hn⟩) (accAt2 V c (n - 1) (Nat.lt_of_le_of_lt (Nat.sub_le _ _) hn))
  else VO2.read (Elt F) VO2.junk

theorem outAt2_C (c : Dev nD) (t : Fin cfg2.N) (h0 : ¬t.val % 8 = 0) (h1 : t.val % 8 = 7) :
    outAt2 V c t.val t.isLt = out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (accAt2 V c (t.val - 1) (Nat.lt_of_le_of_lt (Nat.sub_le _ _) t.isLt)) := by
  unfold outAt2; exact (dif_pos h1).trans rfl

/-! ## The invariant -/

/-- Before position `n`: at the region's entry, its resting invariant; afterwards the accumulator at what the point before
    left, every other scoped buffer the region does not stage, and the generator register. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (accAt2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The region's proof data -/

/-- The arrays as the region finds them; after the body each input's buffer at its block, the output's at `outAt`; the
    invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The inputs' buffers hold their blocks; the closed forms say which case the point is in; the invariant hands the body
    the accumulator at what the point before left (at anything, at the region's first point) and takes it back at this
    point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val % 8 = 0
  · have h1 : ¬t.val % 8 = 7 := by omega
    rw [Dat.leavesExact_idle (dat2 V c) 3 t (idleAt2_3 t (fun h => h1 ((hcond2_1 t).mp h))) (noFlush2_3 t (fun h => h1 ((hcond2_1 t).mp h)))]
    rw [accAt2_A V c t h0 h1]
    unfold sout2_A; (try dsimp only)
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by omega)
    by_cases h1 : t.val % 8 = 7
    · rw [show (dat2 V c).leavesExact 3 t = owns (c : Thread nD τ) (ms2_3 t) fullShare ((dat2 V c).after 3 t) from by
        unfold Dat.leavesExact; rw [liveAt2_3 t ((hcond2_1 t).mpr h1)], after2_3]
      rw [accAt2_C V c t h0 h1, outAt2_C V c t h0 h1]
      unfold out2_C sout2_C; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover2_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [accAt2_B V c t h0 h1]
      unfold sout2_B; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover2_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before its first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After its last point the invariant gives the resting invariant back: the accumulator's contents are forgotten. -/
theorem hout2 (c : Dev nD) : (dat2 V c).Φ (Fin.last cfg2.N) ⊢ Pipeline.ΦA spec2 c := by
  have hN : (Fin.last cfg2.N).val ≠ 0 := by rw [Fin.val_last]; have : cfg2.N = 128 := N_2; omega
  rw [show (dat2 V c).Φ (Fin.last cfg2.N) = PhiS2 V c (Fin.last cfg2.N).val (Nat.le_of_lt_succ (Fin.last cfg2.N).isLt) from rfl, PhiS2_pos V c _ _ hN, PhiA2_eq]
  iintro ⟨⟨HS, Hrest⟩, Hg⟩
  isplitl [HS Hrest]
  · isplitl [HS]
    · iexists _; iexact HS
    iexact Hrest
  iexact Hg

end

end Cert.KernelIdeal.Hand

end
-- ==== Proof.IH3Base.lean ====
/-
  Layer 3's kernel region: the blocks its windows stage, the two conditions its body branches on, and where
  its output window rests.

  The grid's innermost axis walks the fan-in in 4 steps. The body clears its accumulator at step 0, adds one
  block product at every step, and at the last step adds the bias, applies the activation and stores the output
  block; at every other step the output block's buffer is left as found and is not written back.
-/
import proofs.«122649_j45518063403493_2_alg».proof.Proof.Gen.KernelIdeal.Launch
import proofs.«122649_j45518063403493_2_alg».proof.Proof.Gen.KernelIdeal.Skeleton
import proofs.«122649_j45518063403493_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

/-! ## The body's two conditions, in closed form over the grid -/

/-- "This is the first step along the fan-in axis." -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- "This is the last step along the fan-in axis." -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows rest -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last step the output window rests, and its block is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At the last step it is stored. -/
theorem liveAt3_3 : ∀ t : Fin cfg3.N, cond3_1 (grid3.coords t) → cfg3.idle 3 (grid3.coords t) = false := by decide +kernel

/-! ## The memrefs the body is called with -/

abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3 : Memref sig .tc .vmem S1024x1024 .f32 := Memref.whole cc3_scratch0
/-- Views through which the output block's and the accumulator's contents are stated. -/
abbrev VO3 : View sig .tc .vmem S1024x1024 .f32 := (Memref.whole cc3_stg3_0 : Memref sig .tc .vmem S1024x1024 .f32).view
abbrev VS3 : View sig .tc .vmem S1024x1024 .f32 := scM3.view

/-- The region's resting invariant with the accumulator split off: the accumulator at some contents, every other
    scoped buffer the region does not stage, and the generator register. -/
theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.KernelIdeal.Hand

end
-- ==== Proof.IH3RunA.lean ====
/-
  Layer 3's kernel body run whole, in one of its three control cases.
-/
import proofs.«122649_j45518063403493_2_alg».proof.Proof.IH3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first step along the fan-in axis: the accumulator, found at anything, is cleared and then holds the first block
    product; the output block's buffer is handed back as found.
    The pieces the stores leave are found by running the body. -/
noncomputable def kernelRun3_A (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond3_0 i) (hc1 : ¬cond3_1 i)
    (x0 : Vec F S1024x1024 .bf16) (x1 : Vec F S1024x1024 .bf16) (x2 : Vec F S1x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc3__masked_linear_kernel i arg3 harg3 arg4 harg4 arg5 harg5 arg6 harg6 arg7 harg7) K } := by
  refine ⟨?_, fun xi3 E K => ?run⟩
  case run =>
    simp only [cc3__masked_linear_kernel_eq_skeleton]; unfold cc3__masked_linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.IH3RunB.lean ====
/-
  Layer 3's kernel body run whole, in one of its three control cases.
-/
import proofs.«122649_j45518063403493_2_alg».proof.Proof.IH3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step: the accumulator, found at what the step before left, gains one block product; the output block's
    buffer is handed back as found.
    The pieces the stores leave are found by running the body. -/
noncomputable def kernelRun3_B (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : ¬cond3_1 i)
    (x0 : Vec F S1024x1024 .bf16) (x1 : Vec F S1024x1024 .bf16) (x2 : Vec F S1x1024 .f32) (xs : Vec F S1024x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc3__masked_linear_kernel i arg3 harg3 arg4 harg4 arg5 harg5 arg6 harg6 arg7 harg7) K } := by
  refine ⟨?_, fun xi3 E K => ?run⟩
  case run =>
    simp only [cc3__masked_linear_kernel_eq_skeleton]; unfold cc3__masked_linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.IH3RunC.lean ====
/-
  Layer 3's kernel body run whole, in one of its three control cases.
-/
import proofs.«122649_j45518063403493_2_alg».proof.Proof.IH3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last step: the accumulator gains the last block product, and the output block, found at anything, is stored
    from it and the bias.
    The pieces the stores leave are found by running the body. -/
noncomputable def kernelRun3_C (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : cond3_1 i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc3__masked_linear_kernel i arg3 harg3 arg4 harg4 arg5 harg5 arg6 harg6 arg7 harg7) K } := by
  refine ⟨?_, ?_, fun E K => ?run⟩
  case run =>
    simp only [cc3__masked_linear_kernel_eq_skeleton]; unfold cc3__masked_linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.IH3Frame.lean ====
/-
  Layer 3's kernel region, point by point: what the accumulator holds after each grid point, what the output
  block holds after each last step, the invariant that carries the accumulator from one point to the next, and the
  body's run at a generic point.

  Points are numbered with the fan-in axis innermost, so point `t` is step `t % 4` of its output block. After
  a first step the accumulator holds that step's block product; after any later step, what the step before left
  plus this step's block product; after a last step the output block's buffer holds the activation of the
  accumulator plus the bias.
-/
import proofs.«122649_j45518063403493_2_alg».proof.Proof.IH3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

theorem scover3_A (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond3_0 i) (hc1 : ¬cond3_1 i) (x0 : Vec F S1024x1024 .bf16) (x1 : Vec F S1024x1024 .bf16) (x2 : Vec F S1x1024 .f32) (y : S1024x1024.Idx) :
    ∃ pc ∈ (kernelRun3_A c i arg3 harg3 arg4 harg4 arg5 harg5 arg6 harg6 arg7 harg7 hc0 hc1 x0 x1 x2).1, y ∈ pc.1.set :=
  View.cover_of_tiledL (kernelRun3_A c i arg3 harg3 arg4 harg4 arg5 harg5 arg6 harg6 arg7 harg7 hc0 hc1 x0 x1 x2).1 S1024x1024.size (by sl_kernel_rfl) y

/-- The accumulator after a first step. -/
def sout3_A (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond3_0 i) (hc1 : ¬cond3_1 i) (x0 : Vec F S1024x1024 .bf16) (x1 : Vec F S1024x1024 .bf16) (x2 : Vec F S1x1024 .f32) : Vec F S1024x1024 .f32 :=
  VS3.read (Elt F) (VS3.writes (Elt F) VS3.junk (kernelRun3_A c i arg3 harg3 arg4 harg4 arg5 harg5 arg6 harg6 arg7 harg7 hc0 hc1 x0 x1 x2).1)

theorem scover3_B (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : ¬cond3_1 i) (x0 : Vec F S1024x1024 .bf16) (x1 : Vec F S1024x1024 .bf16) (x2 : Vec F S1x1024 .f32) (xs : Vec F S1024x1024 .f32) (y : S1024x1024.Idx) :
    ∃ pc ∈ (kernelRun3_B c i arg3 harg3 arg4 harg4 arg5 harg5 arg6 harg6 arg7 harg7 hc0 hc1 x0 x1 x2 xs).1, y ∈ pc.1.set :=
  View.cover_of_tiledL (kernelRun3_B c i arg3 harg3 arg4 harg4 arg5 harg5 arg6 harg6 arg7 harg7 hc0 hc1 x0 x1 x2 xs).1 S1024x1024.size (by sl_kernel_rfl) y

/-- The accumulator after a middle step. -/
def sout3_B (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : ¬cond3_1 i) (x0 : Vec F S1024x1024 .bf16) (x1 : Vec F S1024x1024 .bf16) (x2 : Vec F S1x1024 .f32) (xs : Vec F S1024x1024 .f32) : Vec F S1024x1024 .f32 :=
  VS3.read (Elt F) (VS3.writes (Elt F) VS3.junk (kernelRun3_B c i arg3 harg3 arg4 harg4 arg5 harg5 arg6 harg6 arg7 harg7 hc0 hc1 x0 x1 x2 xs).1)

theorem cover3_C (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : cond3_1 i) (x0 : Vec F S1024x1024 .bf16) (x1 : Vec F S1024x1024 .bf16) (x2 : Vec F S1x1024 .f32) (xs : Vec F S1024x1024 .f32) (y : S1024x1024.Idx) :
    ∃ pc ∈ (kernelRun3_C c i arg3 harg3 arg4 harg4 arg5 harg5 arg6 harg6 arg7 harg7 hc0 hc1 x0 x1 x2 xs).1, y ∈ pc.1.set :=
  View.cover_of_tiledL (kernelRun3_C c i arg3 harg3 arg4 harg4 arg5 harg5 arg6 harg6 arg7 harg7 hc0 hc1 x0 x1 x2 xs).1 S1024x1024.size (by sl_kernel_rfl) y

/-- The output block's buffer after a last step. -/
def out3_C (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : cond3_1 i) (x0 : Vec F S1024x1024 .bf16) (x1 : Vec F S1024x1024 .bf16) (x2 : Vec F S1x1024 .f32) (xs : Vec F S1024x1024 .f32) : Vec F S1024x1024 .f32 :=
  VO3.read (Elt F) (VO3.writes (Elt F) VO3.junk (kernelRun3_C c i arg3 harg3 arg4 harg4 arg5 harg5 arg6 harg6 arg7 harg7 hc0 hc1 x0 x1 x2 xs).1)

theorem scover3_C (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : cond3_1 i) (x0 : Vec F S1024x1024 .bf16) (x1 : Vec F S1024x1024 .bf16) (x2 : Vec F S1x1024 .f32) (xs : Vec F S1024x1024 .f32) (y : S1024x1024.Idx) :
    ∃ pc ∈ (kernelRun3_C c i arg3 harg3 arg4 harg4 arg5 harg5 arg6 harg6 arg7 harg7 hc0 hc1 x0 x1 x2 xs).2.1, y ∈ pc.1.set :=
  View.cover_of_tiledL (kernelRun3_C c i arg3 harg3 arg4 harg4 arg5 harg5 arg6 harg6 arg7 harg7 hc0 hc1 x0 x1 x2 xs).2.1 S1024x1024.size (by sl_kernel_rfl) y

/-- The accumulator after a last step. -/
def sout3_C (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : cond3_1 i) (x0 : Vec F S1024x1024 .bf16) (x1 : Vec F S1024x1024 .bf16) (x2 : Vec F S1x1024 .f32) (xs : Vec F S1024x1024 .f32) : Vec F S1024x1024 .f32 :=
  VS3.read (Elt F) (VS3.writes (Elt F) VS3.junk (kernelRun3_C c i arg3 harg3 arg4 harg4 arg5 harg5 arg6 harg6 arg7 harg7 hc0 hc1 x0 x1 x2 xs).2.1)

section
variable (V : (c : Dev nD) → (b : Ref sig .tc) → Buf (Elt F) ((c : Thread nD τ).loc b))

/-! ## The accumulation -/

/-- What the accumulator holds after the body at position `n`. -/
def accAt3 (c : Dev nD) : (n : ℕ) → n < cfg3.N → Vec F S1024x1024 .f32
  | 0, hn => sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩)
  | n + 1, hn =>
    if h0 : (n + 1) % 4 = 0 then
      sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => (fun h => by (try dsimp only at h); omega) ((hcond3_1 ⟨n + 1, hn⟩).mp h)) (iblk3 V c 0 ⟨n + 1, hn⟩) (iblk3 V c 1 ⟨n + 1, hn⟩) (iblk3 V c 2 ⟨n + 1, hn⟩)
    else if h1 : (n + 1) % 4 = 3 then
      sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (accAt3 c n (Nat.lt_of_succ_lt hn))
    else
      sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (accAt3 c n (Nat.lt_of_succ_lt hn))

theorem accAt3_A (c : Dev nD) (t : Fin cfg3.N) (h0 : t.val % 4 = 0) (h1 : ¬t.val % 4 = 3) :
    accAt3 V c t.val t.isLt = sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t) := by
  obtain ⟨n, hn⟩ := t
  cases n with
  | zero => exact rfl
  | succ n => exact (dif_pos h0).trans rfl

theorem accAt3_B (c : Dev nD) (t : Fin cfg3.N) (h0 : ¬t.val % 4 = 0) (h1 : ¬t.val % 4 = 3) :
    accAt3 V c t.val t.isLt = sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (accAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt3_C (c : Dev nD) (t : Fin cfg3.N) (h0 : ¬t.val % 4 = 0) (h1 : t.val % 4 = 3) :
    accAt3 V c t.val t.isLt = sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (accAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's buffer holds after the body at position `n`: at a last step, the stored block; elsewhere the
    window rests and this value is consulted by nothing. -/
def outAt3 (c : Dev nD) (n : ℕ) (hn : n < cfg3.N) : Vec F S1024x1024 .f32 :=
  if h1 : n % 4 = 3 then
    out3_C c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3 (Memref.isWhole_whole _) (fun h => (fun h => by (try dsimp only at h); omega) ((hcond3_0 ⟨n, hn⟩).mp h)) ((hcond3_1 ⟨n, hn⟩).mpr h1) (iblk3 V c 0 ⟨n, hn⟩) (iblk3 V c 1 ⟨n, hn⟩) (iblk3 V c 2 ⟨n, hn⟩) (accAt3 V c (n - 1) (Nat.lt_of_le_of_lt (Nat.sub_le _ _) hn))
  else VO3.read (Elt F) VO3.junk

theorem outAt3_C (c : Dev nD) (t : Fin cfg3.N) (h0 : ¬t.val % 4 = 0) (h1 : t.val % 4 = 3) :
    outAt3 V c t.val t.isLt = out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (accAt3 V c (t.val - 1) (Nat.lt_of_le_of_lt (Nat.sub_le _ _) t.isLt)) := by
  unfold outAt3; exact (dif_pos h1).trans rfl

/-! ## The invariant -/

/-- Before position `n`: at the region's entry, its resting invariant; afterwards the accumulator at what the point before
    left, every other scoped buffer the region does not stage, and the generator register. -/
def PhiS3 (c : Dev nD) : (n : ℕ) → n ≤ cfg3.N → sProp 𝕄
  | 0, _ => Pipeline.ΦA spec3 c
  | n + 1, hn => iprop(iprop(owns (c : Thread nD τ) scM3 fullShare (accAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (accAt3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (accAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The region's proof data -/

/-- The arrays as the region finds them; after the body each input's buffer at its block, the output's at `outAt`; the
    invariant `PhiS`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The inputs' buffers hold their blocks; the closed forms say which case the point is in; the invariant hands the body
    the accumulator at what the point before left (at anything, at the region's first point) and takes it back at this
    point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  by_cases h0 : t.val % 4 = 0
  · have h1 : ¬t.val % 4 = 3 := by omega
    rw [Dat.leavesExact_idle (dat3 V c) 3 t (idleAt3_3 t (fun h => h1 ((hcond3_1 t).mp h))) (noFlush3_3 t (fun h => h1 ((hcond3_1 t).mp h)))]
    rw [accAt3_A V c t h0 h1]
    unfold sout3_A; (try dsimp only)
    by_cases hz : t.val = 0
    · rw [PhiS3_castSucc V c t, PhiS3_zero V c _ _ hz, PhiA3_eq]
      iintro ⟨⟨⟨HS, Hrest⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by omega)
    by_cases h1 : t.val % 4 = 3
    · rw [show (dat3 V c).leavesExact 3 t = owns (c : Thread nD τ) (ms3_3 t) fullShare ((dat3 V c).after 3 t) from by
        unfold Dat.leavesExact; rw [liveAt3_3 t ((hcond3_1 t).mpr h1)], after3_3]
      rw [accAt3_C V c t h0 h1, outAt3_C V c t h0 h1]
      unfold out3_C sout3_C; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover3_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [accAt3_B V c t h0 h1]
      unfold sout3_B; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-- What the region is handed is the invariant before its first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After its last point the invariant gives the resting invariant back: the accumulator's contents are forgotten. -/
theorem hout3 (c : Dev nD) : (dat3 V c).Φ (Fin.last cfg3.N) ⊢ Pipeline.ΦA spec3 c := by
  have hN : (Fin.last cfg3.N).val ≠ 0 := by rw [Fin.val_last]; have : cfg3.N = 32 := N_3; omega
  rw [show (dat3 V c).Φ (Fin.last cfg3.N) = PhiS3 V c (Fin.last cfg3.N).val (Nat.le_of_lt_succ (Fin.last cfg3.N).isLt) from rfl, PhiS3_pos V c _ _ hN, PhiA3_eq]
  iintro ⟨⟨HS, Hrest⟩, Hg⟩
  isplitl [HS Hrest]
  · isplitl [HS]
    · iexists _; iexact HS
    iexact Hrest
  iexact Hg

end

end Cert.KernelIdeal.Hand

end
-- ==== Proof.IHRun.lean ====
/-
  The whole program: four kernel regions among stretches of host operations.

  Between two items the core holds every unscoped buffer at a known valuation: the launch memory, then each host
  stretch's operations applied, then — after a region — that region's arrays at what its write-backs leave and every
  other buffer untouched. No host operation and no region writes an argument array, so each argument reaches the end
  as launched; the result array ends at what the last region's write-backs leave.
-/
import proofs.«122649_j45518063403493_2_alg».proof.Proof.IH0Frame
import proofs.«122649_j45518063403493_2_alg».proof.Proof.IH1Frame
import proofs.«122649_j45518063403493_2_alg».proof.Proof.IH2Frame
import proofs.«122649_j45518063403493_2_alg».proof.Proof.IH3Frame
import proofs.«122649_j45518063403493_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)

/-- After the host stretch before region 0 (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch before region 1 (region 1's entry). -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At region 1's exit: its arrays at what its write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch before region 2 (region 2's entry). -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At region 2's exit: its arrays at what its write-backs leave, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host stretch before region 3 (region 3's entry). -/
abbrev W7 : Dev nD → Valuation τ sig (Elt F) := fun c => StableHlo.after hostOps3 (W6 m c)
/-- The same read at the TensorCore's references. -/
abbrev V7 : (c : Dev nD) → (b : Ref sig .tc) → Buf (Elt F) ((c : Thread nD τ).loc b) := fun c b => W7 m c b
/-- At region 3's exit: its arrays at what its write-backs leave, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## What no item changes -/

/-- A buffer that no host stretch writes and no region stages reaches the end as launched. -/
theorem W8_keep (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) (a3 : ∀ w, Pipeline.arrRef spec3 w ≠ r) :
    W8 m c (Proc.devRef .tc r) = m ((c : Thread nD τ).loc r) :=
  calc W8 m c (Proc.devRef .tc r)
    _ = W7 m c (Proc.devRef .tc r) := W8_of_ne m c r a3
    _ = W6 m c (Proc.devRef .tc r) := StableHlo.after_of_writes_sub hostOps3 _ hostOps3_writes h3
    _ = W5 m c (Proc.devRef .tc r) := W6_of_ne m c r a2
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl

theorem W8_main_arg0 (c : Dev nD) : W8 m c (Proc.devRef .tc main_arg0) = m ((c : Thread nD τ).loc main_arg0) :=
  W8_keep m c main_arg0 (by decide) (by decide) (by decide) (by decide) (by decide) (by decide) (by decide) (by decide)
theorem W8_main_arg1 (c : Dev nD) : W8 m c (Proc.devRef .tc main_arg1) = m ((c : Thread nD τ).loc main_arg1) :=
  W8_keep m c main_arg1 (by decide) (by decide) (by decide) (by decide) (by decide) (by decide) (by decide) (by decide)
theorem W8_main_arg2 (c : Dev nD) : W8 m c (Proc.devRef .tc main_arg2) = m ((c : Thread nD τ).loc main_arg2) :=
  W8_keep m c main_arg2 (by decide) (by decide) (by decide) (by decide) (by decide) (by decide) (by decide) (by decide)
theorem W8_main_arg3 (c : Dev nD) : W8 m c (Proc.devRef .tc main_arg3) = m ((c : Thread nD τ).loc main_arg3) :=
  W8_keep m c main_arg3 (by decide) (by decide) (by decide) (by decide) (by decide) (by decide) (by decide) (by decide)
theorem W8_main_arg4 (c : Dev nD) : W8 m c (Proc.devRef .tc main_arg4) = m ((c : Thread nD τ).loc main_arg4) :=
  W8_keep m c main_arg4 (by decide) (by decide) (by decide) (by decide) (by decide) (by decide) (by decide) (by decide)
theorem W8_main_arg5 (c : Dev nD) : W8 m c (Proc.devRef .tc main_arg5) = m ((c : Thread nD τ).loc main_arg5) :=
  W8_keep m c main_arg5 (by decide) (by decide) (by decide) (by decide) (by decide) (by decide) (by decide) (by decide)
theorem W8_main_arg6 (c : Dev nD) : W8 m c (Proc.devRef .tc main_arg6) = m ((c : Thread nD τ).loc main_arg6) :=
  W8_keep m c main_arg6 (by decide) (by decide) (by decide) (by decide) (by decide) (by decide) (by decide) (by decide)
theorem W8_main_arg7 (c : Dev nD) : W8 m c (Proc.devRef .tc main_arg7) = m ((c : Thread nD τ).loc main_arg7) :=
  W8_keep m c main_arg7 (by decide) (by decide) (by decide) (by decide) (by decide) (by decide) (by decide) (by decide)
theorem W8_main_arg8 (c : Dev nD) : W8 m c (Proc.devRef .tc main_arg8) = m ((c : Thread nD τ).loc main_arg8) :=
  W8_keep m c main_arg8 (by decide) (by decide) (by decide) (by decide) (by decide) (by decide) (by decide) (by decide)
theorem W8_main_arg9 (c : Dev nD) : W8 m c (Proc.devRef .tc main_arg9) = m ((c : Thread nD τ).loc main_arg9) :=
  W8_keep m c main_arg9 (by decide) (by decide) (by decide) (by decide) (by decide) (by decide) (by decide) (by decide)
theorem W8_main_arg10 (c : Dev nD) : W8 m c (Proc.devRef .tc main_arg10) = m ((c : Thread nD τ).loc main_arg10) :=
  W8_keep m c main_arg10 (by decide) (by decide) (by decide) (by decide) (by decide) (by decide) (by decide) (by decide)
theorem W8_main_arg11 (c : Dev nD) : W8 m c (Proc.devRef .tc main_arg11) = m ((c : Thread nD τ).loc main_arg11) :=
  W8_keep m c main_arg11 (by decide) (by decide) (by decide) (by decide) (by decide) (by decide) (by decide) (by decide)
theorem W8_main_arg12 (c : Dev nD) : W8 m c (Proc.devRef .tc main_arg12) = m ((c : Thread nD τ).loc main_arg12) :=
  W8_keep m c main_arg12 (by decide) (by decide) (by decide) (by decide) (by decide) (by decide) (by decide) (by decide)

/-! ## The proof data family and the thread state -/

/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. Its arrays are split out of
    the unscoped buffers and put back at the exit contents; the generator register goes into the invariant and comes out;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of
    the unscoped buffers and put back at the exit contents; the generator register goes into the invariant and comes out;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out of
    the unscoped buffers and put back at the exit contents; the generator register goes into the invariant and comes out;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m) c)
    unfold Pipeline.ΦA
    iintro ⟨Hp, -, Hr⟩
    isplitl [Hr]; · iexact Hr
    iexact Hp
  hout c := by
    rw [Pipeline.ownSems0_none]
    refine (hout2 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out of
    the unscoped buffers and put back at the exit contents; the generator register goes into the invariant and comes out;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(iprop(StableHlo.held (c : Thread nD τ) (Pipeline.ucRefs τ sig) (W8 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m) c)
    unfold Pipeline.ΦA
    iintro ⟨Hp, -, Hr⟩
    isplitl [Hr]; · iexact Hr
    iexact Hp
  hout c := by
    rw [Pipeline.ownSems0_none]
    refine (hout3 (V7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

theorem main_run (c : Dev nD) : main (F := F) c = Pipeline.Seg.run (segs m) := (main_chain c).trans (by chain_rfl)

set_option backward.isDefEq.respectTransparency.types false in
/-- From any memory with zero counters every weakly fair execution of @main terminates, nothing faulting, and every final
    state holds each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c)⟩) (run_all m ρ)

/-- The result array ends at what the last region's write-backs leave, and every argument array as launched. -/
theorem run_result : θ_run defs (onTc (τ := τ) (main (F := F))) ⟨m, fun _ => 0, ρ⟩ (fun r => ∀ c : Dev nD,
      r.2.mem ((c.tc : Thread nD τ).loc main_v16) = (dat3 (V7 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v16 (by decide))).trans (W8_arr m c 3),
    (h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c)⟩) (run_all m ρ)

end Cert.KernelIdeal.Hand

end
-- ==== Proof.LayerSpec.lean ====
/-
  One masked dense layer as a function of whole arrays, index by index, on the extended reals.

  A layer takes activations `h` (rows × fan-in), a weight `W` and a 0/1 mask `M` (both fan-out × fan-in) and a
  bias `b` (fan-out), and returns rows × fan-out: entry (p, q) is the sum over the fan-in axis of
  `h (p, k) * (W (q, k) * M (q, k))`, plus `b q`; a hidden layer then takes the maximum with zero.
  The network is four such layers, the first three with the maximum.
-/
import Idealize.ShloMosaic.PureOps.Ideal
import Idealize.ShloMosaic.Lib.ValueIdx

noncomputable section

namespace Cert.MLP

open Idealize.ShloMosaic Idealize.ShloMosaic.ValueIdx

/-- Arrays of extended reals over a matrix shape and over a vector shape. -/
abbrev Mat (r c : ℕ) : Type := (⟨2, ![r, c]⟩ : Shape).Idx → EReal
abbrev Vc (n : ℕ) : Type := (⟨1, ![n]⟩ : Shape).Idx → EReal

/-- Entry (p, q) of a layer before its activation: the contraction of row `p` of the activations with row `q` of
    the masked weight, plus the bias at `q`. -/
def preAt {B K N : ℕ} (h : Mat B K) (W M : Mat N K) (b : Vc N) (p : Fin B) (q : Fin N) : EReal :=
  (∑ k : Fin K, h (ix2 p k) * (W (ix2 q k) * M (ix2 q k))) + b (ix1 q)

/-- The last layer: no activation. -/
def lin {B K N : ℕ} (h : Mat B K) (W M : Mat N K) (b : Vc N) : Mat B N :=
  fun j => preAt h W M b (j 0) (j 1)

/-- A hidden layer: the maximum with zero. -/
def hid {B K N : ℕ} (h : Mat B K) (W M : Mat N K) (b : Vc N) : Mat B N :=
  fun j => max (preAt h W M b (j 0) (j 1)) 0

theorem lin_ix2 {B K N : ℕ} (h : Mat B K) (W M : Mat N K) (b : Vc N) (p : Fin B) (q : Fin N) :
    lin h W M b (ix2 p q) = preAt h W M b p q := rfl

theorem hid_ix2 {B K N : ℕ} (h : Mat B K) (W M : Mat N K) (b : Vc N) (p : Fin B) (q : Fin N) :
    hid h W M b (ix2 p q) = max (preAt h W M b p q) 0 := rfl

/-- The whole network: 8192 rows through fan-ins 4096, 8192, 8192, 4096 to 1024 outputs. -/
def net (x : Mat 8192 4096) (W0 M0 : Mat 8192 4096) (b0 : Vc 8192) (W1 M1 : Mat 8192 8192) (b1 : Vc 8192)
    (W2 M2 : Mat 4096 8192) (b2 : Vc 4096) (W3 M3 : Mat 1024 4096) (b3 : Vc 1024) : Mat 8192 1024 :=
  lin (hid (hid (hid x W0 M0 b0) W1 M1 b1) W2 M2 b2) W3 M3 b3

end Cert.MLP

end
-- ==== Proof.KLayer.lean ====
/-
  A layer as the kernel sees it: a function of its three windowed arrays — the activations, the masked weight (the
  product of weight and mask, formed once on the host) and the bias laid out as one row — and its agreement with the
  layer of the specification once those arrays are read in terms of the weight, the mask and the bias vector.
-/
import proofs.«122649_j45518063403493_2_alg».proof.Proof.LayerSpec

noncomputable section

namespace Cert.MLP

open Idealize.ShloMosaic Idealize.ShloMosaic.ValueIdx

/-- Entry (p, q) before the activation, from the windowed arrays. -/
def kpreAt {B K N : ℕ} (h : Mat B K) (wm : Mat N K) (bb : Mat 1 N) (p : Fin B) (q : Fin N) : EReal :=
  (∑ k : Fin K, h (ix2 p k) * wm (ix2 q k)) + bb (ix2 (0 : Fin 1) q)

/-- A hidden layer from the windowed arrays. -/
def khid {B K N : ℕ} (h : Mat B K) (wm : Mat N K) (bb : Mat 1 N) : Mat B N :=
  fun j => max (kpreAt h wm bb (j 0) (j 1)) 0

/-- The last layer from the windowed arrays. -/
def klin {B K N : ℕ} (h : Mat B K) (wm : Mat N K) (bb : Mat 1 N) : Mat B N :=
  fun j => kpreAt h wm bb (j 0) (j 1)

theorem khid_ix2 {B K N : ℕ} (h : Mat B K) (wm : Mat N K) (bb : Mat 1 N) (p : Fin B) (q : Fin N) :
    khid h wm bb (ix2 p q) = max (kpreAt h wm bb p q) 0 := rfl

theorem klin_ix2 {B K N : ℕ} (h : Mat B K) (wm : Mat N K) (bb : Mat 1 N) (p : Fin B) (q : Fin N) :
    klin h wm bb (ix2 p q) = kpreAt h wm bb p q := rfl

/-- With the masked weight the entrywise product and the bias row the bias vector, the kernel's hidden layer is the
    specification's. -/
theorem khid_eq {B K N : ℕ} (h : Mat B K) (W M : Mat N K) (b : Vc N) (wm : Mat N K) (bb : Mat 1 N)
    (hwm : ∀ i, wm i = W i * M i) (hbb : ∀ q : Fin N, bb (ix2 (0 : Fin 1) q) = b (ix1 q)) :
    khid h wm bb = hid h W M b := by
  funext j
  obtain ⟨p, q, rfl⟩ : ∃ (p : Fin B) (q : Fin N), j = ix2 p q := ⟨j 0, j 1, eq_ix2 j⟩
  rw [khid_ix2, hid_ix2]
  unfold kpreAt preAt
  simp only [hwm, hbb]

theorem klin_eq {B K N : ℕ} (h : Mat B K) (W M : Mat N K) (b : Vc N) (wm : Mat N K) (bb : Mat 1 N)
    (hwm : ∀ i, wm i = W i * M i) (hbb : ∀ q : Fin N, bb (ix2 (0 : Fin 1) q) = b (ix1 q)) :
    klin h wm bb = lin h W M b := by
  funext j
  obtain ⟨p, q, rfl⟩ : ∃ (p : Fin B) (q : Fin N), j = ix2 p q := ⟨j 0, j 1, eq_ix2 j⟩
  rw [klin_ix2, lin_ix2]
  unfold kpreAt preAt
  simp only [hwm, hbb]

end Cert.MLP

end
-- ==== Proof.PayloadAt.lean ====
import proofs.«122649_j45518063403493_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-! The three pure values each of the four layer kernels stores, read at an index, at the
extended reals.

* the first is the zero splat: `0` everywhere;
* the second adds to the old accumulator the product of a `rows × 1024` block with the
  TRANSPOSE of a `1024 × 1024` block (both operands are contracted along their second axis):
  at `(p, q)` it is `old (p, q) + ∑ kk, a (p, kk) * b (q, kk)`;
* the third adds the bias row to the accumulator and, in the first three layers, clamps at `0`
  from below (the change of format after it is the identity at the extended reals); in the last
  layer it is the plain sum. -/

noncomputable section

namespace Cert.MLP.Pay

open Cert.KernelIdeal Cert.KernelIdeal.Gen Idealize.ShloMosaic Idealize.ShloMosaic.ValueIdx

/-! ## The product of a block with a transposed block, at an index -/

/-- On the left operand the row coordinate is the output's row. -/
theorem lhsA0 (j : S2048x1024.Idx) (k : dot_S2048x1024_S1024x1024_S2048x1024_1_1_0_0_n_n.contr.Idx) :
    (dot_S2048x1024_S1024x1024_S2048x1024_1_1_0_0_n_n.lhsIdx j k 0).val = (j 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl

/-- On the right operand the row coordinate is the output's COLUMN: the right operand is read transposed. -/
theorem rhsA0 (j : S2048x1024.Idx) (k : dot_S2048x1024_S1024x1024_S2048x1024_1_1_0_0_n_n.contr.Idx) :
    (dot_S2048x1024_S1024x1024_S2048x1024_1_1_0_0_n_n.rhsIdx j k 0).val = (j 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl

/-- The `2048 × 1024` by (`1024 × 1024`)ᵀ product into a zero accumulator, at `(p, q)`. -/
theorem mmA_at (a : FVec Ideal S2048x1024 .bf16) (b : FVec Ideal S1024x1024 .bf16) (p : Fin 2048) (q : Fin 1024) :
    matmul (F := Ideal) dot_S2048x1024_S1024x1024_S2048x1024_1_1_0_0_n_n none a b (constant S2048x1024 .f32 0x00000000#32) (ix2 p q)
      = ∑ kk : Fin 1024, a (ix2 p kk) * b (ix2 q kk) := by
  simp only [matmul]
  rw [Ideal.matmul_constant_zero_apply,
    ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p q)
      ((contrEquiv1 dot_S2048x1024_S1024x1024_S2048x1024_1_1_0_0_n_n 1024 rfl rfl).symm k) = ix2 p k :=
    funext fun c => Fin.ext (by
      match c with
      | ⟨0, _⟩ => exact lhsA0 _ _
      | ⟨1, _⟩ => exact (dot_S2048x1024_S1024x1024_S2048x1024_1_1_0_0_n_n.lhsIdx_val_of_single rfl _ _).trans hk)
  have er : dot_S2048x1024_S1024x1024_S2048x1024_1_1_0_0_n_n.rhsIdx (ix2 p q)
      ((contrEquiv1 dot_S2048x1024_S1024x1024_S2048x1024_1_1_0_0_n_n 1024 rfl rfl).symm k) = ix2 q k :=
    funext fun c => Fin.ext (by
      match c with
      | ⟨0, _⟩ => exact rhsA0 _ _
      | ⟨1, _⟩ => exact (dot_S2048x1024_S1024x1024_S2048x1024_1_1_0_0_n_n.rhsIdx_val_of_single rfl _ _).trans hk)
  rw [el, er]

/-! The same for the last layer's `1024 × 1024` block. -/

/-- On the left operand the row coordinate is the output's row. -/
theorem lhsB0 (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- On the right operand the row coordinate is the output's COLUMN: the right operand is read transposed. -/
theorem rhsB0 (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The `1024 × 1024` by (`1024 × 1024`)ᵀ product into a zero accumulator, at `(p, q)`. -/
theorem mmB_at (a : FVec Ideal S1024x1024 .bf16) (b : FVec Ideal S1024x1024 .bf16) (p : Fin 1024) (q : Fin 1024) :
    matmul (F := Ideal) dot_S1024x1024_S1024x1024_S1024x1024_1_1_0_0_n_n none a b (constant S1024x1024 .f32 0x00000000#32) (ix2 p q)
      = ∑ kk : Fin 1024, a (ix2 p kk) * b (ix2 q kk) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun c => Fin.ext (by
      match c with
      | ⟨0, _⟩ => exact lhsB0 _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun c => Fin.ext (by
      match c with
      | ⟨0, _⟩ => exact rhsB0 _ _
      | ⟨1, _⟩ => exact (dot_S1024x1024_S1024x1024_S1024x1024_1_1_0_0_n_n.rhsIdx_val_of_single rfl _ _).trans hk)
  rw [el, er]

/-! ## The first layer's kernel -/

theorem k0_pay1_at (j : S2048x1024.Idx) : k0_pay1 (F := Ideal) j = 0 := by
  unfold k0_pay1
  show shapeCast S2048x1024 (broadcast S2048x1024 (Scalar.ofBits (F := Ideal) .f32 0x00000000#32)) _ j = 0
  rw [shapeCast_self]
  exact Ideal.ofBits_zero_f32

theorem k0_pay2_at (v3 : Vec Ideal S2048x1024 .f32) (v4 : Vec Ideal S2048x1024 .bf16) (v6 : Vec Ideal S1024x1024 .bf16)
    (p : Fin 2048) (q : Fin 1024) :
    k0_pay2 (F := Ideal) v3 v4 v6 (ix2 p q) = v3 (ix2 p q) + ∑ kk : Fin 1024, v4 (ix2 p kk) * v6 (ix2 q kk) := by
  unfold k0_pay2
  simp only [shapeCast_self]
  exact congrArg (v3 (ix2 p q) + ·) (mmA_at v4 v6 p q)

theorem k0_pay3_at (v16 : Vec Ideal S2048x1024 .f32) (v17 : Vec Ideal S1x1024 .f32) (p : Fin 2048) (q : Fin 1024) :
    k0_pay3 (F := Ideal) v16 v17 (ix2 p q) = max (v16 (ix2 p q) + v17 (ix2 0 q)) 0 := by
  unfold k0_pay3
  simp only [shapeCast_self]
  show max (v16 (ix2 p q) + broadcastTo S2048x1024 v17 _ (ix2 p q)) (Ideal.ofBits .f32 0x00000000#32) = _
  rw [Ideal.ofBits_zero_f32, broadcastTo_1b_ab_apply]

/-! ## The second layer's kernel -/

theorem k1_pay1_at (j : S2048x1024.Idx) : k1_pay1 (F := Ideal) j = 0 := by
  unfold k1_pay1
  show shapeCast S2048x1024 (broadcast S2048x1024 (Scalar.ofBits (F := Ideal) .f32 0x00000000#32)) _ j = 0
  rw [shapeCast_self]
  exact Ideal.ofBits_zero_f32

theorem k1_pay2_at (v3 : Vec Ideal S2048x1024 .f32) (v4 : Vec Ideal S2048x1024 .bf16) (v6 : Vec Ideal S1024x1024 .bf16)
    (p : Fin 2048) (q : Fin 1024) :
    k1_pay2 (F := Ideal) v3 v4 v6 (ix2 p q) = v3 (ix2 p q) + ∑ kk : Fin 1024, v4 (ix2 p kk) * v6 (ix2 q kk) := by
  unfold k1_pay2
  simp only [shapeCast_self]
  exact congrArg (v3 (ix2 p q) + ·) (mmA_at v4 v6 p q)

theorem k1_pay3_at (v16 : Vec Ideal S2048x1024 .f32) (v17 : Vec Ideal S1x1024 .f32) (p : Fin 2048) (q : Fin 1024) :
    k1_pay3 (F := Ideal) v16 v17 (ix2 p q) = max (v16 (ix2 p q) + v17 (ix2 0 q)) 0 := by
  unfold k1_pay3
  simp only [shapeCast_self]
  show max (v16 (ix2 p q) + broadcastTo S2048x1024 v17 _ (ix2 p q)) (Ideal.ofBits .f32 0x00000000#32) = _
  rw [Ideal.ofBits_zero_f32, broadcastTo_1b_ab_apply]

/-! ## The third layer's kernel -/

theorem k2_pay1_at (j : S2048x1024.Idx) : k2_pay1 (F := Ideal) j = 0 := by
  unfold k2_pay1
  show shapeCast S2048x1024 (broadcast S2048x1024 (Scalar.ofBits (F := Ideal) .f32 0x00000000#32)) _ j = 0
  rw [shapeCast_self]
  exact Ideal.ofBits_zero_f32

theorem k2_pay2_at (v3 : Vec Ideal S2048x1024 .f32) (v4 : Vec Ideal S2048x1024 .bf16) (v6 : Vec Ideal S1024x1024 .bf16)
    (p : Fin 2048) (q : Fin 1024) :
    k2_pay2 (F := Ideal) v3 v4 v6 (ix2 p q) = v3 (ix2 p q) + ∑ kk : Fin 1024, v4 (ix2 p kk) * v6 (ix2 q kk) := by
  unfold k2_pay2
  simp only [shapeCast_self]
  exact congrArg (v3 (ix2 p q) + ·) (mmA_at v4 v6 p q)

theorem k2_pay3_at (v16 : Vec Ideal S2048x1024 .f32) (v17 : Vec Ideal S1x1024 .f32) (p : Fin 2048) (q : Fin 1024) :
    k2_pay3 (F := Ideal) v16 v17 (ix2 p q) = max (v16 (ix2 p q) + v17 (ix2 0 q)) 0 := by
  unfold k2_pay3
  simp only [shapeCast_self]
  show max (v16 (ix2 p q) + broadcastTo S2048x1024 v17 _ (ix2 p q)) (Ideal.ofBits .f32 0x00000000#32) = _
  rw [Ideal.ofBits_zero_f32, broadcastTo_1b_ab_apply]

/-! ## The last layer's kernel: `1024` rows, no clamp and no change of format -/

theorem k3_pay1_at (j : S1024x1024.Idx) : k3_pay1 (F := Ideal) j = 0 := by
  unfold k3_pay1
  show shapeCast S1024x1024 (broadcast S1024x1024 (Scalar.ofBits (F := Ideal) .f32 0x00000000#32)) _ j = 0
  rw [shapeCast_self]
  exact Ideal.ofBits_zero_f32

theorem k3_pay2_at (v3 : Vec Ideal S1024x1024 .f32) (v4 : Vec Ideal S1024x1024 .bf16) (v6 : Vec Ideal S1024x1024 .bf16)
    (p : Fin 1024) (q : Fin 1024) :
    k3_pay2 (F := Ideal) v3 v4 v6 (ix2 p q) = v3 (ix2 p q) + ∑ kk : Fin 1024, v4 (ix2 p kk) * v6 (ix2 q kk) := by
  unfold k3_pay2
  simp only [shapeCast_self]
  exact congrArg (v3 (ix2 p q) + ·) (mmB_at v4 v6 p q)

theorem k3_pay3_at (v16 : Vec Ideal S1024x1024 .f32) (v17 : Vec Ideal S1x1024 .f32) (p : Fin 1024) (q : Fin 1024) :
    k3_pay3 (F := Ideal) v16 v17 (ix2 p q) = v16 (ix2 p q) + v17 (ix2 0 q) := by
  unfold k3_pay3
  simp only [shapeCast_self]
  show v16 (ix2 p q) + broadcastTo S1024x1024 v17 _ (ix2 p q) = _
  rw [broadcastTo_1b_ab_apply]

end Cert.MLP.Pay
-- ==== Proof.BlockSum.lean ====
import Mathlib.Data.EReal.Basic
import Mathlib.Algebra.BigOperators.Fin
import Mathlib.Algebra.BigOperators.Group.Finset.Basic

/-! Two facts about finite sums of extended reals.

* A running accumulator that starts from `0` and adds one term per step is the sum of the
  terms seen so far.
* A sum over `nb * bs` consecutive indices is the sum over `nb` blocks of the `bs`-term sums
  inside each block.

Only commutativity and associativity of `+` are used, so no finiteness hypothesis is needed. -/

namespace Cert.MLP

/-- The running accumulator: start from `0`, then add `s 0`, `s 1`, …, `s n` in order. -/
noncomputable def acc (s : ℕ → EReal) : ℕ → EReal
  | 0 => 0 + s 0
  | n + 1 => acc s n + s (n + 1)

/-- After step `n` the accumulator holds `s 0 + … + s n`. -/
theorem acc_eq_sum (s : ℕ → EReal) (n : ℕ) : acc s n = ∑ i ∈ Finset.range (n + 1), s i := by
  induction n with
  | zero => simp [acc]
  | succ n ih => rw [acc, ih, Finset.sum_range_succ _ (n + 1)]

/-- Summing block by block (`nb` blocks of `bs` consecutive indices) is summing over all
`nb * bs` indices. -/
theorem blocks_sum (nb bs : ℕ) (g : ℕ → EReal) :
    ∑ kb ∈ Finset.range nb, ∑ kk : Fin bs, g (kb * bs + kk.val) = ∑ k : Fin (nb * bs), g k.val := by
  -- turn both `Fin` sums into sums over ranges of naturals
  rw [Fin.sum_univ_eq_sum_range (fun k => g k) (nb * bs)]
  have h : ∀ kb : ℕ, ∑ kk : Fin bs, g (kb * bs + kk.val) = ∑ kk ∈ Finset.range bs, g (kb * bs + kk) :=
    fun kb => Fin.sum_univ_eq_sum_range (fun kk => g (kb * bs + kk)) bs
  simp only [h]
  -- peel the last block off
  induction nb with
  | zero => simp
  | succ n ih =>
    rw [Finset.sum_range_succ, ih, Nat.succ_mul, Finset.sum_range_add]

end Cert.MLP
-- ==== Proof.IH0Acc.lean ====
/-
  Layer 0's kernel region, in values: what each control case's stores leave, as the payloads of the blocks, and the
  accumulator after every point in closed form.

  The three cases each end with one store of the whole accumulator; a first step stores the zero block first and
  reads it back. So after a first step the accumulator is the step's block product added to zero, after any later
  step the block product added to what the step before left, and a last step stores, in the output block, the
  activation of the new accumulator plus the bias row. At the extended reals the accumulator after step k of an
  output block is therefore the running sum of the block products of steps 0, …, k.
-/
import proofs.«122649_j45518063403493_2_alg».proof.Proof.IH0Frame
import proofs.«122649_j45518063403493_2_alg».proof.Proof.PayloadAt
import proofs.«122649_j45518063403493_2_alg».proof.Proof.BlockSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero. -/
theorem hz2 : (![0, 0] : Fin 2 → Nat) = fun _ => 0 := funext fun a => by fin_cases a <;> rfl

/-! ## What each case's stores leave, as the payloads of the blocks -/

/-- A first step leaves in the accumulator the block product added to the zero block. -/
theorem sout0_A_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x1024 .bf16) (x1 : Vec F S1024x1024 .bf16) (x2 : Vec F S1x1024 .f32) :
    sout0_A c i arg3 harg3 arg4 harg4 arg5 harg5 arg6 harg6 arg7 harg7 hc0 hc1 x0 x1 x2 = k0_pay2 (k0_pay1 (F := F)) x0 x1 := by
  unfold sout0_A
  rw [View.read_writes_eq_canon _ _ _ (scover0_A c i arg3 harg3 arg4 harg4 arg5 harg5 arg6 harg6 arg7 harg7 hc0 hc1 x0 x1 x2)]
  unfold kernelRun0_A
  dsimp only
  sl_unfold_words
  rw [View.canon_cons_unit_zero (S := S2048x1024) hz2, View.readCov_unit_zero (S := S2048x1024) _ hz2]
  simp only [View.readAt_eq_ld, harg3.read_unread, harg4.read_unread, View.ld_unit_zero (S := S2048x1024) hz2,
    View.ld_unit_zero (S := S1024x1024) hz2]

/-- A middle step leaves in the accumulator the block product added to what it held. -/
theorem sout0_B_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x1024 .bf16) (x1 : Vec F S1024x1024 .bf16) (x2 : Vec F S1x1024 .f32) (xs : Vec F S2048x1024 .f32) :
    sout0_B c i arg3 harg3 arg4 harg4 arg5 harg5 arg6 harg6 arg7 harg7 hc0 hc1 x0 x1 x2 xs = k0_pay2 xs x0 x1 := by
  unfold sout0_B
  rw [View.read_writes_eq_canon _ _ _ (scover0_B c i arg3 harg3 arg4 harg4 arg5 harg5 arg6 harg6 arg7 harg7 hc0 hc1 x0 x1 x2 xs)]
  unfold kernelRun0_B
  dsimp only
  rw [View.canon_unit_zero (S := S2048x1024) hz2]
  simp only [View.readAt_eq_ld, harg3.read_unread, harg4.read_unread, harg7.read_unread, View.ld_unit_zero (S := S2048x1024) hz2,
    View.ld_unit_zero (S := S1024x1024) hz2]

/-- A last step leaves in the accumulator the block product added to what it held. -/
theorem sout0_C_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x1024 .bf16) (x1 : Vec F S1024x1024 .bf16) (x2 : Vec F S1x1024 .f32) (xs : Vec F S2048x1024 .f32) :
    sout0_C c i arg3 harg3 arg4 harg4 arg5 harg5 arg6 harg6 arg7 harg7 hc0 hc1 x0 x1 x2 xs = k0_pay2 xs x0 x1 := by
  unfold sout0_C
  rw [View.read_writes_eq_canon _ _ _ (scover0_C c i arg3 harg3 arg4 harg4 arg5 harg5 arg6 harg6 arg7 harg7 hc0 hc1 x0 x1 x2 xs)]
  unfold kernelRun0_C
  dsimp only
  sl_unfold_words
  rw [View.canon_unit_zero (S := S2048x1024) hz2]
  simp only [View.readAt_eq_ld, harg3.read_unread, harg4.read_unread, harg7.read_unread, View.ld_unit_zero (S := S2048x1024) hz2,
    View.ld_unit_zero (S := S1024x1024) hz2]

/-- A last step leaves in the output block's buffer the activation of that new accumulator plus the bias row. -/
theorem out0_C_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x1024 .bf16) (x1 : Vec F S1024x1024 .bf16) (x2 : Vec F S1x1024 .f32) (xs : Vec F S2048x1024 .f32) :
    out0_C c i arg3 harg3 arg4 harg4 arg5 harg5 arg6 harg6 arg7 harg7 hc0 hc1 x0 x1 x2 xs = k0_pay3 (k0_pay2 xs x0 x1) x2 := by
  unfold out0_C
  rw [View.read_writes_eq_canon _ _ _ (cover0_C c i arg3 harg3 arg4 harg4 arg5 harg5 arg6 harg6 arg7 harg7 hc0 hc1 x0 x1 x2 xs)]
  unfold kernelRun0_C
  dsimp only
  sl_unfold_words
  rw [View.canon_unit_zero (S := S2048x1024) hz2, View.readCov_unit_zero (S := S2048x1024) _ hz2]
  simp only [View.readAt_eq_ld, harg3.read_unread, harg4.read_unread, harg5.read_unread, harg7.read_unread,
    View.ld_unit_zero (S := S2048x1024) hz2, View.ld_unit_zero (S := S1024x1024) hz2, View.ld_unit_zero (S := S1x1024) hz2]

/-! ## The accumulator and the stored block, point by point, as payloads -/

section
variable (V : (c : Dev nD) → (b : Ref sig .tc) → Buf (Elt F) ((c : Thread nD τ).loc b))

/-- The accumulator's value depends on the point's number only. -/
theorem accAt0_congr (c : Dev nD) {n m : ℕ} (e : n = m) (hn : n < cfg0.N) (hm : m < cfg0.N) :
    accAt0 V c n hn = accAt0 V c m hm := by
  subst e; rfl

/-- After a first step the accumulator is the step's block product added to the zero block. -/
theorem accAt0_first (c : Dev nD) (t : Fin cfg0.N) (h0 : t.val % 4 = 0) :
    accAt0 V c t.val t.isLt = k0_pay2 (k0_pay1 (F := F)) (iblk0 V c 0 t) (iblk0 V c 1 t) :=
  have h1 : ¬t.val % 4 = 3 := by omega
  (accAt0_A V c t h0 h1).trans
    (sout0_A_eq c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t))

/-- After any later step it is the step's block product added to what the step before left. -/
theorem accAt0_next (c : Dev nD) (t : Fin cfg0.N) (h0 : ¬t.val % 4 = 0) :
    accAt0 V c t.val t.isLt
      = k0_pay2 (accAt0 V c (t.val - 1) (Nat.lt_of_le_of_lt (Nat.sub_le _ _) t.isLt)) (iblk0 V c 0 t) (iblk0 V c 1 t) := by
  by_cases h1 : t.val % 4 = 3
  · exact (accAt0_C V c t h0 h1).trans
      (sout0_C_eq c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t)
        (accAt0 V c (t.val - 1) (Nat.lt_of_le_of_lt (Nat.sub_le _ _) t.isLt)))
  · exact (accAt0_B V c t h0 h1).trans
      (sout0_B_eq c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t)
        (accAt0 V c (t.val - 1) (Nat.lt_of_le_of_lt (Nat.sub_le _ _) t.isLt)))

/-- After a last step the output block's buffer holds the activation of the accumulator plus the bias row. -/
theorem outAt0_last (c : Dev nD) (t : Fin cfg0.N) (h1 : t.val % 4 = 3) :
    outAt0 V c t.val t.isLt = k0_pay3 (accAt0 V c t.val t.isLt) (iblk0 V c 2 t) := by
  have h0 : ¬t.val % 4 = 0 := by omega
  rw [accAt0_next V c t h0]
  exact (outAt0_C V c t h0 h1).trans
    (out0_C_eq c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t)
      (accAt0 V c (t.val - 1) (Nat.lt_of_le_of_lt (Nat.sub_le _ _) t.isLt)))

end

/-! ## At the extended reals: the running sum of the block products -/

section
variable (V : (c : Dev nD) → (b : Ref sig .tc) → Buf (Elt Ideal) ((c : Thread nD τ).loc b))

open Idealize.ShloMosaic.ValueIdx

/-- Row p of an activation block against row q of a weight block: the sum over the block's fan-in axis of the products. -/
def dotRows (a : Vec Ideal S2048x1024 .bf16) (b : Vec Ideal S1024x1024 .bf16) (p : Fin 2048) (q : Fin 1024) : EReal :=
  ∑ kk : Fin 1024, a (ix2 p kk) * b (ix2 q kk)

/-- Entry (p, q) of the block product at point t. -/
def prod0 (c : Dev nD) (t : Fin cfg0.N) (p : Fin 2048) (q : Fin 1024) : EReal :=
  dotRows (iblk0 V c 0 t) (iblk0 V c 1 t) p q

/-- The block product of step kb of the output block that starts at point t0 (zero past the grid's end). -/
def term0 (c : Dev nD) (t0 : ℕ) (p : Fin 2048) (q : Fin 1024) (kb : ℕ) : EReal :=
  if hk : t0 + kb < cfg0.N then prod0 V c ⟨t0 + kb, hk⟩ p q else 0

theorem term0_of_lt (c : Dev nD) (t0 : ℕ) (p : Fin 2048) (q : Fin 1024) (kb : ℕ) (hk : t0 + kb < cfg0.N) :
    term0 V c t0 p q kb = prod0 V c ⟨t0 + kb, hk⟩ p q := dif_pos hk

theorem accAt0_first_at (c : Dev nD) (t : Fin cfg0.N) (h0 : t.val % 4 = 0) (p : Fin 2048) (q : Fin 1024) :
    accAt0 (F := Ideal) V c t.val t.isLt (ix2 p q) = 0 + prod0 V c t p q := by
  rw [accAt0_first V c t h0]
  exact (Cert.MLP.Pay.k0_pay2_at _ (iblk0 V c 0 t) (iblk0 V c 1 t) p q).trans
    (congrArg (· + prod0 V c t p q) (Cert.MLP.Pay.k0_pay1_at (ix2 p q)))

theorem accAt0_next_at (c : Dev nD) (t : Fin cfg0.N) (h0 : ¬t.val % 4 = 0) (p : Fin 2048) (q : Fin 1024) :
    accAt0 (F := Ideal) V c t.val t.isLt (ix2 p q)
      = accAt0 (F := Ideal) V c (t.val - 1) (Nat.lt_of_le_of_lt (Nat.sub_le _ _) t.isLt) (ix2 p q) + prod0 V c t p q := by
  rw [accAt0_next V c t h0]
  exact Cert.MLP.Pay.k0_pay2_at _ (iblk0 V c 0 t) (iblk0 V c 1 t) p q

/-- The accumulator after step k of the output block that starts at point t0 is the running sum of the block
    products of steps 0, …, k. -/
theorem accAt0_acc (c : Dev nD) (t0 : ℕ) (h0 : t0 % 4 = 0) (p : Fin 2048) (q : Fin 1024) :
    ∀ (k : ℕ) (_ : k ≤ 3) (h : t0 + k < cfg0.N),
      accAt0 (F := Ideal) V c (t0 + k) h (ix2 p q) = Cert.MLP.acc (term0 V c t0 p q) k
  | 0, _, h => by
    refine (accAt0_first_at V c ⟨t0 + 0, h⟩ (by dsimp only; omega) p q).trans ?_
    rw [Cert.MLP.acc, term0_of_lt V c t0 p q 0 h]
  | k + 1, hk, h => by
    refine (accAt0_next_at V c ⟨t0 + (k + 1), h⟩ (by dsimp only; omega) p q).trans ?_
    rw [Cert.MLP.acc, term0_of_lt V c t0 p q (k + 1) h]
    refine congrArg (· + prod0 V c ⟨t0 + (k + 1), h⟩ p q) ?_
    refine (congrFun (accAt0_congr V c (show (⟨t0 + (k + 1), h⟩ : Fin cfg0.N).val - 1 = t0 + k by dsimp only; omega) _ (by omega)) (ix2 p q)).trans ?_
    exact accAt0_acc c t0 h0 p q k (by omega) (by omega)

/-- The same as a sum over the steps. -/
theorem accAt0_sum (c : Dev nD) (t0 : ℕ) (h0 : t0 % 4 = 0) (p : Fin 2048) (q : Fin 1024) (k : ℕ) (hk : k ≤ 3) (h : t0 + k < cfg0.N) :
    accAt0 (F := Ideal) V c (t0 + k) h (ix2 p q) = ∑ kb ∈ Finset.range (k + 1), term0 V c t0 p q kb :=
  (accAt0_acc V c t0 h0 p q k hk h).trans (Cert.MLP.acc_eq_sum _ k)

/-- Entry q of a bias row block. -/
def biasAt (b : Vec Ideal S1x1024 .f32) (q : Fin 1024) : EReal := b (ix2 0 q)

/-- The stored output block at a last step: the maximum with zero of the accumulator plus the bias. -/
theorem outAt0_last_at (c : Dev nD) (t : Fin cfg0.N) (h1 : t.val % 4 = 3) (p : Fin 2048) (q : Fin 1024) :
    outAt0 (F := Ideal) V c t.val t.isLt (ix2 p q)
      = max (accAt0 (F := Ideal) V c t.val t.isLt (ix2 p q) + biasAt (iblk0 V c 2 t) q) 0 := by
  rw [outAt0_last V c t h1]
  exact Cert.MLP.Pay.k0_pay3_at _ (iblk0 V c 2 t) p q

end

end Cert.KernelIdeal.Hand

end
-- ==== Proof.IH0Blocks.lean ====
/-
  Layer 0's kernel region: where its blocks sit in their arrays, and the output array assembled from its blocks.

  The grid has 4 row blocks of 2048 rows, 8 column blocks of 1024 output columns and 4 fan-in blocks of 1024, numbered with the
  fan-in innermost: point `t` is row block `t / 32`, column block `(t / 4) % 8`, fan-in block `t % 4`. The activations' block at
  `t` is block (row block, fan-in block) of their array, the weight's is block (column block, fan-in block), the bias's is block
  (0, column block) and the output's is block (row block, column block). A block's coordinate in its array is always the block's
  index times the block's size plus the coordinate inside the block.

  The output array is written back at the last fan-in step of each output block, and those 32 blocks tile it: if every one of them
  agrees with one whole-array function on its rectangle, the array ends equal to that function.
-/
import proofs.«122649_j45518063403493_2_alg».proof.Proof.IH0Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The block indices, in closed form over the grid -/

theorem blockIdx0 : ∀ t : Fin cfg0.N,
    win0_0.index t (0 : Fin 2) = t.val / 32 ∧ win0_0.index t (1 : Fin 2) = t.val % 4
    ∧ win0_1.index t (0 : Fin 2) = (t.val / 4) % 8 ∧ win0_1.index t (1 : Fin 2) = t.val % 4
    ∧ win0_2.index t (0 : Fin 2) = 0 ∧ win0_2.index t (1 : Fin 2) = (t.val / 4) % 8
    ∧ win0_3.index t (0 : Fin 2) = t.val / 32 ∧ win0_3.index t (1 : Fin 2) = (t.val / 4) % 8 :=
  (by decide +kernel : ∀ t : Fin grid0.N, _)

/-! ## An array read through a window's block -/

/-- The activations' array through its block at `t`: rows `(t / 32) * 2048 + p`, columns `(t % 4) * 1024 + kk`. -/
theorem readBlk0_0 (X : S8192x4096.Idx → Elt F .bf16) (t : Fin cfg0.N) (p : Fin 2048) (kk : Fin 1024) :
    (((cfg0.win 0).blk t).view.read (Elt F) X : Vec F S2048x1024 .bf16) (ix2 p kk)
      = X (ix2 (⟨(t.val / 32) * 2048 + p.val, by have := t.isLt; have hN : cfg0.N = 128 := N_0; omega⟩ : Fin 8192)
               (⟨(t.val % 4) * 1024 + kk.val, by omega⟩ : Fin 4096)) := by
  obtain ⟨e0, e1, -⟩ := blockIdx0 t
  rw [View.read_apply]
  show X _ = _
  congr 1
  funext a; apply Fin.ext
  match a with
  | ⟨0, _⟩ => show win0_0.index t (0 : Fin 2) * 2048 + 1 * p.val = _; rw [e0]; show _ = (t.val / 32) * 2048 + p.val; omega
  | ⟨1, _⟩ => show win0_0.index t (1 : Fin 2) * 1024 + 1 * kk.val = _; rw [e1]; show _ = (t.val % 4) * 1024 + kk.val; omega

/-- The weight's array through its block at `t`: rows `((t / 4) % 8) * 1024 + q`, columns `(t % 4) * 1024 + kk`. -/
theorem readBlk0_1 (X : S8192x4096.Idx → Elt F .bf16) (t : Fin cfg0.N) (q : Fin 1024) (kk : Fin 1024) :
    (((cfg0.win 1).blk t).view.read (Elt F) X : Vec F S1024x1024 .bf16) (ix2 q kk)
      = X (ix2 (⟨((t.val / 4) % 8) * 1024 + q.val, by omega⟩ : Fin 8192)
               (⟨(t.val % 4) * 1024 + kk.val, by omega⟩ : Fin 4096)) := by
  obtain ⟨-, -, e0, e1, -⟩ := blockIdx0 t
  rw [View.read_apply]
  show X _ = _
  congr 1
  funext a; apply Fin.ext
  match a with
  | ⟨0, _⟩ => show win0_1.index t (0 : Fin 2) * 1024 + 1 * q.val = _; rw [e0]; show _ = ((t.val / 4) % 8) * 1024 + q.val; omega
  | ⟨1, _⟩ => show win0_1.index t (1 : Fin 2) * 1024 + 1 * kk.val = _; rw [e1]; show _ = (t.val % 4) * 1024 + kk.val; omega

/-- The bias row through its block at `t`: columns `((t / 4) % 8) * 1024 + q`. -/
theorem readBlk0_2 (X : S1x8192.Idx → Elt F .f32) (t : Fin cfg0.N) (q : Fin 1024) :
    (((cfg0.win 2).blk t).view.read (Elt F) X : Vec F S1x1024 .f32) (ix2 (0 : Fin 1) q)
      = X (ix2 (0 : Fin 1) (⟨((t.val / 4) % 8) * 1024 + q.val, by omega⟩ : Fin 8192)) := by
  obtain ⟨-, -, -, -, e0, e1, -⟩ := blockIdx0 t
  rw [View.read_apply]
  show X _ = _
  congr 1
  funext a; apply Fin.ext
  match a with
  | ⟨0, _⟩ => show win0_2.index t (0 : Fin 2) * 1 + 1 * 0 = 0; rw [e0]
  | ⟨1, _⟩ => show win0_2.index t (1 : Fin 2) * 1024 + 1 * q.val = _; rw [e1]; show _ = ((t.val / 4) % 8) * 1024 + q.val; omega

/-- The output array through its block at `t`: rows `(t / 32) * 2048 + p`, columns `((t / 4) % 8) * 1024 + q`. -/
theorem readBlk0_3 (X : S8192x8192.Idx → Elt F .bf16) (t : Fin cfg0.N) (p : Fin 2048) (q : Fin 1024) :
    (((cfg0.win 3).blk t).view.read (Elt F) X : Vec F S2048x1024 .bf16) (ix2 p q)
      = X (ix2 (⟨(t.val / 32) * 2048 + p.val, by have := t.isLt; have hN : cfg0.N = 128 := N_0; omega⟩ : Fin 8192)
               (⟨((t.val / 4) % 8) * 1024 + q.val, by omega⟩ : Fin 8192)) := by
  obtain ⟨-, -, -, -, -, -, e0, e1⟩ := blockIdx0 t
  rw [View.read_apply]
  show X _ = _
  congr 1
  funext a; apply Fin.ext
  match a with
  | ⟨0, _⟩ => show win0_3.index t (0 : Fin 2) * 2048 + 1 * p.val = _; rw [e0]; show _ = (t.val / 32) * 2048 + p.val; omega
  | ⟨1, _⟩ => show win0_3.index t (1 : Fin 2) * 1024 + 1 * q.val = _; rw [e1]; show _ = ((t.val / 4) % 8) * 1024 + q.val; omega

section
variable (V : (c : Dev nD) → (b : Ref sig .tc) → Buf (Elt F) ((c : Thread nD τ).loc b))

/-! ## The input blocks, as the region finds them -/

theorem iblk0_0_apply (c : Dev nD) (t : Fin cfg0.N) (p : Fin 2048) (kk : Fin 1024) :
    (iblk0 V c 0 t : Vec F S2048x1024 .bf16) (ix2 p kk)
      = (V c (Pipeline.arrRef spec0 0) : S8192x4096.Idx → Elt F .bf16)
          (ix2 (⟨(t.val / 32) * 2048 + p.val, by have := t.isLt; have hN : cfg0.N = 128 := N_0; omega⟩ : Fin 8192)
               (⟨(t.val % 4) * 1024 + kk.val, by omega⟩ : Fin 4096)) :=
  readBlk0_0 (V c (Pipeline.arrRef spec0 0)) t p kk

theorem iblk0_1_apply (c : Dev nD) (t : Fin cfg0.N) (q : Fin 1024) (kk : Fin 1024) :
    (iblk0 V c 1 t : Vec F S1024x1024 .bf16) (ix2 q kk)
      = (V c (Pipeline.arrRef spec0 1) : S8192x4096.Idx → Elt F .bf16)
          (ix2 (⟨((t.val / 4) % 8) * 1024 + q.val, by omega⟩ : Fin 8192)
               (⟨(t.val % 4) * 1024 + kk.val, by omega⟩ : Fin 4096)) :=
  readBlk0_1 (V c (Pipeline.arrRef spec0 1)) t q kk

theorem iblk0_2_apply (c : Dev nD) (t : Fin cfg0.N) (q : Fin 1024) :
    (iblk0 V c 2 t : Vec F S1x1024 .f32) (ix2 (0 : Fin 1) q)
      = (V c (Pipeline.arrRef spec0 2) : S1x8192.Idx → Elt F .f32)
          (ix2 (0 : Fin 1) (⟨((t.val / 4) % 8) * 1024 + q.val, by omega⟩ : Fin 8192)) :=
  readBlk0_2 (V c (Pipeline.arrRef spec0 2)) t q

/-! ## The output array from its blocks -/

/-- An index of the output array is in point `t`'s block iff each coordinate is in the block's range on its axis. -/
theorem mem_blk0_3 (t : Fin cfg0.N) (i : S8192x8192.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v10).slice (win0_3.rect t)).set ↔ _
  rw [View.set_slice_whole, Rect.mem_set_unit]
  exact Iff.rfl

/-- What a last step writes back, when the stored block agrees with `G` on its rectangle, is that block of `G`. -/
theorem flushed0_3_of (c : Dev nD) (G : S8192x8192.Idx → Elt F .bf16) (t : Fin cfg0.N)
    (hG : ∀ (p : Fin 2048) (q : Fin 1024), outAt0 V c t.val t.isLt (ix2 p q)
      = G (ix2 (⟨(t.val / 32) * 2048 + p.val, by have := t.isLt; have hN : cfg0.N = 128 := N_0; omega⟩ : Fin 8192)
               (⟨((t.val / 4) % 8) * 1024 + q.val, by omega⟩ : Fin 8192))) :
    (dat0 V c).flushed 3 t = ((cfg0.win 3).blk t).view.read (Elt F) G := by
  show (cfg0.win 3).cut (grid0.coords t) ((dat0 V c).after 3 t) = _
  rw [after0_3]
  refine funext fun (j : S2048x1024.Idx) => ?_
  obtain ⟨p, q, rfl⟩ : ∃ (p : Fin 2048) (q : Fin 1024), j = ix2 p q := ⟨j 0, j 1, eq_ix2 j⟩
  show outAt0 V c t.val t.isLt (ix2 p q) = (((cfg0.win 3).blk t).view.read (Elt F) G : Vec F S2048x1024 .bf16) (ix2 p q)
  rw [hG p q, readBlk0_3]

/-- The output array after the region: any `G` that every stored block agrees with on its rectangle. -/
theorem arr0_of (c : Dev nD) (G : S8192x8192.Idx → Elt F .bf16)
    (hG : ∀ t : Fin cfg0.N, t.val % 4 = 3 → ∀ (p : Fin 2048) (q : Fin 1024), outAt0 V c t.val t.isLt (ix2 p q)
      = G (ix2 (⟨(t.val / 32) * 2048 + p.val, by have := t.isLt; have hN : cfg0.N = 128 := N_0; omega⟩ : Fin 8192)
               (⟨((t.val / 4) % 8) * 1024 + q.val, by omega⟩ : Fin 8192))) :
    (dat0 V c).arrAt 3 cfg0.N = G := by
  refine (dat0 V c).arrAt_eq_of_cover 3 G (fun t hf => flushed0_3_of V c G t (hG t ((flush0_3 t).mp hf))) (fun i => ?_)
  have hN : cfg0.N = 128 := N_0
  have hi0 : (i 0).val < 8192 := (i 0).isLt
  have hi1 : (i 1).val < 8192 := (i 1).isLt
  -- the point that covers (r, s): row block r / 2048, column block s / 1024, last fan-in step
  have ht : (((i 0).val / 2048) * 8 + (i 1).val / 1024) * 4 + 3 < cfg0.N := by omega
  refine ⟨⟨(((i 0).val / 2048) * 8 + (i 1).val / 1024) * 4 + 3, ht⟩, (flush0_3 _).mpr (by show ((((i 0).val / 2048) * 8 + (i 1).val / 1024) * 4 + 3) % 4 = 3; omega), ?_⟩
  rw [mem_blk0_3]
  obtain ⟨-, -, -, -, -, -, e0, e1⟩ := blockIdx0 ⟨(((i 0).val / 2048) * 8 + (i 1).val / 1024) * 4 + 3, ht⟩
  intro a
  match a with
  | ⟨0, _⟩ =>
    show win0_3.index _ (0 : Fin 2) * 2048 ≤ (i 0).val ∧ (i 0).val < win0_3.index _ (0 : Fin 2) * 2048 + 2048
    rw [e0]; show ((((i 0).val / 2048) * 8 + (i 1).val / 1024) * 4 + 3) / 32 * 2048 ≤ (i 0).val ∧ (i 0).val < ((((i 0).val / 2048) * 8 + (i 1).val / 1024) * 4 + 3) / 32 * 2048 + 2048
    omega
  | ⟨1, _⟩ =>
    show win0_3.index _ (1 : Fin 2) * 1024 ≤ (i 1).val ∧ (i 1).val < win0_3.index _ (1 : Fin 2) * 1024 + 1024
    rw [e1]; show ((((i 0).val / 2048) * 8 + (i 1).val / 1024) * 4 + 3) / 4 % 8 * 1024 ≤ (i 1).val ∧ (i 1).val < ((((i 0).val / 2048) * 8 + (i 1).val / 1024) * 4 + 3) / 4 % 8 * 1024 + 1024
    omega

end

end Cert.KernelIdeal.Hand

end
-- ==== Proof.LibBlockedContraction.lean ====
/-
  A contraction taken block by block.

  Split the contracted axis of two matrices into `nb` consecutive blocks of `bs` columns. The contraction of row `r` of
  the first with row `s` of the second over the whole axis is the sum, over the blocks, of the contractions inside each
  block; and a running accumulator that adds one block's contraction per step ends holding it. Only the
  commutativity and associativity of the extended reals' sum are used.
-/
import proofs.«122649_j45518063403493_2_alg».proof.Proof.LayerSpec
import proofs.«122649_j45518063403493_2_alg».proof.Proof.BlockSum

noncomputable section

namespace Cert.MLP

open Idealize.ShloMosaic Idealize.ShloMosaic.ValueIdx

/-- Column `kk` of block `kb` is a column of the whole axis. -/
theorem blk_lt {nb bs kb kk : ℕ} (hkb : kb < nb) (hkk : kk < bs) : kb * bs + kk < nb * bs :=
  calc kb * bs + kk < kb * bs + bs := Nat.add_lt_add_left hkk _
    _ = (kb + 1) * bs := (Nat.succ_mul kb bs).symm
    _ ≤ nb * bs := Nat.mul_le_mul_right bs hkb

/-- If `u kb` is the contraction inside block `kb`, for each of the `nb` blocks, the sum of the `u kb` is the
    contraction over the whole axis. -/
theorem sum_blocks_contraction {B N : ℕ} (nb bs : ℕ) (h : Mat B (nb * bs)) (wm : Mat N (nb * bs)) (r : Fin B) (s : Fin N)
    (u : ℕ → EReal)
    (hu : ∀ (kb : ℕ) (hkb : kb < nb), u kb = ∑ kk : Fin bs,
      h (ix2 r ⟨kb * bs + kk.val, blk_lt hkb kk.isLt⟩) * wm (ix2 s ⟨kb * bs + kk.val, blk_lt hkb kk.isLt⟩)) :
    ∑ kb ∈ Finset.range nb, u kb = ∑ k : Fin (nb * bs), h (ix2 r k) * wm (ix2 s k) := by
  -- the product at column k, as a function of a natural number
  have key : ∀ g : ℕ → EReal, (∀ (k : ℕ) (hk : k < nb * bs), g k = h (ix2 r ⟨k, hk⟩) * wm (ix2 s ⟨k, hk⟩)) →
      ∑ kb ∈ Finset.range nb, u kb = ∑ k : Fin (nb * bs), h (ix2 r k) * wm (ix2 s k) := by
    intro g hg
    have e1 : ∑ k : Fin (nb * bs), h (ix2 r k) * wm (ix2 s k) = ∑ k : Fin (nb * bs), g k.val :=
      Finset.sum_congr rfl fun k _ => (hg k.val k.isLt).symm
    rw [e1, ← blocks_sum nb bs g]
    refine Finset.sum_congr rfl fun kb hkb => ?_
    have hkb' : kb < nb := Finset.mem_range.mp hkb
    rw [hu kb hkb']
    exact Finset.sum_congr rfl fun kk _ => (hg _ (blk_lt hkb' kk.isLt)).symm
  exact key (fun k => if hk : k < nb * bs then h (ix2 r ⟨k, hk⟩) * wm (ix2 s ⟨k, hk⟩) else 0) (fun k hk => dif_pos hk)

/-- So a running accumulator that starts from zero and adds the contraction inside block `kb` at step `kb` holds, after
    the last of `m + 1` blocks, the contraction over the whole axis. -/
theorem acc_blocks_contraction {B N : ℕ} (m bs : ℕ) (h : Mat B ((m + 1) * bs)) (wm : Mat N ((m + 1) * bs)) (r : Fin B) (s : Fin N)
    (u : ℕ → EReal)
    (hu : ∀ (kb : ℕ) (hkb : kb < m + 1), u kb = ∑ kk : Fin bs,
      h (ix2 r ⟨kb * bs + kk.val, blk_lt hkb kk.isLt⟩) * wm (ix2 s ⟨kb * bs + kk.val, blk_lt hkb kk.isLt⟩)) :
    acc u m = ∑ k : Fin ((m + 1) * bs), h (ix2 r k) * wm (ix2 s k) :=
  (acc_eq_sum u m).trans (sum_blocks_contraction (m + 1) bs h wm r s u hu)

end Cert.MLP

end
-- ==== Proof.IH0Val.lean ====
/-
  Layer 0's kernel region, as a value: after the region the output array is the hidden layer of the three arrays the
  region reads — the activations, the masked weight and the bias row.

  At the last fan-in step of an output block the stored entry (p, q) is the maximum with zero of the accumulator plus
  the bias; the accumulator is the running sum of the four block products of the block's steps; the block product of
  step kb is the contraction of row r of the activations with row s of the masked weight inside fan-in block kb, where
  (r, s) is the place of (p, q) in the whole array; and the four blocks make up the whole fan-in axis.
-/
import proofs.«122649_j45518063403493_2_alg».proof.Proof.IH0Acc
import proofs.«122649_j45518063403493_2_alg».proof.Proof.IH0Blocks
import proofs.«122649_j45518063403493_2_alg».proof.Proof.KLayer
import proofs.«122649_j45518063403493_2_alg».proof.Proof.LibBlockedContraction

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

section
variable (V : (c : Dev nD) → (b : Ref sig .tc) → Buf (Elt Ideal) ((c : Thread nD τ).loc b))

/-- The region's three input arrays as the region finds them: the activations, the masked weight, the bias row. -/
def X0 (c : Dev nD) : Cert.MLP.Mat 8192 4096 := V c (Pipeline.arrRef spec0 0)
def Wm0 (c : Dev nD) : Cert.MLP.Mat 8192 4096 := V c (Pipeline.arrRef spec0 1)
def B0 (c : Dev nD) : Cert.MLP.Mat 1 8192 := V c (Pipeline.arrRef spec0 2)

/-- The block product at a point whose fan-in block is `kb`, for the output entry (r, s) that the point's block
    entry (p, q) is: the contraction of row r of the activations with row s of the masked weight inside block `kb`. -/
theorem prod0_arr (c : Dev nD) (t : Fin cfg0.N) (p : Fin 2048) (q : Fin 1024) (r s : Fin 8192) (kb : ℕ) (hkb : kb < 4)
    (hr : r.val = (t.val / 32) * 2048 + p.val) (hs : s.val = ((t.val / 4) % 8) * 1024 + q.val) (hk : t.val % 4 = kb) :
    prod0 V c t p q = ∑ kk : Fin 1024,
      X0 V c (ix2 r ⟨kb * 1024 + kk.val, Cert.MLP.blk_lt hkb kk.isLt⟩) * Wm0 V c (ix2 s ⟨kb * 1024 + kk.val, Cert.MLP.blk_lt hkb kk.isLt⟩) := by
  unfold prod0 dotRows
  refine Finset.sum_congr rfl fun kk _ => ?_
  have e0 : (iblk0 V c 0 t : Vec Ideal S2048x1024 .bf16) (ix2 p kk) = X0 V c (ix2 r ⟨kb * 1024 + kk.val, Cert.MLP.blk_lt hkb kk.isLt⟩) :=
    (iblk0_0_apply V c t p kk).trans (congrArg (X0 V c) (congrArg₂ ix2 (Fin.ext (by dsimp only; omega)) (Fin.ext (by dsimp only; omega))))
  have e1 : (iblk0 V c 1 t : Vec Ideal S1024x1024 .bf16) (ix2 q kk) = Wm0 V c (ix2 s ⟨kb * 1024 + kk.val, Cert.MLP.blk_lt hkb kk.isLt⟩) :=
    (iblk0_1_apply V c t q kk).trans (congrArg (Wm0 V c) (congrArg₂ ix2 (Fin.ext (by dsimp only; omega)) (Fin.ext (by dsimp only; omega))))
  rw [e0, e1]

/-- The block stored at a last step is the hidden layer of the arrays on the block's rectangle. -/
theorem outAt0_val (c : Dev nD) (t : Fin cfg0.N) (h3 : t.val % 4 = 3) (p : Fin 2048) (q : Fin 1024) (r s : Fin 8192)
    (hr : r.val = (t.val / 32) * 2048 + p.val) (hs : s.val = ((t.val / 4) % 8) * 1024 + q.val) :
    outAt0 (F := Ideal) V c t.val t.isLt (ix2 p q) = Cert.MLP.khid (X0 V c) (Wm0 V c) (B0 V c) (ix2 r s) := by
  rw [Cert.MLP.khid_ix2, outAt0_last_at V c t h3 p q]
  unfold Cert.MLP.kpreAt
  have hN : cfg0.N = 128 := N_0
  have ht := t.isLt
  have hacc : accAt0 (F := Ideal) V c t.val t.isLt (ix2 p q) = ∑ k : Fin 4096, X0 V c (ix2 r k) * Wm0 V c (ix2 s k) := by
    have h3' : t.val - 3 + 3 < cfg0.N := by omega
    refine (congrFun (accAt0_congr V c (show t.val = t.val - 3 + 3 by omega) t.isLt h3') (ix2 p q)).trans ?_
    refine (accAt0_acc V c (t.val - 3) (by omega) p q 3 (le_refl 3) h3').trans ?_
    exact Cert.MLP.acc_blocks_contraction 3 1024 (X0 V c) (Wm0 V c) r s _ (fun kb hkb => by
      have hlt : t.val - 3 + kb < cfg0.N := by omega
      rw [term0_of_lt V c (t.val - 3) p q kb hlt]
      exact prod0_arr V c ⟨t.val - 3 + kb, hlt⟩ p q r s kb hkb (by dsimp only; omega) (by dsimp only; omega) (by dsimp only; omega))
  have hb : biasAt (iblk0 V c 2 t) q = B0 V c (ix2 (0 : Fin 1) s) := by
    unfold biasAt
    exact (iblk0_2_apply V c t q).trans (congrArg (B0 V c) (congrArg₂ ix2 rfl (Fin.ext (by dsimp only; omega))))
  rw [hacc, hb]

/-- After the region the output array is the hidden layer of the three input arrays. -/
theorem arr0_val (c : Dev nD) :
    (dat0 (F := Ideal) V c).arrAt 3 cfg0.N
      = Cert.MLP.khid (B := 8192) (K := 4096) (N := 8192) (V c (Pipeline.arrRef spec0 0)) (V c (Pipeline.arrRef spec0 1)) (V c (Pipeline.arrRef spec0 2)) :=
  arr0_of V c (Cert.MLP.khid (X0 V c) (Wm0 V c) (B0 V c)) (fun t h3 p q => outAt0_val V c t h3 p q _ _ rfl rfl)

end

end Cert.KernelIdeal.Hand

end
-- ==== Proof.IH1Acc.lean ====
/-
  Layer 1's kernel region, in values: what each control case's stores leave, as the payloads of the blocks, and the
  accumulator after every point in closed form.

  The three cases each end with one store of the whole accumulator; a first step stores the zero block first and
  reads it back. So after a first step the accumulator is the step's block product added to zero, after any later
  step the block product added to what the step before left, and a last step stores, in the output block, the
  activation of the new accumulator plus the bias row. At the extended reals the accumulator after step k of an
  output block is therefore the running sum of the block products of steps 0, …, k.
-/
import proofs.«122649_j45518063403493_2_alg».proof.Proof.IH1Frame
import proofs.«122649_j45518063403493_2_alg».proof.Proof.PayloadAt
import proofs.«122649_j45518063403493_2_alg».proof.Proof.BlockSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero. -/
theorem hz2_1 : (![0, 0] : Fin 2 → Nat) = fun _ => 0 := funext fun a => by fin_cases a <;> rfl

/-! ## What each case's stores leave, as the payloads of the blocks -/

/-- A first step leaves in the accumulator the block product added to the zero block. -/
theorem sout1_A_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i) (x0 : Vec F S2048x1024 .bf16) (x1 : Vec F S1024x1024 .bf16) (x2 : Vec F S1x1024 .f32) :
    sout1_A c i arg3 harg3 arg4 harg4 arg5 harg5 arg6 harg6 arg7 harg7 hc0 hc1 x0 x1 x2 = k1_pay2 (k1_pay1 (F := F)) x0 x1 := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S2048x1024) hz2_1, View.readCov_unit_zero (S := S2048x1024) _ hz2_1]
  simp only [View.readAt_eq_ld, harg3.read_unread, harg4.read_unread, View.ld_unit_zero (S := S2048x1024) hz2_1,
    View.ld_unit_zero (S := S1024x1024) hz2_1]

/-- A middle step leaves in the accumulator the block product added to what it held. -/
theorem sout1_B_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i) (x0 : Vec F S2048x1024 .bf16) (x1 : Vec F S1024x1024 .bf16) (x2 : Vec F S1x1024 .f32) (xs : Vec F S2048x1024 .f32) :
    sout1_B c i arg3 harg3 arg4 harg4 arg5 harg5 arg6 harg6 arg7 harg7 hc0 hc1 x0 x1 x2 xs = k1_pay2 xs x0 x1 := by
  unfold sout1_B
  rw [View.read_writes_eq_canon _ _ _ (scover1_B c i arg3 harg3 arg4 harg4 arg5 harg5 arg6 harg6 arg7 harg7 hc0 hc1 x0 x1 x2 xs)]
  unfold kernelRun1_B
  dsimp only
  rw [View.canon_unit_zero (S := S2048x1024) hz2_1]
  simp only [View.readAt_eq_ld, harg3.read_unread, harg4.read_unread, harg7.read_unread, View.ld_unit_zero (S := S2048x1024) hz2_1,
    View.ld_unit_zero (S := S1024x1024) hz2_1]

/-- A last step leaves in the accumulator the block product added to what it held. -/
theorem sout1_C_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i) (x0 : Vec F S2048x1024 .bf16) (x1 : Vec F S1024x1024 .bf16) (x2 : Vec F S1x1024 .f32) (xs : Vec F S2048x1024 .f32) :
    sout1_C c i arg3 harg3 arg4 harg4 arg5 harg5 arg6 harg6 arg7 harg7 hc0 hc1 x0 x1 x2 xs = k1_pay2 xs x0 x1 := by
  unfold sout1_C
  rw [View.read_writes_eq_canon _ _ _ (scover1_C c i arg3 harg3 arg4 harg4 arg5 harg5 arg6 harg6 arg7 harg7 hc0 hc1 x0 x1 x2 xs)]
  unfold kernelRun1_C
  dsimp only
  sl_unfold_words
  rw [View.canon_unit_zero (S := S2048x1024) hz2_1]
  simp only [View.readAt_eq_ld, harg3.read_unread, harg4.read_unread, harg7.read_unread, View.ld_unit_zero (S := S2048x1024) hz2_1,
    View.ld_unit_zero (S := S1024x1024) hz2_1]

/-- A last step leaves in the output block's buffer the activation of that new accumulator plus the bias row. -/
theorem out1_C_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i) (x0 : Vec F S2048x1024 .bf16) (x1 : Vec F S1024x1024 .bf16) (x2 : Vec F S1x1024 .f32) (xs : Vec F S2048x1024 .f32) :
    out1_C c i arg3 harg3 arg4 harg4 arg5 harg5 arg6 harg6 arg7 harg7 hc0 hc1 x0 x1 x2 xs = k1_pay3 (k1_pay2 xs x0 x1) x2 := by
  unfold out1_C
  rw [View.read_writes_eq_canon _ _ _ (cover1_C c i arg3 harg3 arg4 harg4 arg5 harg5 arg6 harg6 arg7 harg7 hc0 hc1 x0 x1 x2 xs)]
  unfold kernelRun1_C
  dsimp only
  sl_unfold_words
  rw [View.canon_unit_zero (S := S2048x1024) hz2_1, View.readCov_unit_zero (S := S2048x1024) _ hz2_1]
  simp only [View.readAt_eq_ld, harg3.read_unread, harg4.read_unread, harg5.read_unread, harg7.read_unread,
    View.ld_unit_zero (S := S2048x1024) hz2_1, View.ld_unit_zero (S := S1024x1024) hz2_1, View.ld_unit_zero (S := S1x1024) hz2_1]

/-! ## The accumulator and the stored block, point by point, as payloads -/

section
variable (V : (c : Dev nD) → (b : Ref sig .tc) → Buf (Elt F) ((c : Thread nD τ).loc b))

/-- The accumulator's value depends on the point's number only. -/
theorem accAt1_congr (c : Dev nD) {n m : ℕ} (e : n = m) (hn : n < cfg1.N) (hm : m < cfg1.N) :
    accAt1 V c n hn = accAt1 V c m hm := by
  subst e; rfl

/-- After a first step the accumulator is the step's block product added to the zero block. -/
theorem accAt1_first (c : Dev nD) (t : Fin cfg1.N) (h0 : t.val % 8 = 0) :
    accAt1 V c t.val t.isLt = k1_pay2 (k1_pay1 (F := F)) (iblk1 V c 0 t) (iblk1 V c 1 t) :=
  have h1 : ¬t.val % 8 = 7 := by omega
  (accAt1_A V c t h0 h1).trans
    (sout1_A_eq c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t))

/-- After any later step it is the step's block product added to what the step before left. -/
theorem accAt1_next (c : Dev nD) (t : Fin cfg1.N) (h0 : ¬t.val % 8 = 0) :
    accAt1 V c t.val t.isLt
      = k1_pay2 (accAt1 V c (t.val - 1) (Nat.lt_of_le_of_lt (Nat.sub_le _ _) t.isLt)) (iblk1 V c 0 t) (iblk1 V c 1 t) := by
  by_cases h1 : t.val % 8 = 7
  · exact (accAt1_C V c t h0 h1).trans
      (sout1_C_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t)
        (accAt1 V c (t.val - 1) (Nat.lt_of_le_of_lt (Nat.sub_le _ _) t.isLt)))
  · exact (accAt1_B V c t h0 h1).trans
      (sout1_B_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t)
        (accAt1 V c (t.val - 1) (Nat.lt_of_le_of_lt (Nat.sub_le _ _) t.isLt)))

/-- After a last step the output block's buffer holds the activation of the accumulator plus the bias row. -/
theorem outAt1_last (c : Dev nD) (t : Fin cfg1.N) (h1 : t.val % 8 = 7) :
    outAt1 V c t.val t.isLt = k1_pay3 (accAt1 V c t.val t.isLt) (iblk1 V c 2 t) := by
  have h0 : ¬t.val % 8 = 0 := by omega
  rw [accAt1_next V c t h0]
  exact (outAt1_C V c t h0 h1).trans
    (out1_C_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t)
      (accAt1 V c (t.val - 1) (Nat.lt_of_le_of_lt (Nat.sub_le _ _) t.isLt)))

end

/-! ## At the extended reals: the running sum of the block products -/

section
variable (V : (c : Dev nD) → (b : Ref sig .tc) → Buf (Elt Ideal) ((c : Thread nD τ).loc b))

open Idealize.ShloMosaic.ValueIdx

/-- Row p of an activation block against row q of a weight block: the sum over the block's fan-in axis of the products. -/
def dotRows1 (a : Vec Ideal S2048x1024 .bf16) (b : Vec Ideal S1024x1024 .bf16) (p : Fin 2048) (q : Fin 1024) : EReal :=
  ∑ kk : Fin 1024, a (ix2 p kk) * b (ix2 q kk)

/-- Entry (p, q) of the block product at point t. -/
def prod1 (c : Dev nD) (t : Fin cfg1.N) (p : Fin 2048) (q : Fin 1024) : EReal :=
  dotRows1 (iblk1 V c 0 t) (iblk1 V c 1 t) p q

/-- The block product of step kb of the output block that starts at point t0 (zero past the grid's end). -/
def term1 (c : Dev nD) (t0 : ℕ) (p : Fin 2048) (q : Fin 1024) (kb : ℕ) : EReal :=
  if hk : t0 + kb < cfg1.N then prod1 V c ⟨t0 + kb, hk⟩ p q else 0

theorem term1_of_lt (c : Dev nD) (t0 : ℕ) (p : Fin 2048) (q : Fin 1024) (kb : ℕ) (hk : t0 + kb < cfg1.N) :
    term1 V c t0 p q kb = prod1 V c ⟨t0 + kb, hk⟩ p q := dif_pos hk

theorem accAt1_first_at (c : Dev nD) (t : Fin cfg1.N) (h0 : t.val % 8 = 0) (p : Fin 2048) (q : Fin 1024) :
    accAt1 (F := Ideal) V c t.val t.isLt (ix2 p q) = 0 + prod1 V c t p q := by
  rw [accAt1_first V c t h0]
  exact (Cert.MLP.Pay.k1_pay2_at _ (iblk1 V c 0 t) (iblk1 V c 1 t) p q).trans
    (congrArg (· + prod1 V c t p q) (Cert.MLP.Pay.k1_pay1_at (ix2 p q)))

theorem accAt1_next_at (c : Dev nD) (t : Fin cfg1.N) (h0 : ¬t.val % 8 = 0) (p : Fin 2048) (q : Fin 1024) :
    accAt1 (F := Ideal) V c t.val t.isLt (ix2 p q)
      = accAt1 (F := Ideal) V c (t.val - 1) (Nat.lt_of_le_of_lt (Nat.sub_le _ _) t.isLt) (ix2 p q) + prod1 V c t p q := by
  rw [accAt1_next V c t h0]
  exact Cert.MLP.Pay.k1_pay2_at _ (iblk1 V c 0 t) (iblk1 V c 1 t) p q

/-- The accumulator after step k of the output block that starts at point t0 is the running sum of the block
    products of steps 0, …, k. -/
theorem accAt1_acc (c : Dev nD) (t0 : ℕ) (h0 : t0 % 8 = 0) (p : Fin 2048) (q : Fin 1024) :
    ∀ (k : ℕ) (_ : k ≤ 7) (h : t0 + k < cfg1.N),
      accAt1 (F := Ideal) V c (t0 + k) h (ix2 p q) = Cert.MLP.acc (term1 V c t0 p q) k
  | 0, _, h => by
    refine (accAt1_first_at V c ⟨t0 + 0, h⟩ (by dsimp only; omega) p q).trans ?_
    rw [Cert.MLP.acc, term1_of_lt V c t0 p q 0 h]
  | k + 1, hk, h => by
    refine (accAt1_next_at V c ⟨t0 + (k + 1), h⟩ (by dsimp only; omega) p q).trans ?_
    rw [Cert.MLP.acc, term1_of_lt V c t0 p q (k + 1) h]
    refine congrArg (· + prod1 V c ⟨t0 + (k + 1), h⟩ p q) ?_
    refine (congrFun (accAt1_congr V c (show (⟨t0 + (k + 1), h⟩ : Fin cfg1.N).val - 1 = t0 + k by dsimp only; omega) _ (by omega)) (ix2 p q)).trans ?_
    exact accAt1_acc c t0 h0 p q k (by omega) (by omega)

/-- The same as a sum over the steps. -/
theorem accAt1_sum (c : Dev nD) (t0 : ℕ) (h0 : t0 % 8 = 0) (p : Fin 2048) (q : Fin 1024) (k : ℕ) (hk : k ≤ 7) (h : t0 + k < cfg1.N) :
    accAt1 (F := Ideal) V c (t0 + k) h (ix2 p q) = ∑ kb ∈ Finset.range (k + 1), term1 V c t0 p q kb :=
  (accAt1_acc V c t0 h0 p q k hk h).trans (Cert.MLP.acc_eq_sum _ k)

/-- Entry q of a bias row block. -/
def biasAt1 (b : Vec Ideal S1x1024 .f32) (q : Fin 1024) : EReal := b (ix2 0 q)

/-- The stored output block at a last step: the maximum with zero of the accumulator plus the bias. -/
theorem outAt1_last_at (c : Dev nD) (t : Fin cfg1.N) (h1 : t.val % 8 = 7) (p : Fin 2048) (q : Fin 1024) :
    outAt1 (F := Ideal) V c t.val t.isLt (ix2 p q)
      = max (accAt1 (F := Ideal) V c t.val t.isLt (ix2 p q) + biasAt1 (iblk1 V c 2 t) q) 0 := by
  rw [outAt1_last V c t h1]
  exact Cert.MLP.Pay.k1_pay3_at _ (iblk1 V c 2 t) p q

end

end Cert.KernelIdeal.Hand

end
-- ==== Proof.IH1Blocks.lean ====
/-
  Layer 1's kernel region: where its blocks sit in their arrays, and the output array assembled from its blocks.

  The grid has 4 row blocks of 2048 rows, 8 column blocks of 1024 output columns and 8 fan-in blocks of 1024, numbered with the
  fan-in innermost: point `t` is row block `t / 64`, column block `(t / 8) % 8`, fan-in block `t % 8`. The activations' block at
  `t` is block (row block, fan-in block) of their array, the weight's is block (column block, fan-in block), the bias's is block
  (0, column block) and the output's is block (row block, column block). A block's coordinate in its array is always the block's
  index times the block's size plus the coordinate inside the block.

  The output array is written back at the last fan-in step of each output block, and those 32 blocks tile it: if every one of them
  agrees with one whole-array function on its rectangle, the array ends equal to that function.
-/
import proofs.«122649_j45518063403493_2_alg».proof.Proof.IH1Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The block indices, in closed form over the grid -/

theorem blockIdx1 : ∀ t : Fin cfg1.N,
    win1_0.index t (0 : Fin 2) = t.val / 64 ∧ win1_0.index t (1 : Fin 2) = t.val % 8
    ∧ win1_1.index t (0 : Fin 2) = (t.val / 8) % 8 ∧ win1_1.index t (1 : Fin 2) = t.val % 8
    ∧ win1_2.index t (0 : Fin 2) = 0 ∧ win1_2.index t (1 : Fin 2) = (t.val / 8) % 8
    ∧ win1_3.index t (0 : Fin 2) = t.val / 64 ∧ win1_3.index t (1 : Fin 2) = (t.val / 8) % 8 :=
  (by decide +kernel : ∀ t : Fin grid1.N, _)

/-! ## An array read through a window's block -/

/-- The activations' array through its block at `t`. -/
theorem readBlk1_0 (X : S8192x8192.Idx → Elt F .bf16) (t : Fin cfg1.N) (p : Fin 2048) (kk : Fin 1024) :
    (((cfg1.win 0).blk t).view.read (Elt F) X : Vec F S2048x1024 .bf16) (ix2 p kk)
      = X (ix2 (⟨(t.val / 64) * 2048 + p.val, by have := t.isLt; have hN : cfg1.N = 256 := N_1; omega⟩ : Fin 8192) (⟨(t.val % 8) * 1024 + kk.val, by omega⟩ : Fin 8192)) := by
  obtain ⟨e0, e1, -⟩ := blockIdx1 t
  rw [View.read_apply]
  show X _ = _
  congr 1
  funext a; apply Fin.ext
  match a with
  | ⟨0, _⟩ => show win1_0.index t (0 : Fin 2) * 2048 + 1 * p.val = _; rw [e0]; show _ = (t.val / 64) * 2048 + p.val; omega
  | ⟨1, _⟩ => show win1_0.index t (1 : Fin 2) * 1024 + 1 * kk.val = _; rw [e1]; show _ = (t.val % 8) * 1024 + kk.val; omega

/-- The weight's array through its block at `t`. -/
theorem readBlk1_1 (X : S8192x8192.Idx → Elt F .bf16) (t : Fin cfg1.N) (q : Fin 1024) (kk : Fin 1024) :
    (((cfg1.win 1).blk t).view.read (Elt F) X : Vec F S1024x1024 .bf16) (ix2 q kk)
      = X (ix2 (⟨((t.val / 8) % 8) * 1024 + q.val, by omega⟩ : Fin 8192) (⟨(t.val % 8) * 1024 + kk.val, by omega⟩ : Fin 8192)) := by
  obtain ⟨-, -, e0, e1, -⟩ := blockIdx1 t
  rw [View.read_apply]
  show X _ = _
  congr 1
  funext a; apply Fin.ext
  match a with
  | ⟨0, _⟩ => show win1_1.index t (0 : Fin 2) * 1024 + 1 * q.val = _; rw [e0]; show _ = ((t.val / 8) % 8) * 1024 + q.val; omega
  | ⟨1, _⟩ => show win1_1.index t (1 : Fin 2) * 1024 + 1 * kk.val = _; rw [e1]; show _ = (t.val % 8) * 1024 + kk.val; omega

/-- The bias row through its block at `t`. -/
theorem readBlk1_2 (X : S1x8192.Idx → Elt F .f32) (t : Fin cfg1.N) (q : Fin 1024) :
    (((cfg1.win 2).blk t).view.read (Elt F) X : Vec F S1x1024 .f32) (ix2 (0 : Fin 1) q)
      = X (ix2 (0 : Fin 1) (⟨((t.val / 8) % 8) * 1024 + q.val, by omega⟩ : Fin 8192)) := by
  obtain ⟨-, -, -, -, e0, e1, -⟩ := blockIdx1 t
  rw [View.read_apply]
  show X _ = _
  congr 1
  funext a; apply Fin.ext
  match a with
  | ⟨0, _⟩ => show win1_2.index t (0 : Fin 2) * 1 + 1 * 0 = 0; rw [e0]
  | ⟨1, _⟩ => show win1_2.index t (1 : Fin 2) * 1024 + 1 * q.val = _; rw [e1]; show _ = ((t.val / 8) % 8) * 1024 + q.val; omega

/-- The output array through its block at `t`. -/
theorem readBlk1_3 (X : S8192x8192.Idx → Elt F .bf16) (t : Fin cfg1.N) (p : Fin 2048) (q : Fin 1024) :
    (((cfg1.win 3).blk t).view.read (Elt F) X : Vec F S2048x1024 .bf16) (ix2 p q)
      = X (ix2 (⟨(t.val / 64) * 2048 + p.val, by have := t.isLt; have hN : cfg1.N = 256 := N_1; omega⟩ : Fin 8192) (⟨((t.val / 8) % 8) * 1024 + q.val, by omega⟩ : Fin 8192)) := by
  obtain ⟨-, -, -, -, -, -, e0, e1⟩ := blockIdx1 t
  rw [View.read_apply]
  show X _ = _
  congr 1
  funext a; apply Fin.ext
  match a with
  | ⟨0, _⟩ => show win1_3.index t (0 : Fin 2) * 2048 + 1 * p.val = _; rw [e0]; show _ = (t.val / 64) * 2048 + p.val; omega
  | ⟨1, _⟩ => show win1_3.index t (1 : Fin 2) * 1024 + 1 * q.val = _; rw [e1]; show _ = ((t.val / 8) % 8) * 1024 + q.val; omega

section
variable (V : (c : Dev nD) → (b : Ref sig .tc) → Buf (Elt F) ((c : Thread nD τ).loc b))

/-! ## The input blocks, as the region finds them -/

theorem iblk1_0_apply (c : Dev nD) (t : Fin cfg1.N) (p : Fin 2048) (kk : Fin 1024) :
    (iblk1 V c 0 t : Vec F S2048x1024 .bf16) (ix2 p kk)
      = (V c (Pipeline.arrRef spec1 0) : S8192x8192.Idx → Elt F .bf16) (ix2 (⟨(t.val / 64) * 2048 + p.val, by have := t.isLt; have hN : cfg1.N = 256 := N_1; omega⟩ : Fin 8192) (⟨(t.val % 8) * 1024 + kk.val, by omega⟩ : Fin 8192)) :=
  readBlk1_0 (V c (Pipeline.arrRef spec1 0)) t p kk

theorem iblk1_1_apply (c : Dev nD) (t : Fin cfg1.N) (q : Fin 1024) (kk : Fin 1024) :
    (iblk1 V c 1 t : Vec F S1024x1024 .bf16) (ix2 q kk)
      = (V c (Pipeline.arrRef spec1 1) : S8192x8192.Idx → Elt F .bf16) (ix2 (⟨((t.val / 8) % 8) * 1024 + q.val, by omega⟩ : Fin 8192) (⟨(t.val % 8) * 1024 + kk.val, by omega⟩ : Fin 8192)) :=
  readBlk1_1 (V c (Pipeline.arrRef spec1 1)) t q kk

theorem iblk1_2_apply (c : Dev nD) (t : Fin cfg1.N) (q : Fin 1024) :
    (iblk1 V c 2 t : Vec F S1x1024 .f32) (ix2 (0 : Fin 1) q)
      = (V c (Pipeline.arrRef spec1 2) : S1x8192.Idx → Elt F .f32) (ix2 (0 : Fin 1) (⟨((t.val / 8) % 8) * 1024 + q.val, by omega⟩ : Fin 8192)) :=
  readBlk1_2 (V c (Pipeline.arrRef spec1 2)) t q

/-! ## The output array from its blocks -/

/-- An index of the output array is in point `t`'s block iff each coordinate is in the block's range on its axis. -/
theorem mem_blk1_3 (t : Fin cfg1.N) (i : S8192x8192.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v12).slice (win1_3.rect t)).set ↔ _
  rw [View.set_slice_whole, Rect.mem_set_unit]
  exact Iff.rfl

/-- What a last step writes back, when the stored block agrees with `G` on its rectangle, is that block of `G`. -/
theorem flushed1_3_of (c : Dev nD) (G : S8192x8192.Idx → Elt F .bf16) (t : Fin cfg1.N)
    (hG : ∀ (p : Fin 2048) (q : Fin 1024), outAt1 V c t.val t.isLt (ix2 p q)
      = G (ix2 (⟨(t.val / 64) * 2048 + p.val, by have := t.isLt; have hN : cfg1.N = 256 := N_1; omega⟩ : Fin 8192) (⟨((t.val / 8) % 8) * 1024 + q.val, by omega⟩ : Fin 8192))) :
    (dat1 V c).flushed 3 t = ((cfg1.win 3).blk t).view.read (Elt F) G := by
  show (cfg1.win 3).cut (grid1.coords t) ((dat1 V c).after 3 t) = _
  rw [after1_3]
  refine funext fun (j : S2048x1024.Idx) => ?_
  obtain ⟨p, q, rfl⟩ : ∃ (p : Fin 2048) (q : Fin 1024), j = ix2 p q := ⟨j 0, j 1, eq_ix2 j⟩
  show outAt1 V c t.val t.isLt (ix2 p q) = (((cfg1.win 3).blk t).view.read (Elt F) G : Vec F S2048x1024 .bf16) (ix2 p q)
  rw [hG p q, readBlk1_3]

/-- The output array after the region: any `G` that every stored block agrees with on its rectangle. -/
theorem arr1_of (c : Dev nD) (G : S8192x8192.Idx → Elt F .bf16)
    (hG : ∀ t : Fin cfg1.N, t.val % 8 = 7 → ∀ (p : Fin 2048) (q : Fin 1024), outAt1 V c t.val t.isLt (ix2 p q)
      = G (ix2 (⟨(t.val / 64) * 2048 + p.val, by have := t.isLt; have hN : cfg1.N = 256 := N_1; omega⟩ : Fin 8192) (⟨((t.val / 8) % 8) * 1024 + q.val, by omega⟩ : Fin 8192))) :
    (dat1 V c).arrAt 3 cfg1.N = G := by
  refine (dat1 V c).arrAt_eq_of_cover 3 G (fun t hf => flushed1_3_of V c G t (hG t ((flush1_3 t).mp hf))) (fun i => ?_)
  have hN : cfg1.N = 256 := N_1
  have hi0 : (i 0).val < 8192 := (i 0).isLt
  have hi1 : (i 1).val < 8192 := (i 1).isLt
  -- the point that covers (r, s): row block r / 2048, column block s / 1024, last fan-in step
  have ht : (((i 0).val / 2048) * 8 + (i 1).val / 1024) * 8 + 7 < cfg1.N := by omega
  refine ⟨⟨(((i 0).val / 2048) * 8 + (i 1).val / 1024) * 8 + 7, ht⟩, (flush1_3 _).mpr (by show ((((i 0).val / 2048) * 8 + (i 1).val / 1024) * 8 + 7) % 8 = 7; omega), ?_⟩
  rw [mem_blk1_3]
  obtain ⟨-, -, -, -, -, -, e0, e1⟩ := blockIdx1 ⟨(((i 0).val / 2048) * 8 + (i 1).val / 1024) * 8 + 7, ht⟩
  intro a
  match a with
  | ⟨0, _⟩ =>
    show win1_3.index _ (0 : Fin 2) * 2048 ≤ (i 0).val ∧ (i 0).val < win1_3.index _ (0 : Fin 2) * 2048 + 2048
    rw [e0]; show ((((i 0).val / 2048) * 8 + (i 1).val / 1024) * 8 + 7) / 64 * 2048 ≤ (i 0).val ∧ (i 0).val < ((((i 0).val / 2048) * 8 + (i 1).val / 1024) * 8 + 7) / 64 * 2048 + 2048
    omega
  | ⟨1, _⟩ =>
    show win1_3.index _ (1 : Fin 2) * 1024 ≤ (i 1).val ∧ (i 1).val < win1_3.index _ (1 : Fin 2) * 1024 + 1024
    rw [e1]; show ((((i 0).val / 2048) * 8 + (i 1).val / 1024) * 8 + 7) / 8 % 8 * 1024 ≤ (i 1).val ∧ (i 1).val < ((((i 0).val / 2048) * 8 + (i 1).val / 1024) * 8 + 7) / 8 % 8 * 1024 + 1024
    omega

end

end Cert.KernelIdeal.Hand

end
-- ==== Proof.IH1Val.lean ====
/-
  Layer 1's kernel region, as a value: after the region the output array is the hidden layer of the three arrays the
  region reads — the activations, the masked weight and the bias row.

  At the last fan-in step of an output block the stored entry (p, q) is the maximum with zero of the accumulator plus
  the bias; the accumulator is the running sum of the eight block products of the block's steps; the block product of
  step kb is the contraction of row r of the activations with row s of the masked weight inside fan-in block kb, where
  (r, s) is the place of (p, q) in the whole array; and the eight blocks make up the whole fan-in axis.
-/
import proofs.«122649_j45518063403493_2_alg».proof.Proof.IH1Acc
import proofs.«122649_j45518063403493_2_alg».proof.Proof.IH1Blocks
import proofs.«122649_j45518063403493_2_alg».proof.Proof.KLayer
import proofs.«122649_j45518063403493_2_alg».proof.Proof.LibBlockedContraction

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

section
variable (V : (c : Dev nD) → (b : Ref sig .tc) → Buf (Elt Ideal) ((c : Thread nD τ).loc b))

/-- The region's three input arrays as the region finds them: the activations, the masked weight, the bias row. -/
def X1 (c : Dev nD) : Cert.MLP.Mat 8192 8192 := V c (Pipeline.arrRef spec1 0)
def Wm1 (c : Dev nD) : Cert.MLP.Mat 8192 8192 := V c (Pipeline.arrRef spec1 1)
def B1 (c : Dev nD) : Cert.MLP.Mat 1 8192 := V c (Pipeline.arrRef spec1 2)

/-- The block product at a point whose fan-in block is `kb`, for the output entry (r, s) that the point's block
    entry (p, q) is: the contraction of row r of the activations with row s of the masked weight inside block `kb`. -/
theorem prod1_arr (c : Dev nD) (t : Fin cfg1.N) (p : Fin 2048) (q : Fin 1024) (r : Fin 8192) (s : Fin 8192) (kb : ℕ) (hkb : kb < 8)
    (hr : r.val = (t.val / 64) * 2048 + p.val) (hs : s.val = ((t.val / 8) % 8) * 1024 + q.val) (hk : t.val % 8 = kb) :
    prod1 V c t p q = ∑ kk : Fin 1024,
      X1 V c (ix2 r ⟨kb * 1024 + kk.val, Cert.MLP.blk_lt hkb kk.isLt⟩) * Wm1 V c (ix2 s ⟨kb * 1024 + kk.val, Cert.MLP.blk_lt hkb kk.isLt⟩) := by
  unfold prod1 dotRows1
  refine Finset.sum_congr rfl fun kk _ => ?_
  have e0 : (iblk1 V c 0 t : Vec Ideal S2048x1024 .bf16) (ix2 p kk) = X1 V c (ix2 r ⟨kb * 1024 + kk.val, Cert.MLP.blk_lt hkb kk.isLt⟩) :=
    (iblk1_0_apply V c t p kk).trans (congrArg (X1 V c) (congrArg₂ ix2 (Fin.ext (by dsimp only; omega)) (Fin.ext (by dsimp only; omega))))
  have e1 : (iblk1 V c 1 t : Vec Ideal S1024x1024 .bf16) (ix2 q kk) = Wm1 V c (ix2 s ⟨kb * 1024 + kk.val, Cert.MLP.blk_lt hkb kk.isLt⟩) :=
    (iblk1_1_apply V c t q kk).trans (congrArg (Wm1 V c) (congrArg₂ ix2 (Fin.ext (by dsimp only; omega)) (Fin.ext (by dsimp only; omega))))
  rw [e0, e1]

/-- The block stored at a last step is the hidden layer of the arrays on the block's rectangle. -/
theorem outAt1_val (c : Dev nD) (t : Fin cfg1.N) (h3 : t.val % 8 = 7) (p : Fin 2048) (q : Fin 1024) (r : Fin 8192) (s : Fin 8192)
    (hr : r.val = (t.val / 64) * 2048 + p.val) (hs : s.val = ((t.val / 8) % 8) * 1024 + q.val) :
    outAt1 (F := Ideal) V c t.val t.isLt (ix2 p q) = Cert.MLP.khid (X1 V c) (Wm1 V c) (B1 V c) (ix2 r s) := by
  rw [Cert.MLP.khid_ix2, outAt1_last_at V c t h3 p q]
  unfold Cert.MLP.kpreAt
  have hN : cfg1.N = 256 := N_1
  have ht := t.isLt
  have hacc : accAt1 (F := Ideal) V c t.val t.isLt (ix2 p q) = ∑ k : Fin 8192, X1 V c (ix2 r k) * Wm1 V c (ix2 s k) := by
    have h3' : t.val - 7 + 7 < cfg1.N := by omega
    refine (congrFun (accAt1_congr V c (show t.val = t.val - 7 + 7 by omega) t.isLt h3') (ix2 p q)).trans ?_
    refine (accAt1_acc V c (t.val - 7) (by omega) p q 7 (le_refl 7) h3').trans ?_
    exact Cert.MLP.acc_blocks_contraction 7 1024 (X1 V c) (Wm1 V c) r s _ (fun kb hkb => by
      have hlt : t.val - 7 + kb < cfg1.N := by omega
      rw [term1_of_lt V c (t.val - 7) p q kb hlt]
      exact prod1_arr V c ⟨t.val - 7 + kb, hlt⟩ p q r s kb hkb (by dsimp only; omega) (by dsimp only; omega) (by dsimp only; omega))
  have hb : biasAt1 (iblk1 V c 2 t) q = B1 V c (ix2 (0 : Fin 1) s) := by
    unfold biasAt1
    exact (iblk1_2_apply V c t q).trans (congrArg (B1 V c) (congrArg₂ ix2 rfl (Fin.ext (by dsimp only; omega))))
  rw [hacc, hb]

/-- After the region the output array is the hidden layer of the three input arrays. -/
theorem arr1_val (c : Dev nD) :
    (dat1 (F := Ideal) V c).arrAt 3 cfg1.N
      = Cert.MLP.khid (B := 8192) (K := 8192) (N := 8192) (V c (Pipeline.arrRef spec1 0)) (V c (Pipeline.arrRef spec1 1)) (V c (Pipeline.arrRef spec1 2)) :=
  arr1_of V c (Cert.MLP.khid (X1 V c) (Wm1 V c) (B1 V c)) (fun t h3 p q => outAt1_val V c t h3 p q _ _ rfl rfl)

end

end Cert.KernelIdeal.Hand

end
-- ==== Proof.IH2Acc.lean ====
/-
  Layer 2's kernel region, in values: what each control case's stores leave, as the payloads of the blocks, and the
  accumulator after every point in closed form.

  The three cases each end with one store of the whole accumulator; a first step stores the zero block first and
  reads it back. So after a first step the accumulator is the step's block product added to zero, after any later
  step the block product added to what the step before left, and a last step stores, in the output block, the
  activation of the new accumulator plus the bias row. At the extended reals the accumulator after step k of an
  output block is therefore the running sum of the block products of steps 0, …, k.
-/
import proofs.«122649_j45518063403493_2_alg».proof.Proof.IH2Frame
import proofs.«122649_j45518063403493_2_alg».proof.Proof.PayloadAt
import proofs.«122649_j45518063403493_2_alg».proof.Proof.BlockSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero. -/
theorem hz2_2 : (![0, 0] : Fin 2 → Nat) = fun _ => 0 := funext fun a => by fin_cases a <;> rfl

/-! ## What each case's stores leave, as the payloads of the blocks -/

/-- A first step leaves in the accumulator the block product added to the zero block. -/
theorem sout2_A_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i) (x0 : Vec F S2048x1024 .bf16) (x1 : Vec F S1024x1024 .bf16) (x2 : Vec F S1x1024 .f32) :
    sout2_A c i arg3 harg3 arg4 harg4 arg5 harg5 arg6 harg6 arg7 harg7 hc0 hc1 x0 x1 x2 = k2_pay2 (k2_pay1 (F := F)) x0 x1 := by
  unfold sout2_A
  rw [View.read_writes_eq_canon _ _ _ (scover2_A c i arg3 harg3 arg4 harg4 arg5 harg5 arg6 harg6 arg7 harg7 hc0 hc1 x0 x1 x2)]
  unfold kernelRun2_A
  dsimp only
  sl_unfold_words
  rw [View.canon_cons_unit_zero (S := S2048x1024) hz2_2, View.readCov_unit_zero (S := S2048x1024) _ hz2_2]
  simp only [View.readAt_eq_ld, harg3.read_unread, harg4.read_unread, View.ld_unit_zero (S := S2048x1024) hz2_2,
    View.ld_unit_zero (S := S1024x1024) hz2_2]

/-- A middle step leaves in the accumulator the block product added to what it held. -/
theorem sout2_B_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i) (x0 : Vec F S2048x1024 .bf16) (x1 : Vec F S1024x1024 .bf16) (x2 : Vec F S1x1024 .f32) (xs : Vec F S2048x1024 .f32) :
    sout2_B c i arg3 harg3 arg4 harg4 arg5 harg5 arg6 harg6 arg7 harg7 hc0 hc1 x0 x1 x2 xs = k2_pay2 xs x0 x1 := by
  unfold sout2_B
  rw [View.read_writes_eq_canon _ _ _ (scover2_B c i arg3 harg3 arg4 harg4 arg5 harg5 arg6 harg6 arg7 harg7 hc0 hc1 x0 x1 x2 xs)]
  unfold kernelRun2_B
  dsimp only
  rw [View.canon_unit_zero (S := S2048x1024) hz2_2]
  simp only [View.readAt_eq_ld, harg3.read_unread, harg4.read_unread, harg7.read_unread, View.ld_unit_zero (S := S2048x1024) hz2_2,
    View.ld_unit_zero (S := S1024x1024) hz2_2]

/-- A last step leaves in the accumulator the block product added to what it held. -/
theorem sout2_C_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i) (x0 : Vec F S2048x1024 .bf16) (x1 : Vec F S1024x1024 .bf16) (x2 : Vec F S1x1024 .f32) (xs : Vec F S2048x1024 .f32) :
    sout2_C c i arg3 harg3 arg4 harg4 arg5 harg5 arg6 harg6 arg7 harg7 hc0 hc1 x0 x1 x2 xs = k2_pay2 xs x0 x1 := by
  unfold sout2_C
  rw [View.read_writes_eq_canon _ _ _ (scover2_C c i arg3 harg3 arg4 harg4 arg5 harg5 arg6 harg6 arg7 harg7 hc0 hc1 x0 x1 x2 xs)]
  unfold kernelRun2_C
  dsimp only
  sl_unfold_words
  rw [View.canon_unit_zero (S := S2048x1024) hz2_2]
  simp only [View.readAt_eq_ld, harg3.read_unread, harg4.read_unread, harg7.read_unread, View.ld_unit_zero (S := S2048x1024) hz2_2,
    View.ld_unit_zero (S := S1024x1024) hz2_2]

/-- A last step leaves in the output block's buffer the activation of that new accumulator plus the bias row. -/
theorem out2_C_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i) (x0 : Vec F S2048x1024 .bf16) (x1 : Vec F S1024x1024 .bf16) (x2 : Vec F S1x1024 .f32) (xs : Vec F S2048x1024 .f32) :
    out2_C c i arg3 harg3 arg4 harg4 arg5 harg5 arg6 harg6 arg7 harg7 hc0 hc1 x0 x1 x2 xs = k2_pay3 (k2_pay2 xs x0 x1) x2 := by
  unfold out2_C
  rw [View.read_writes_eq_canon _ _ _ (cover2_C c i arg3 harg3 arg4 harg4 arg5 harg5 arg6 harg6 arg7 harg7 hc0 hc1 x0 x1 x2 xs)]
  unfold kernelRun2_C
  dsimp only
  sl_unfold_words
  rw [View.canon_unit_zero (S := S2048x1024) hz2_2, View.readCov_unit_zero (S := S2048x1024) _ hz2_2]
  simp only [View.readAt_eq_ld, harg3.read_unread, harg4.read_unread, harg5.read_unread, harg7.read_unread,
    View.ld_unit_zero (S := S2048x1024) hz2_2, View.ld_unit_zero (S := S1024x1024) hz2_2, View.ld_unit_zero (S := S1x1024) hz2_2]

/-! ## The accumulator and the stored block, point by point, as payloads -/

section
variable (V : (c : Dev nD) → (b : Ref sig .tc) → Buf (Elt F) ((c : Thread nD τ).loc b))

/-- The accumulator's value depends on the point's number only. -/
theorem accAt2_congr (c : Dev nD) {n m : ℕ} (e : n = m) (hn : n < cfg2.N) (hm : m < cfg2.N) :
    accAt2 V c n hn = accAt2 V c m hm := by
  subst e; rfl

/-- After a first step the accumulator is the step's block product added to the zero block. -/
theorem accAt2_first (c : Dev nD) (t : Fin cfg2.N) (h0 : t.val % 8 = 0) :
    accAt2 V c t.val t.isLt = k2_pay2 (k2_pay1 (F := F)) (iblk2 V c 0 t) (iblk2 V c 1 t) :=
  have h1 : ¬t.val % 8 = 7 := by omega
  (accAt2_A V c t h0 h1).trans
    (sout2_A_eq c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t))

/-- After any later step it is the step's block product added to what the step before left. -/
theorem accAt2_next (c : Dev nD) (t : Fin cfg2.N) (h0 : ¬t.val % 8 = 0) :
    accAt2 V c t.val t.isLt
      = k2_pay2 (accAt2 V c (t.val - 1) (Nat.lt_of_le_of_lt (Nat.sub_le _ _) t.isLt)) (iblk2 V c 0 t) (iblk2 V c 1 t) := by
  by_cases h1 : t.val % 8 = 7
  · exact (accAt2_C V c t h0 h1).trans
      (sout2_C_eq c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t)
        (accAt2 V c (t.val - 1) (Nat.lt_of_le_of_lt (Nat.sub_le _ _) t.isLt)))
  · exact (accAt2_B V c t h0 h1).trans
      (sout2_B_eq c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t)
        (accAt2 V c (t.val - 1) (Nat.lt_of_le_of_lt (Nat.sub_le _ _) t.isLt)))

/-- After a last step the output block's buffer holds the activation of the accumulator plus the bias row. -/
theorem outAt2_last (c : Dev nD) (t : Fin cfg2.N) (h1 : t.val % 8 = 7) :
    outAt2 V c t.val t.isLt = k2_pay3 (accAt2 V c t.val t.isLt) (iblk2 V c 2 t) := by
  have h0 : ¬t.val % 8 = 0 := by omega
  rw [accAt2_next V c t h0]
  exact (outAt2_C V c t h0 h1).trans
    (out2_C_eq c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t)
      (accAt2 V c (t.val - 1) (Nat.lt_of_le_of_lt (Nat.sub_le _ _) t.isLt)))

end

/-! ## At the extended reals: the running sum of the block products -/

section
variable (V : (c : Dev nD) → (b : Ref sig .tc) → Buf (Elt Ideal) ((c : Thread nD τ).loc b))

open Idealize.ShloMosaic.ValueIdx

/-- Row p of an activation block against row q of a weight block: the sum over the block's fan-in axis of the products. -/
def dotRows2 (a : Vec Ideal S2048x1024 .bf16) (b : Vec Ideal S1024x1024 .bf16) (p : Fin 2048) (q : Fin 1024) : EReal :=
  ∑ kk : Fin 1024, a (ix2 p kk) * b (ix2 q kk)

/-- Entry (p, q) of the block product at point t. -/
def prod2 (c : Dev nD) (t : Fin cfg2.N) (p : Fin 2048) (q : Fin 1024) : EReal :=
  dotRows2 (iblk2 V c 0 t) (iblk2 V c 1 t) p q

/-- The block product of step kb of the output block that starts at point t0 (zero past the grid's end). -/
def term2 (c : Dev nD) (t0 : ℕ) (p : Fin 2048) (q : Fin 1024) (kb : ℕ) : EReal :=
  if hk : t0 + kb < cfg2.N then prod2 V c ⟨t0 + kb, hk⟩ p q else 0

theorem term2_of_lt (c : Dev nD) (t0 : ℕ) (p : Fin 2048) (q : Fin 1024) (kb : ℕ) (hk : t0 + kb < cfg2.N) :
    term2 V c t0 p q kb = prod2 V c ⟨t0 + kb, hk⟩ p q := dif_pos hk

theorem accAt2_first_at (c : Dev nD) (t : Fin cfg2.N) (h0 : t.val % 8 = 0) (p : Fin 2048) (q : Fin 1024) :
    accAt2 (F := Ideal) V c t.val t.isLt (ix2 p q) = 0 + prod2 V c t p q := by
  rw [accAt2_first V c t h0]
  exact (Cert.MLP.Pay.k2_pay2_at _ (iblk2 V c 0 t) (iblk2 V c 1 t) p q).trans
    (congrArg (· + prod2 V c t p q) (Cert.MLP.Pay.k2_pay1_at (ix2 p q)))

theorem accAt2_next_at (c : Dev nD) (t : Fin cfg2.N) (h0 : ¬t.val % 8 = 0) (p : Fin 2048) (q : Fin 1024) :
    accAt2 (F := Ideal) V c t.val t.isLt (ix2 p q)
      = accAt2 (F := Ideal) V c (t.val - 1) (Nat.lt_of_le_of_lt (Nat.sub_le _ _) t.isLt) (ix2 p q) + prod2 V c t p q := by
  rw [accAt2_next V c t h0]
  exact Cert.MLP.Pay.k2_pay2_at _ (iblk2 V c 0 t) (iblk2 V c 1 t) p q

/-- The accumulator after step k of the output block that starts at point t0 is the running sum of the block
    products of steps 0, …, k. -/
theorem accAt2_acc (c : Dev nD) (t0 : ℕ) (h0 : t0 % 8 = 0) (p : Fin 2048) (q : Fin 1024) :
    ∀ (k : ℕ) (_ : k ≤ 7) (h : t0 + k < cfg2.N),
      accAt2 (F := Ideal) V c (t0 + k) h (ix2 p q) = Cert.MLP.acc (term2 V c t0 p q) k
  | 0, _, h => by
    refine (accAt2_first_at V c ⟨t0 + 0, h⟩ (by dsimp only; omega) p q).trans ?_
    rw [Cert.MLP.acc, term2_of_lt V c t0 p q 0 h]
  | k + 1, hk, h => by
    refine (accAt2_next_at V c ⟨t0 + (k + 1), h⟩ (by dsimp only; omega) p q).trans ?_
    rw [Cert.MLP.acc, term2_of_lt V c t0 p q (k + 1) h]
    refine congrArg (· + prod2 V c ⟨t0 + (k + 1), h⟩ p q) ?_
    refine (congrFun (accAt2_congr V c (show (⟨t0 + (k + 1), h⟩ : Fin cfg2.N).val - 1 = t0 + k by dsimp only; omega) _ (by omega)) (ix2 p q)).trans ?_
    exact accAt2_acc c t0 h0 p q k (by omega) (by omega)

/-- The same as a sum over the steps. -/
theorem accAt2_sum (c : Dev nD) (t0 : ℕ) (h0 : t0 % 8 = 0) (p : Fin 2048) (q : Fin 1024) (k : ℕ) (hk : k ≤ 7) (h : t0 + k < cfg2.N) :
    accAt2 (F := Ideal) V c (t0 + k) h (ix2 p q) = ∑ kb ∈ Finset.range (k + 1), term2 V c t0 p q kb :=
  (accAt2_acc V c t0 h0 p q k hk h).trans (Cert.MLP.acc_eq_sum _ k)

/-- Entry q of a bias row block. -/
def biasAt2 (b : Vec Ideal S1x1024 .f32) (q : Fin 1024) : EReal := b (ix2 0 q)

/-- The stored output block at a last step: the maximum with zero of the accumulator plus the bias. -/
theorem outAt2_last_at (c : Dev nD) (t : Fin cfg2.N) (h1 : t.val % 8 = 7) (p : Fin 2048) (q : Fin 1024) :
    outAt2 (F := Ideal) V c t.val t.isLt (ix2 p q)
      = max (accAt2 (F := Ideal) V c t.val t.isLt (ix2 p q) + biasAt2 (iblk2 V c 2 t) q) 0 := by
  rw [outAt2_last V c t h1]
  exact Cert.MLP.Pay.k2_pay3_at _ (iblk2 V c 2 t) p q

end

end Cert.KernelIdeal.Hand

end
-- ==== Proof.IH2Blocks.lean ====
/-
  Layer 2's kernel region: where its blocks sit in their arrays, and the output array assembled from its blocks.

  The grid has 4 row blocks of 2048 rows, 4 column blocks of 1024 output columns and 8 fan-in blocks of 1024, numbered with the
  fan-in innermost: point `t` is row block `t / 32`, column block `(t / 8) % 4`, fan-in block `t % 8`. The activations' block at
  `t` is block (row block, fan-in block) of their array, the weight's is block (column block, fan-in block), the bias's is block
  (0, column block) and the output's is block (row block, column block). A block's coordinate in its array is always the block's
  index times the block's size plus the coordinate inside the block.

  The output array is written back at the last fan-in step of each output block, and those 16 blocks tile it: if every one of them
  agrees with one whole-array function on its rectangle, the array ends equal to that function.
-/
import proofs.«122649_j45518063403493_2_alg».proof.Proof.IH2Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The block indices, in closed form over the grid -/

theorem blockIdx2 : ∀ t : Fin cfg2.N,
    win2_0.index t (0 : Fin 2) = t.val / 32 ∧ win2_0.index t (1 : Fin 2) = t.val % 8
    ∧ win2_1.index t (0 : Fin 2) = (t.val / 8) % 4 ∧ win2_1.index t (1 : Fin 2) = t.val % 8
    ∧ win2_2.index t (0 : Fin 2) = 0 ∧ win2_2.index t (1 : Fin 2) = (t.val / 8) % 4
    ∧ win2_3.index t (0 : Fin 2) = t.val / 32 ∧ win2_3.index t (1 : Fin 2) = (t.val / 8) % 4 :=
  (by decide +kernel : ∀ t : Fin grid2.N, _)

/-! ## An array read through a window's block -/

/-- The activations' array through its block at `t`. -/
theorem readBlk2_0 (X : S8192x8192.Idx → Elt F .bf16) (t : Fin cfg2.N) (p : Fin 2048) (kk : Fin 1024) :
    (((cfg2.win 0).blk t).view.read (Elt F) X : Vec F S2048x1024 .bf16) (ix2 p kk)
      = X (ix2 (⟨(t.val / 32) * 2048 + p.val, by have := t.isLt; have hN : cfg2.N = 128 := N_2; omega⟩ : Fin 8192) (⟨(t.val % 8) * 1024 + kk.val, by omega⟩ : Fin 8192)) := by
  obtain ⟨e0, e1, -⟩ := blockIdx2 t
  rw [View.read_apply]
  show X _ = _
  congr 1
  funext a; apply Fin.ext
  match a with
  | ⟨0, _⟩ => show win2_0.index t (0 : Fin 2) * 2048 + 1 * p.val = _; rw [e0]; show _ = (t.val / 32) * 2048 + p.val; omega
  | ⟨1, _⟩ => show win2_0.index t (1 : Fin 2) * 1024 + 1 * kk.val = _; rw [e1]; show _ = (t.val % 8) * 1024 + kk.val; omega

/-- The weight's array through its block at `t`. -/
theorem readBlk2_1 (X : S4096x8192.Idx → Elt F .bf16) (t : Fin cfg2.N) (q : Fin 1024) (kk : Fin 1024) :
    (((cfg2.win 1).blk t).view.read (Elt F) X : Vec F S1024x1024 .bf16) (ix2 q kk)
      = X (ix2 (⟨((t.val / 8) % 4) * 1024 + q.val, by omega⟩ : Fin 4096) (⟨(t.val % 8) * 1024 + kk.val, by omega⟩ : Fin 8192)) := by
  obtain ⟨-, -, e0, e1, -⟩ := blockIdx2 t
  rw [View.read_apply]
  show X _ = _
  congr 1
  funext a; apply Fin.ext
  match a with
  | ⟨0, _⟩ => show win2_1.index t (0 : Fin 2) * 1024 + 1 * q.val = _; rw [e0]; show _ = ((t.val / 8) % 4) * 1024 + q.val; omega
  | ⟨1, _⟩ => show win2_1.index t (1 : Fin 2) * 1024 + 1 * kk.val = _; rw [e1]; show _ = (t.val % 8) * 1024 + kk.val; omega

/-- The bias row through its block at `t`. -/
theorem readBlk2_2 (X : S1x4096.Idx → Elt F .f32) (t : Fin cfg2.N) (q : Fin 1024) :
    (((cfg2.win 2).blk t).view.read (Elt F) X : Vec F S1x1024 .f32) (ix2 (0 : Fin 1) q)
      = X (ix2 (0 : Fin 1) (⟨((t.val / 8) % 4) * 1024 + q.val, by omega⟩ : Fin 4096)) := by
  obtain ⟨-, -, -, -, e0, e1, -⟩ := blockIdx2 t
  rw [View.read_apply]
  show X _ = _
  congr 1
  funext a; apply Fin.ext
  match a with
  | ⟨0, _⟩ => show win2_2.index t (0 : Fin 2) * 1 + 1 * 0 = 0; rw [e0]
  | ⟨1, _⟩ => show win2_2.index t (1 : Fin 2) * 1024 + 1 * q.val = _; rw [e1]; show _ = ((t.val / 8) % 4) * 1024 + q.val; omega

/-- The output array through its block at `t`. -/
theorem readBlk2_3 (X : S8192x4096.Idx → Elt F .bf16) (t : Fin cfg2.N) (p : Fin 2048) (q : Fin 1024) :
    (((cfg2.win 3).blk t).view.read (Elt F) X : Vec F S2048x1024 .bf16) (ix2 p q)
      = X (ix2 (⟨(t.val / 32) * 2048 + p.val, by have := t.isLt; have hN : cfg2.N = 128 := N_2; omega⟩ : Fin 8192) (⟨((t.val / 8) % 4) * 1024 + q.val, by omega⟩ : Fin 4096)) := by
  obtain ⟨-, -, -, -, -, -, e0, e1⟩ := blockIdx2 t
  rw [View.read_apply]
  show X _ = _
  congr 1
  funext a; apply Fin.ext
  match a with
  | ⟨0, _⟩ => show win2_3.index t (0 : Fin 2) * 2048 + 1 * p.val = _; rw [e0]; show _ = (t.val / 32) * 2048 + p.val; omega
  | ⟨1, _⟩ => show win2_3.index t (1 : Fin 2) * 1024 + 1 * q.val = _; rw [e1]; show _ = ((t.val / 8) % 4) * 1024 + q.val; omega

section
variable (V : (c : Dev nD) → (b : Ref sig .tc) → Buf (Elt F) ((c : Thread nD τ).loc b))

/-! ## The input blocks, as the region finds them -/

theorem iblk2_0_apply (c : Dev nD) (t : Fin cfg2.N) (p : Fin 2048) (kk : Fin 1024) :
    (iblk2 V c 0 t : Vec F S2048x1024 .bf16) (ix2 p kk)
      = (V c (Pipeline.arrRef spec2 0) : S8192x8192.Idx → Elt F .bf16) (ix2 (⟨(t.val / 32) * 2048 + p.val, by have := t.isLt; have hN : cfg2.N = 128 := N_2; omega⟩ : Fin 8192) (⟨(t.val % 8) * 1024 + kk.val, by omega⟩ : Fin 8192)) :=
  readBlk2_0 (V c (Pipeline.arrRef spec2 0)) t p kk

theorem iblk2_1_apply (c : Dev nD) (t : Fin cfg2.N) (q : Fin 1024) (kk : Fin 1024) :
    (iblk2 V c 1 t : Vec F S1024x1024 .bf16) (ix2 q kk)
      = (V c (Pipeline.arrRef spec2 1) : S4096x8192.Idx → Elt F .bf16) (ix2 (⟨((t.val / 8) % 4) * 1024 + q.val, by omega⟩ : Fin 4096) (⟨(t.val % 8) * 1024 + kk.val, by omega⟩ : Fin 8192)) :=
  readBlk2_1 (V c (Pipeline.arrRef spec2 1)) t q kk

theorem iblk2_2_apply (c : Dev nD) (t : Fin cfg2.N) (q : Fin 1024) :
    (iblk2 V c 2 t : Vec F S1x1024 .f32) (ix2 (0 : Fin 1) q)
      = (V c (Pipeline.arrRef spec2 2) : S1x4096.Idx → Elt F .f32) (ix2 (0 : Fin 1) (⟨((t.val / 8) % 4) * 1024 + q.val, by omega⟩ : Fin 4096)) :=
  readBlk2_2 (V c (Pipeline.arrRef spec2 2)) t q

/-! ## The output array from its blocks -/

/-- An index of the output array is in point `t`'s block iff each coordinate is in the block's range on its axis. -/
theorem mem_blk2_3 (t : Fin cfg2.N) (i : S8192x4096.Idx) :
    i ∈ ((cfg2.win 3).blk t).view.set ↔ ∀ a : Fin 2, win2_3.index t a * S2048x1024.size a ≤ (i a).val ∧ (i a).val < win2_3.index t a * S2048x1024.size a + S2048x1024.size a := by
  show i ∈ ((View.whole main_v14).slice (win2_3.rect t)).set ↔ _
  rw [View.set_slice_whole, Rect.mem_set_unit]
  exact Iff.rfl

/-- What a last step writes back, when the stored block agrees with `G` on its rectangle, is that block of `G`. -/
theorem flushed2_3_of (c : Dev nD) (G : S8192x4096.Idx → Elt F .bf16) (t : Fin cfg2.N)
    (hG : ∀ (p : Fin 2048) (q : Fin 1024), outAt2 V c t.val t.isLt (ix2 p q)
      = G (ix2 (⟨(t.val / 32) * 2048 + p.val, by have := t.isLt; have hN : cfg2.N = 128 := N_2; omega⟩ : Fin 8192) (⟨((t.val / 8) % 4) * 1024 + q.val, by omega⟩ : Fin 4096))) :
    (dat2 V c).flushed 3 t = ((cfg2.win 3).blk t).view.read (Elt F) G := by
  show (cfg2.win 3).cut (grid2.coords t) ((dat2 V c).after 3 t) = _
  rw [after2_3]
  refine funext fun (j : S2048x1024.Idx) => ?_
  obtain ⟨p, q, rfl⟩ : ∃ (p : Fin 2048) (q : Fin 1024), j = ix2 p q := ⟨j 0, j 1, eq_ix2 j⟩
  show outAt2 V c t.val t.isLt (ix2 p q) = (((cfg2.win 3).blk t).view.read (Elt F) G : Vec F S2048x1024 .bf16) (ix2 p q)
  rw [hG p q, readBlk2_3]

/-- The output array after the region: any `G` that every stored block agrees with on its rectangle. -/
theorem arr2_of (c : Dev nD) (G : S8192x4096.Idx → Elt F .bf16)
    (hG : ∀ t : Fin cfg2.N, t.val % 8 = 7 → ∀ (p : Fin 2048) (q : Fin 1024), outAt2 V c t.val t.isLt (ix2 p q)
      = G (ix2 (⟨(t.val / 32) * 2048 + p.val, by have := t.isLt; have hN : cfg2.N = 128 := N_2; omega⟩ : Fin 8192) (⟨((t.val / 8) % 4) * 1024 + q.val, by omega⟩ : Fin 4096))) :
    (dat2 V c).arrAt 3 cfg2.N = G := by
  refine (dat2 V c).arrAt_eq_of_cover 3 G (fun t hf => flushed2_3_of V c G t (hG t ((flush2_3 t).mp hf))) (fun i => ?_)
  have hN : cfg2.N = 128 := N_2
  have hi0 : (i 0).val < 8192 := (i 0).isLt
  have hi1 : (i 1).val < 4096 := (i 1).isLt
  -- the point that covers (r, s): row block r / 2048, column block s / 1024, last fan-in step
  have ht : (((i 0).val / 2048) * 4 + (i 1).val / 1024) * 8 + 7 < cfg2.N := by omega
  refine ⟨⟨(((i 0).val / 2048) * 4 + (i 1).val / 1024) * 8 + 7, ht⟩, (flush2_3 _).mpr (by show ((((i 0).val / 2048) * 4 + (i 1).val / 1024) * 8 + 7) % 8 = 7; omega), ?_⟩
  rw [mem_blk2_3]
  obtain ⟨-, -, -, -, -, -, e0, e1⟩ := blockIdx2 ⟨(((i 0).val / 2048) * 4 + (i 1).val / 1024) * 8 + 7, ht⟩
  intro a
  match a with
  | ⟨0, _⟩ =>
    show win2_3.index _ (0 : Fin 2) * 2048 ≤ (i 0).val ∧ (i 0).val < win2_3.index _ (0 : Fin 2) * 2048 + 2048
    rw [e0]; show ((((i 0).val / 2048) * 4 + (i 1).val / 1024) * 8 + 7) / 32 * 2048 ≤ (i 0).val ∧ (i 0).val < ((((i 0).val / 2048) * 4 + (i 1).val / 1024) * 8 + 7) / 32 * 2048 + 2048
    omega
  | ⟨1, _⟩ =>
    show win2_3.index _ (1 : Fin 2) * 1024 ≤ (i 1).val ∧ (i 1).val < win2_3.index _ (1 : Fin 2) * 1024 + 1024
    rw [e1]; show ((((i 0).val / 2048) * 4 + (i 1).val / 1024) * 8 + 7) / 8 % 4 * 1024 ≤ (i 1).val ∧ (i 1).val < ((((i 0).val / 2048) * 4 + (i 1).val / 1024) * 8 + 7) / 8 % 4 * 1024 + 1024
    omega

end

end Cert.KernelIdeal.Hand

end
-- ==== Proof.IH2Val.lean ====
/-
  Layer 2's kernel region, as a value: after the region the output array is the hidden layer of the three arrays the
  region reads — the activations, the masked weight and the bias row.

  At the last fan-in step of an output block the stored entry (p, q) is the maximum with zero of the accumulator plus
  the bias; the accumulator is the running sum of the eight block products of the block's steps; the block product of
  step kb is the contraction of row r of the activations with row s of the masked weight inside fan-in block kb, where
  (r, s) is the place of (p, q) in the whole array; and the eight blocks make up the whole fan-in axis.
-/
import proofs.«122649_j45518063403493_2_alg».proof.Proof.IH2Acc
import proofs.«122649_j45518063403493_2_alg».proof.Proof.IH2Blocks
import proofs.«122649_j45518063403493_2_alg».proof.Proof.KLayer
import proofs.«122649_j45518063403493_2_alg».proof.Proof.LibBlockedContraction

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

section
variable (V : (c : Dev nD) → (b : Ref sig .tc) → Buf (Elt Ideal) ((c : Thread nD τ).loc b))

/-- The region's three input arrays as the region finds them: the activations, the masked weight, the bias row. -/
def X2 (c : Dev nD) : Cert.MLP.Mat 8192 8192 := V c (Pipeline.arrRef spec2 0)
def Wm2 (c : Dev nD) : Cert.MLP.Mat 4096 8192 := V c (Pipeline.arrRef spec2 1)
def B2 (c : Dev nD) : Cert.MLP.Mat 1 4096 := V c (Pipeline.arrRef spec2 2)

/-- The block product at a point whose fan-in block is `kb`, for the output entry (r, s) that the point's block
    entry (p, q) is: the contraction of row r of the activations with row s of the masked weight inside block `kb`. -/
theorem prod2_arr (c : Dev nD) (t : Fin cfg2.N) (p : Fin 2048) (q : Fin 1024) (r : Fin 8192) (s : Fin 4096) (kb : ℕ) (hkb : kb < 8)
    (hr : r.val = (t.val / 32) * 2048 + p.val) (hs : s.val = ((t.val / 8) % 4) * 1024 + q.val) (hk : t.val % 8 = kb) :
    prod2 V c t p q = ∑ kk : Fin 1024,
      X2 V c (ix2 r ⟨kb * 1024 + kk.val, Cert.MLP.blk_lt hkb kk.isLt⟩) * Wm2 V c (ix2 s ⟨kb * 1024 + kk.val, Cert.MLP.blk_lt hkb kk.isLt⟩) := by
  unfold prod2 dotRows2
  refine Finset.sum_congr rfl fun kk _ => ?_
  have e0 : (iblk2 V c 0 t : Vec Ideal S2048x1024 .bf16) (ix2 p kk) = X2 V c (ix2 r ⟨kb * 1024 + kk.val, Cert.MLP.blk_lt hkb kk.isLt⟩) :=
    (iblk2_0_apply V c t p kk).trans (congrArg (X2 V c) (congrArg₂ ix2 (Fin.ext (by dsimp only; omega)) (Fin.ext (by dsimp only; omega))))
  have e1 : (iblk2 V c 1 t : Vec Ideal S1024x1024 .bf16) (ix2 q kk) = Wm2 V c (ix2 s ⟨kb * 1024 + kk.val, Cert.MLP.blk_lt hkb kk.isLt⟩) :=
    (iblk2_1_apply V c t q kk).trans (congrArg (Wm2 V c) (congrArg₂ ix2 (Fin.ext (by dsimp only; omega)) (Fin.ext (by dsimp only; omega))))
  rw [e0, e1]

/-- The block stored at a last step is the hidden layer of the arrays on the block's rectangle. -/
theorem outAt2_val (c : Dev nD) (t : Fin cfg2.N) (h3 : t.val % 8 = 7) (p : Fin 2048) (q : Fin 1024) (r : Fin 8192) (s : Fin 4096)
    (hr : r.val = (t.val / 32) * 2048 + p.val) (hs : s.val = ((t.val / 8) % 4) * 1024 + q.val) :
    outAt2 (F := Ideal) V c t.val t.isLt (ix2 p q) = Cert.MLP.khid (X2 V c) (Wm2 V c) (B2 V c) (ix2 r s) := by
  rw [Cert.MLP.khid_ix2, outAt2_last_at V c t h3 p q]
  unfold Cert.MLP.kpreAt
  have hN : cfg2.N = 128 := N_2
  have ht := t.isLt
  have hacc : accAt2 (F := Ideal) V c t.val t.isLt (ix2 p q) = ∑ k : Fin 8192, X2 V c (ix2 r k) * Wm2 V c (ix2 s k) := by
    have h3' : t.val - 7 + 7 < cfg2.N := by omega
    refine (congrFun (accAt2_congr V c (show t.val = t.val - 7 + 7 by omega) t.isLt h3') (ix2 p q)).trans ?_
    refine (accAt2_acc V c (t.val - 7) (by omega) p q 7 (le_refl 7) h3').trans ?_
    exact Cert.MLP.acc_blocks_contraction 7 1024 (X2 V c) (Wm2 V c) r s _ (fun kb hkb => by
      have hlt : t.val - 7 + kb < cfg2.N := by omega
      rw [term2_of_lt V c (t.val - 7) p q kb hlt]
      exact prod2_arr V c ⟨t.val - 7 + kb, hlt⟩ p q r s kb hkb (by dsimp only; omega) (by dsimp only; omega) (by dsimp only; omega))
  have hb : biasAt2 (iblk2 V c 2 t) q = B2 V c (ix2 (0 : Fin 1) s) := by
    unfold biasAt2
    exact (iblk2_2_apply V c t q).trans (congrArg (B2 V c) (congrArg₂ ix2 rfl (Fin.ext (by dsimp only; omega))))
  rw [hacc, hb]

/-- After the region the output array is the hidden layer of the three input arrays. -/
theorem arr2_val (c : Dev nD) :
    (dat2 (F := Ideal) V c).arrAt 3 cfg2.N
      = Cert.MLP.khid (B := 8192) (K := 8192) (N := 4096) (V c (Pipeline.arrRef spec2 0)) (V c (Pipeline.arrRef spec2 1)) (V c (Pipeline.arrRef spec2 2)) :=
  arr2_of V c (Cert.MLP.khid (X2 V c) (Wm2 V c) (B2 V c)) (fun t h3 p q => outAt2_val V c t h3 p q _ _ rfl rfl)

end

end Cert.KernelIdeal.Hand

end
-- ==== Proof.IH3Acc.lean ====
/-
  Layer 3's kernel region, in values: what each control case's stores leave, as the payloads of the blocks, and the
  accumulator after every point in closed form.

  The three cases each end with one store of the whole accumulator; a first step stores the zero block first and
  reads it back. So after a first step the accumulator is the step's block product added to zero, after any later
  step the block product added to what the step before left, and a last step stores, in the output block, the
  new accumulator plus the bias row (the last layer has no activation). At the extended reals the accumulator after step k of an
  output block is therefore the running sum of the block products of steps 0, …, k.
-/
import proofs.«122649_j45518063403493_2_alg».proof.Proof.IH3Frame
import proofs.«122649_j45518063403493_2_alg».proof.Proof.PayloadAt
import proofs.«122649_j45518063403493_2_alg».proof.Proof.BlockSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero. -/
theorem hz2_3 : (![0, 0] : Fin 2 → Nat) = fun _ => 0 := funext fun a => by fin_cases a <;> rfl

/-! ## What each case's stores leave, as the payloads of the blocks -/

/-- A first step leaves in the accumulator the block product added to the zero block. -/
theorem sout3_A_eq (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond3_0 i) (hc1 : ¬cond3_1 i) (x0 : Vec F S1024x1024 .bf16) (x1 : Vec F S1024x1024 .bf16) (x2 : Vec F S1x1024 .f32) :
    sout3_A c i arg3 harg3 arg4 harg4 arg5 harg5 arg6 harg6 arg7 harg7 hc0 hc1 x0 x1 x2 = k3_pay2 (k3_pay1 (F := F)) x0 x1 := by
  unfold sout3_A
  rw [View.read_writes_eq_canon _ _ _ (scover3_A c i arg3 harg3 arg4 harg4 arg5 harg5 arg6 harg6 arg7 harg7 hc0 hc1 x0 x1 x2)]
  unfold kernelRun3_A
  dsimp only
  sl_unfold_words
  rw [View.canon_cons_unit_zero (S := S1024x1024) hz2_3, View.readCov_unit_zero (S := S1024x1024) _ hz2_3]
  simp only [View.readAt_eq_ld, harg3.read_unread, harg4.read_unread, View.ld_unit_zero (S := S1024x1024) hz2_3,
    View.ld_unit_zero (S := S1024x1024) hz2_3]

/-- A middle step leaves in the accumulator the block product added to what it held. -/
theorem sout3_B_eq (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : ¬cond3_1 i) (x0 : Vec F S1024x1024 .bf16) (x1 : Vec F S1024x1024 .bf16) (x2 : Vec F S1x1024 .f32) (xs : Vec F S1024x1024 .f32) :
    sout3_B c i arg3 harg3 arg4 harg4 arg5 harg5 arg6 harg6 arg7 harg7 hc0 hc1 x0 x1 x2 xs = k3_pay2 xs x0 x1 := by
  unfold sout3_B
  rw [View.read_writes_eq_canon _ _ _ (scover3_B c i arg3 harg3 arg4 harg4 arg5 harg5 arg6 harg6 arg7 harg7 hc0 hc1 x0 x1 x2 xs)]
  unfold kernelRun3_B
  dsimp only
  rw [View.canon_unit_zero (S := S1024x1024) hz2_3]
  simp only [View.readAt_eq_ld, harg3.read_unread, harg4.read_unread, harg7.read_unread, View.ld_unit_zero (S := S1024x1024) hz2_3,
    View.ld_unit_zero (S := S1024x1024) hz2_3]

/-- A last step leaves in the accumulator the block product added to what it held. -/
theorem sout3_C_eq (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : cond3_1 i) (x0 : Vec F S1024x1024 .bf16) (x1 : Vec F S1024x1024 .bf16) (x2 : Vec F S1x1024 .f32) (xs : Vec F S1024x1024 .f32) :
    sout3_C c i arg3 harg3 arg4 harg4 arg5 harg5 arg6 harg6 arg7 harg7 hc0 hc1 x0 x1 x2 xs = k3_pay2 xs x0 x1 := by
  unfold sout3_C
  rw [View.read_writes_eq_canon _ _ _ (scover3_C c i arg3 harg3 arg4 harg4 arg5 harg5 arg6 harg6 arg7 harg7 hc0 hc1 x0 x1 x2 xs)]
  unfold kernelRun3_C
  dsimp only
  sl_unfold_words
  rw [View.canon_unit_zero (S := S1024x1024) hz2_3]
  simp only [View.readAt_eq_ld, harg3.read_unread, harg4.read_unread, harg7.read_unread, View.ld_unit_zero (S := S1024x1024) hz2_3,
    View.ld_unit_zero (S := S1024x1024) hz2_3]

/-- A last step leaves in the output block's buffer that new accumulator plus the bias row. -/
theorem out3_C_eq (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond3_0 i) (hc1 : cond3_1 i) (x0 : Vec F S1024x1024 .bf16) (x1 : Vec F S1024x1024 .bf16) (x2 : Vec F S1x1024 .f32) (xs : Vec F S1024x1024 .f32) :
    out3_C c i arg3 harg3 arg4 harg4 arg5 harg5 arg6 harg6 arg7 harg7 hc0 hc1 x0 x1 x2 xs = k3_pay3 (k3_pay2 xs x0 x1) x2 := by
  unfold out3_C
  rw [View.read_writes_eq_canon _ _ _ (cover3_C c i arg3 harg3 arg4 harg4 arg5 harg5 arg6 harg6 arg7 harg7 hc0 hc1 x0 x1 x2 xs)]
  unfold kernelRun3_C
  dsimp only
  sl_unfold_words
  rw [View.canon_unit_zero (S := S1024x1024) hz2_3, View.readCov_unit_zero (S := S1024x1024) _ hz2_3]
  simp only [View.readAt_eq_ld, harg3.read_unread, harg4.read_unread, harg5.read_unread, harg7.read_unread,
    View.ld_unit_zero (S := S1024x1024) hz2_3, View.ld_unit_zero (S := S1024x1024) hz2_3, View.ld_unit_zero (S := S1x1024) hz2_3]

/-! ## The accumulator and the stored block, point by point, as payloads -/

section
variable (V : (c : Dev nD) → (b : Ref sig .tc) → Buf (Elt F) ((c : Thread nD τ).loc b))

/-- The accumulator's value depends on the point's number only. -/
theorem accAt3_congr (c : Dev nD) {n m : ℕ} (e : n = m) (hn : n < cfg3.N) (hm : m < cfg3.N) :
    accAt3 V c n hn = accAt3 V c m hm := by
  subst e; rfl

/-- After a first step the accumulator is the step's block product added to the zero block. -/
theorem accAt3_first (c : Dev nD) (t : Fin cfg3.N) (h0 : t.val % 4 = 0) :
    accAt3 V c t.val t.isLt = k3_pay2 (k3_pay1 (F := F)) (iblk3 V c 0 t) (iblk3 V c 1 t) :=
  have h1 : ¬t.val % 4 = 3 := by omega
  (accAt3_A V c t h0 h1).trans
    (sout3_A_eq c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t))

/-- After any later step it is the step's block product added to what the step before left. -/
theorem accAt3_next (c : Dev nD) (t : Fin cfg3.N) (h0 : ¬t.val % 4 = 0) :
    accAt3 V c t.val t.isLt
      = k3_pay2 (accAt3 V c (t.val - 1) (Nat.lt_of_le_of_lt (Nat.sub_le _ _) t.isLt)) (iblk3 V c 0 t) (iblk3 V c 1 t) := by
  by_cases h1 : t.val % 4 = 3
  · exact (accAt3_C V c t h0 h1).trans
      (sout3_C_eq c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t)
        (accAt3 V c (t.val - 1) (Nat.lt_of_le_of_lt (Nat.sub_le _ _) t.isLt)))
  · exact (accAt3_B V c t h0 h1).trans
      (sout3_B_eq c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t)
        (accAt3 V c (t.val - 1) (Nat.lt_of_le_of_lt (Nat.sub_le _ _) t.isLt)))

/-- After a last step the output block's buffer holds the accumulator plus the bias row. -/
theorem outAt3_last (c : Dev nD) (t : Fin cfg3.N) (h1 : t.val % 4 = 3) :
    outAt3 V c t.val t.isLt = k3_pay3 (accAt3 V c t.val t.isLt) (iblk3 V c 2 t) := by
  have h0 : ¬t.val % 4 = 0 := by omega
  rw [accAt3_next V c t h0]
  exact (outAt3_C V c t h0 h1).trans
    (out3_C_eq c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t)
      (accAt3 V c (t.val - 1) (Nat.lt_of_le_of_lt (Nat.sub_le _ _) t.isLt)))

end

/-! ## At the extended reals: the running sum of the block products -/

section
variable (V : (c : Dev nD) → (b : Ref sig .tc) → Buf (Elt Ideal) ((c : Thread nD τ).loc b))

open Idealize.ShloMosaic.ValueIdx

/-- Row p of an activation block against row q of a weight block: the sum over the block's fan-in axis of the products. -/
def dotRows3 (a : Vec Ideal S1024x1024 .bf16) (b : Vec Ideal S1024x1024 .bf16) (p : Fin 1024) (q : Fin 1024) : EReal :=
  ∑ kk : Fin 1024, a (ix2 p kk) * b (ix2 q kk)

/-- Entry (p, q) of the block product at point t. -/
def prod3 (c : Dev nD) (t : Fin cfg3.N) (p : Fin 1024) (q : Fin 1024) : EReal :=
  dotRows3 (iblk3 V c 0 t) (iblk3 V c 1 t) p q

/-- The block product of step kb of the output block that starts at point t0 (zero past the grid's end). -/
def term3 (c : Dev nD) (t0 : ℕ) (p : Fin 1024) (q : Fin 1024) (kb : ℕ) : EReal :=
  if hk : t0 + kb < cfg3.N then prod3 V c ⟨t0 + kb, hk⟩ p q else 0

theorem term3_of_lt (c : Dev nD) (t0 : ℕ) (p : Fin 1024) (q : Fin 1024) (kb : ℕ) (hk : t0 + kb < cfg3.N) :
    term3 V c t0 p q kb = prod3 V c ⟨t0 + kb, hk⟩ p q := dif_pos hk

theorem accAt3_first_at (c : Dev nD) (t : Fin cfg3.N) (h0 : t.val % 4 = 0) (p : Fin 1024) (q : Fin 1024) :
    accAt3 (F := Ideal) V c t.val t.isLt (ix2 p q) = 0 + prod3 V c t p q := by
  rw [accAt3_first V c t h0]
  exact (Cert.MLP.Pay.k3_pay2_at _ (iblk3 V c 0 t) (iblk3 V c 1 t) p q).trans
    (congrArg (· + prod3 V c t p q) (Cert.MLP.Pay.k3_pay1_at (ix2 p q)))

theorem accAt3_next_at (c : Dev nD) (t : Fin cfg3.N) (h0 : ¬t.val % 4 = 0) (p : Fin 1024) (q : Fin 1024) :
    accAt3 (F := Ideal) V c t.val t.isLt (ix2 p q)
      = accAt3 (F := Ideal) V c (t.val - 1) (Nat.lt_of_le_of_lt (Nat.sub_le _ _) t.isLt) (ix2 p q) + prod3 V c t p q := by
  rw [accAt3_next V c t h0]
  exact Cert.MLP.Pay.k3_pay2_at _ (iblk3 V c 0 t) (iblk3 V c 1 t) p q

/-- The accumulator after step k of the output block that starts at point t0 is the running sum of the block
    products of steps 0, …, k. -/
theorem accAt3_acc (c : Dev nD) (t0 : ℕ) (h0 : t0 % 4 = 0) (p : Fin 1024) (q : Fin 1024) :
    ∀ (k : ℕ) (_ : k ≤ 3) (h : t0 + k < cfg3.N),
      accAt3 (F := Ideal) V c (t0 + k) h (ix2 p q) = Cert.MLP.acc (term3 V c t0 p q) k
  | 0, _, h => by
    refine (accAt3_first_at V c ⟨t0 + 0, h⟩ (by dsimp only; omega) p q).trans ?_
    rw [Cert.MLP.acc, term3_of_lt V c t0 p q 0 h]
  | k + 1, hk, h => by
    refine (accAt3_next_at V c ⟨t0 + (k + 1), h⟩ (by dsimp only; omega) p q).trans ?_
    rw [Cert.MLP.acc, term3_of_lt V c t0 p q (k + 1) h]
    refine congrArg (· + prod3 V c ⟨t0 + (k + 1), h⟩ p q) ?_
    refine (congrFun (accAt3_congr V c (show (⟨t0 + (k + 1), h⟩ : Fin cfg3.N).val - 1 = t0 + k by dsimp only; omega) _ (by omega)) (ix2 p q)).trans ?_
    exact accAt3_acc c t0 h0 p q k (by omega) (by omega)

/-- The same as a sum over the steps. -/
theorem accAt3_sum (c : Dev nD) (t0 : ℕ) (h0 : t0 % 4 = 0) (p : Fin 1024) (q : Fin 1024) (k : ℕ) (hk : k ≤ 3) (h : t0 + k < cfg3.N) :
    accAt3 (F := Ideal) V c (t0 + k) h (ix2 p q) = ∑ kb ∈ Finset.range (k + 1), term3 V c t0 p q kb :=
  (accAt3_acc V c t0 h0 p q k hk h).trans (Cert.MLP.acc_eq_sum _ k)

/-- Entry q of a bias row block. -/
def biasAt3 (b : Vec Ideal S1x1024 .f32) (q : Fin 1024) : EReal := b (ix2 0 q)

/-- The stored output block at a last step: the accumulator plus the bias. -/
theorem outAt3_last_at (c : Dev nD) (t : Fin cfg3.N) (h1 : t.val % 4 = 3) (p : Fin 1024) (q : Fin 1024) :
    outAt3 (F := Ideal) V c t.val t.isLt (ix2 p q)
      = accAt3 (F := Ideal) V c t.val t.isLt (ix2 p q) + biasAt3 (iblk3 V c 2 t) q := by
  rw [outAt3_last V c t h1]
  exact Cert.MLP.Pay.k3_pay3_at _ (iblk3 V c 2 t) p q

end

end Cert.KernelIdeal.Hand

end
-- ==== Proof.IH3Blocks.lean ====
/-
  Layer 3's kernel region: where its blocks sit in their arrays, and the output array assembled from its blocks.

  The grid has 8 row blocks of 1024 rows, 1 column block of 1024 output columns and 4 fan-in blocks of 1024, numbered with the
  fan-in innermost: point `t` is row block `t / 4`, there is one column block, fan-in block `t % 4`. The activations' block at
  `t` is block (row block, fan-in block) of their array, the weight's is block (column block, fan-in block), the bias's is block
  (0, column block) and the output's is block (row block, column block). A block's coordinate in its array is always the block's
  index times the block's size plus the coordinate inside the block.

  The output array is written back at the last fan-in step of each output block, and those 8 blocks tile it: if every one of them
  agrees with one whole-array function on its rectangle, the array ends equal to that function.
-/
import proofs.«122649_j45518063403493_2_alg».proof.Proof.IH3Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The block indices, in closed form over the grid -/

theorem blockIdx3 : ∀ t : Fin cfg3.N,
    win3_0.index t (0 : Fin 2) = t.val / 4 ∧ win3_0.index t (1 : Fin 2) = t.val % 4
    ∧ win3_1.index t (0 : Fin 2) = 0 ∧ win3_1.index t (1 : Fin 2) = t.val % 4
    ∧ win3_2.index t (0 : Fin 2) = 0 ∧ win3_2.index t (1 : Fin 2) = 0
    ∧ win3_3.index t (0 : Fin 2) = t.val / 4 ∧ win3_3.index t (1 : Fin 2) = 0 :=
  (by decide +kernel : ∀ t : Fin grid3.N, _)

/-! ## An array read through a window's block -/

/-- The activations' array through its block at `t`. -/
theorem readBlk3_0 (X : S8192x4096.Idx → Elt F .bf16) (t : Fin cfg3.N) (p : Fin 1024) (kk : Fin 1024) :
    (((cfg3.win 0).blk t).view.read (Elt F) X : Vec F S1024x1024 .bf16) (ix2 p kk)
      = X (ix2 (⟨(t.val / 4) * 1024 + p.val, by have := t.isLt; have hN : cfg3.N = 32 := N_3; omega⟩ : Fin 8192) (⟨(t.val % 4) * 1024 + kk.val, by omega⟩ : Fin 4096)) := by
  obtain ⟨e0, e1, -⟩ := blockIdx3 t
  rw [View.read_apply]
  show X _ = _
  congr 1
  funext a; apply Fin.ext
  match a with
  | ⟨0, _⟩ => show win3_0.index t (0 : Fin 2) * 1024 + 1 * p.val = _; rw [e0]; show _ = (t.val / 4) * 1024 + p.val; omega
  | ⟨1, _⟩ => show win3_0.index t (1 : Fin 2) * 1024 + 1 * kk.val = _; rw [e1]; show _ = (t.val % 4) * 1024 + kk.val; omega

/-- The weight's array through its block at `t`. -/
theorem readBlk3_1 (X : S1024x4096.Idx → Elt F .bf16) (t : Fin cfg3.N) (q : Fin 1024) (kk : Fin 1024) :
    (((cfg3.win 1).blk t).view.read (Elt F) X : Vec F S1024x1024 .bf16) (ix2 q kk)
      = X (ix2 q (⟨(t.val % 4) * 1024 + kk.val, by omega⟩ : Fin 4096)) := by
  obtain ⟨-, -, e0, e1, -⟩ := blockIdx3 t
  rw [View.read_apply]
  show X _ = _
  congr 1
  funext a; apply Fin.ext
  match a with
  | ⟨0, _⟩ => show win3_1.index t (0 : Fin 2) * 1024 + 1 * q.val = _; rw [e0]; show _ = q.val; omega
  | ⟨1, _⟩ => show win3_1.index t (1 : Fin 2) * 1024 + 1 * kk.val = _; rw [e1]; show _ = (t.val % 4) * 1024 + kk.val; omega

/-- The bias row through its block at `t`. -/
theorem readBlk3_2 (X : S1x1024.Idx → Elt F .f32) (t : Fin cfg3.N) (q : Fin 1024) :
    (((cfg3.win 2).blk t).view.read (Elt F) X : Vec F S1x1024 .f32) (ix2 (0 : Fin 1) q)
      = X (ix2 (0 : Fin 1) q) := by
  obtain ⟨-, -, -, -, e0, e1, -⟩ := blockIdx3 t
  rw [View.read_apply]
  show X _ = _
  congr 1
  funext a; apply Fin.ext
  match a with
  | ⟨0, _⟩ => show win3_2.index t (0 : Fin 2) * 1 + 1 * 0 = 0; rw [e0]
  | ⟨1, _⟩ => show win3_2.index t (1 : Fin 2) * 1024 + 1 * q.val = _; rw [e1]; show _ = q.val; omega

/-- The output array through its block at `t`. -/
theorem readBlk3_3 (X : S8192x1024.Idx → Elt F .f32) (t : Fin cfg3.N) (p : Fin 1024) (q : Fin 1024) :
    (((cfg3.win 3).blk t).view.read (Elt F) X : Vec F S1024x1024 .f32) (ix2 p q)
      = X (ix2 (⟨(t.val / 4) * 1024 + p.val, by have := t.isLt; have hN : cfg3.N = 32 := N_3; omega⟩ : Fin 8192) q) := by
  obtain ⟨-, -, -, -, -, -, e0, e1⟩ := blockIdx3 t
  rw [View.read_apply]
  show X _ = _
  congr 1
  funext a; apply Fin.ext
  match a with
  | ⟨0, _⟩ => show win3_3.index t (0 : Fin 2) * 1024 + 1 * p.val = _; rw [e0]; show _ = (t.val / 4) * 1024 + p.val; omega
  | ⟨1, _⟩ => show win3_3.index t (1 : Fin 2) * 1024 + 1 * q.val = _; rw [e1]; show _ = q.val; omega

section
variable (V : (c : Dev nD) → (b : Ref sig .tc) → Buf (Elt F) ((c : Thread nD τ).loc b))

/-! ## The input blocks, as the region finds them -/

theorem iblk3_0_apply (c : Dev nD) (t : Fin cfg3.N) (p : Fin 1024) (kk : Fin 1024) :
    (iblk3 V c 0 t : Vec F S1024x1024 .bf16) (ix2 p kk)
      = (V c (Pipeline.arrRef spec3 0) : S8192x4096.Idx → Elt F .bf16) (ix2 (⟨(t.val / 4) * 1024 + p.val, by have := t.isLt; have hN : cfg3.N = 32 := N_3; omega⟩ : Fin 8192) (⟨(t.val % 4) * 1024 + kk.val, by omega⟩ : Fin 4096)) :=
  readBlk3_0 (V c (Pipeline.arrRef spec3 0)) t p kk

theorem iblk3_1_apply (c : Dev nD) (t : Fin cfg3.N) (q : Fin 1024) (kk : Fin 1024) :
    (iblk3 V c 1 t : Vec F S1024x1024 .bf16) (ix2 q kk)
      = (V c (Pipeline.arrRef spec3 1) : S1024x4096.Idx → Elt F .bf16) (ix2 q (⟨(t.val % 4) * 1024 + kk.val, by omega⟩ : Fin 4096)) :=
  readBlk3_1 (V c (Pipeline.arrRef spec3 1)) t q kk

theorem iblk3_2_apply (c : Dev nD) (t : Fin cfg3.N) (q : Fin 1024) :
    (iblk3 V c 2 t : Vec F S1x1024 .f32) (ix2 (0 : Fin 1) q)
      = (V c (Pipeline.arrRef spec3 2) : S1x1024.Idx → Elt F .f32) (ix2 (0 : Fin 1) q) :=
  readBlk3_2 (V c (Pipeline.arrRef spec3 2)) t q

/-! ## The output array from its blocks -/

/-- An index of the output array is in point `t`'s block iff each coordinate is in the block's range on its axis. -/
theorem mem_blk3_3 (t : Fin cfg3.N) (i : S8192x1024.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v16).slice (win3_3.rect t)).set ↔ _
  rw [View.set_slice_whole, Rect.mem_set_unit]
  exact Iff.rfl

/-- What a last step writes back, when the stored block agrees with `G` on its rectangle, is that block of `G`. -/
theorem flushed3_3_of (c : Dev nD) (G : S8192x1024.Idx → Elt F .f32) (t : Fin cfg3.N)
    (hG : ∀ (p : Fin 1024) (q : Fin 1024), outAt3 V c t.val t.isLt (ix2 p q)
      = G (ix2 (⟨(t.val / 4) * 1024 + p.val, by have := t.isLt; have hN : cfg3.N = 32 := N_3; omega⟩ : Fin 8192) q)) :
    (dat3 V c).flushed 3 t = ((cfg3.win 3).blk t).view.read (Elt F) G := by
  show (cfg3.win 3).cut (grid3.coords t) ((dat3 V c).after 3 t) = _
  rw [after3_3]
  refine funext fun (j : S1024x1024.Idx) => ?_
  obtain ⟨p, q, rfl⟩ : ∃ (p : Fin 1024) (q : Fin 1024), j = ix2 p q := ⟨j 0, j 1, eq_ix2 j⟩
  show outAt3 V c t.val t.isLt (ix2 p q) = (((cfg3.win 3).blk t).view.read (Elt F) G : Vec F S1024x1024 .f32) (ix2 p q)
  rw [hG p q, readBlk3_3]

/-- The output array after the region: any `G` that every stored block agrees with on its rectangle. -/
theorem arr3_of (c : Dev nD) (G : S8192x1024.Idx → Elt F .f32)
    (hG : ∀ t : Fin cfg3.N, t.val % 4 = 3 → ∀ (p : Fin 1024) (q : Fin 1024), outAt3 V c t.val t.isLt (ix2 p q)
      = G (ix2 (⟨(t.val / 4) * 1024 + p.val, by have := t.isLt; have hN : cfg3.N = 32 := N_3; omega⟩ : Fin 8192) q)) :
    (dat3 V c).arrAt 3 cfg3.N = G := by
  refine (dat3 V c).arrAt_eq_of_cover 3 G (fun t hf => flushed3_3_of V c G t (hG t ((flush3_3 t).mp hf))) (fun i => ?_)
  have hN : cfg3.N = 32 := N_3
  have hi0 : (i 0).val < 8192 := (i 0).isLt
  have hi1 : (i 1).val < 1024 := (i 1).isLt
  -- the point that covers (r, s): row block r / 1024, column block s / 1024, last fan-in step
  have ht : ((i 0).val / 1024) * 4 + 3 < cfg3.N := by omega
  refine ⟨⟨((i 0).val / 1024) * 4 + 3, ht⟩, (flush3_3 _).mpr (by show (((i 0).val / 1024) * 4 + 3) % 4 = 3; omega), ?_⟩
  rw [mem_blk3_3]
  obtain ⟨-, -, -, -, -, -, e0, e1⟩ := blockIdx3 ⟨((i 0).val / 1024) * 4 + 3, ht⟩
  intro a
  match a with
  | ⟨0, _⟩ =>
    show win3_3.index _ (0 : Fin 2) * 1024 ≤ (i 0).val ∧ (i 0).val < win3_3.index _ (0 : Fin 2) * 1024 + 1024
    rw [e0]; show (((i 0).val / 1024) * 4 + 3) / 4 * 1024 ≤ (i 0).val ∧ (i 0).val < (((i 0).val / 1024) * 4 + 3) / 4 * 1024 + 1024
    omega
  | ⟨1, _⟩ =>
    show win3_3.index _ (1 : Fin 2) * 1024 ≤ (i 1).val ∧ (i 1).val < win3_3.index _ (1 : Fin 2) * 1024 + 1024
    rw [e1]; show 0 * 1024 ≤ (i 1).val ∧ (i 1).val < 0 * 1024 + 1024
    omega

end

end Cert.KernelIdeal.Hand

end
-- ==== Proof.IH3Val.lean ====
/-
  Layer 3's kernel region, as a value: after the region the output array is the last layer of the three arrays the
  region reads — the activations, the masked weight and the bias row.

  At the last fan-in step of an output block the stored entry (p, q) is the accumulator plus the bias; the accumulator is
  the running sum of the four block products of the block's steps; the block product of step kb is the contraction of row
  r of the activations with row q of the masked weight inside fan-in block kb, where r is the row of p in the whole
  array (there is one column block, so q is its own column); and the four blocks make up the whole fan-in axis.
-/
import proofs.«122649_j45518063403493_2_alg».proof.Proof.IH3Acc
import proofs.«122649_j45518063403493_2_alg».proof.Proof.IH3Blocks
import proofs.«122649_j45518063403493_2_alg».proof.Proof.KLayer
import proofs.«122649_j45518063403493_2_alg».proof.Proof.LibBlockedContraction

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

section
variable (V : (c : Dev nD) → (b : Ref sig .tc) → Buf (Elt Ideal) ((c : Thread nD τ).loc b))

/-- The region's three input arrays as the region finds them: the activations, the masked weight, the bias row. -/
def X3 (c : Dev nD) : Cert.MLP.Mat 8192 4096 := V c (Pipeline.arrRef spec3 0)
def Wm3 (c : Dev nD) : Cert.MLP.Mat 1024 4096 := V c (Pipeline.arrRef spec3 1)
def B3 (c : Dev nD) : Cert.MLP.Mat 1 1024 := V c (Pipeline.arrRef spec3 2)

/-- The block product at a point whose fan-in block is `kb`, for the output entry (r, q) that the point's block
    entry (p, q) is: the contraction of row r of the activations with row q of the masked weight inside block `kb`. -/
theorem prod3_arr (c : Dev nD) (t : Fin cfg3.N) (p : Fin 1024) (q : Fin 1024) (r : Fin 8192) (kb : ℕ) (hkb : kb < 4)
    (hr : r.val = (t.val / 4) * 1024 + p.val) (hk : t.val % 4 = kb) :
    prod3 V c t p q = ∑ kk : Fin 1024,
      X3 V c (ix2 r ⟨kb * 1024 + kk.val, Cert.MLP.blk_lt hkb kk.isLt⟩) * Wm3 V c (ix2 q ⟨kb * 1024 + kk.val, Cert.MLP.blk_lt hkb kk.isLt⟩) := by
  unfold prod3 dotRows3
  refine Finset.sum_congr rfl fun kk _ => ?_
  have e0 : (iblk3 V c 0 t : Vec Ideal S1024x1024 .bf16) (ix2 p kk) = X3 V c (ix2 r ⟨kb * 1024 + kk.val, Cert.MLP.blk_lt hkb kk.isLt⟩) :=
    (iblk3_0_apply V c t p kk).trans (congrArg (X3 V c) (congrArg₂ ix2 (Fin.ext (by dsimp only; omega)) (Fin.ext (by dsimp only; omega))))
  have e1 : (iblk3 V c 1 t : Vec Ideal S1024x1024 .bf16) (ix2 q kk) = Wm3 V c (ix2 q ⟨kb * 1024 + kk.val, Cert.MLP.blk_lt hkb kk.isLt⟩) :=
    (iblk3_1_apply V c t q kk).trans (congrArg (Wm3 V c) (congrArg₂ ix2 rfl (Fin.ext (by dsimp only; omega))))
  rw [e0, e1]

/-- The block stored at a last step is the last layer of the arrays on the block's rectangle. -/
theorem outAt3_val (c : Dev nD) (t : Fin cfg3.N) (h3 : t.val % 4 = 3) (p : Fin 1024) (q : Fin 1024) (r : Fin 8192)
    (hr : r.val = (t.val / 4) * 1024 + p.val) :
    outAt3 (F := Ideal) V c t.val t.isLt (ix2 p q) = Cert.MLP.klin (X3 V c) (Wm3 V c) (B3 V c) (ix2 r q) := by
  rw [Cert.MLP.klin_ix2, outAt3_last_at V c t h3 p q]
  unfold Cert.MLP.kpreAt
  have hN : cfg3.N = 32 := N_3
  have ht := t.isLt
  have hacc : accAt3 (F := Ideal) V c t.val t.isLt (ix2 p q) = ∑ k : Fin 4096, X3 V c (ix2 r k) * Wm3 V c (ix2 q k) := by
    have h3' : t.val - 3 + 3 < cfg3.N := by omega
    refine (congrFun (accAt3_congr V c (show t.val = t.val - 3 + 3 by omega) t.isLt h3') (ix2 p q)).trans ?_
    refine (accAt3_acc V c (t.val - 3) (by omega) p q 3 (le_refl 3) h3').trans ?_
    exact Cert.MLP.acc_blocks_contraction 3 1024 (X3 V c) (Wm3 V c) r q _ (fun kb hkb => by
      have hlt : t.val - 3 + kb < cfg3.N := by omega
      rw [term3_of_lt V c (t.val - 3) p q kb hlt]
      exact prod3_arr V c ⟨t.val - 3 + kb, hlt⟩ p q r kb hkb (by dsimp only; omega) (by dsimp only; omega))
  have hb : biasAt3 (iblk3 V c 2 t) q = B3 V c (ix2 (0 : Fin 1) q) := by
    unfold biasAt3
    exact iblk3_2_apply V c t q
  rw [hacc, hb]

/-- After the region the output array is the last layer of the three input arrays. -/
theorem arr3_val (c : Dev nD) :
    (dat3 (F := Ideal) V c).arrAt 3 cfg3.N
      = Cert.MLP.klin (B := 8192) (K := 4096) (N := 1024) (V c (Pipeline.arrRef spec3 0)) (V c (Pipeline.arrRef spec3 1)) (V c (Pipeline.arrRef spec3 2)) :=
  arr3_of V c (Cert.MLP.klin (X3 V c) (Wm3 V c) (B3 V c)) (fun t h3 p q => outAt3_val V c t h3 p q _ rfl)

end

end Cert.KernelIdeal.Hand

end
-- ==== Proof.IHNet.lean ====
/-
  The kernel's result array as the network of the specification.

  Each region's output array is its layer applied to the region's three windowed arrays. Read at the region's entry,
  those are: the activations — the input itself for the first region (narrowing a float is the identity on the extended
  reals), the previous region's output array for the others, which no host operation in between writes —; the masked
  weight, the entrywise product of weight and mask formed by the first host stretch and untouched since; and the bias
  laid out as one row by the host stretch just before the region. Composing the four layers gives the network.
-/
import proofs.«122649_j45518063403493_2_alg».proof.Proof.IHRun
import proofs.«122649_j45518063403493_2_alg».proof.Proof.KLayer
import proofs.«122649_j45518063403493_2_alg».proof.Proof.IH0Val
import proofs.«122649_j45518063403493_2_alg».proof.Proof.IH1Val
import proofs.«122649_j45518063403493_2_alg».proof.Proof.IH2Val
import proofs.«122649_j45518063403493_2_alg».proof.Proof.IH3Val
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-! ## What the first host stretch leaves -/

theorem W1_v8 : W1 m c (Proc.devRef .tc main_v8) = m ((c : Thread nD τ).loc main_arg0) := by
  show StableHlo.after hostOps0 (fun b => m (c, b)) (Proc.devRef .tc main_v8) = _
  after_results <;> rfl

theorem W1_v1 : W1 m c (Proc.devRef .tc main_v1) = truncf (F := Ideal) (s := S8192x4096) (φ := .f32) .bf16 (mulf (F := Ideal) (s := S8192x4096) (φ := .f32) (m ((c : Thread nD τ).loc main_arg1)) (m ((c : Thread nD τ).loc main_arg3))) bitsLt_bf16_f32 := by
  show StableHlo.after hostOps0 (fun b => m (c, b)) (Proc.devRef .tc main_v1) = _
  after_results <;> rfl

theorem W1_v3 : W1 m c (Proc.devRef .tc main_v3) = truncf (F := Ideal) (s := S8192x8192) (φ := .f32) .bf16 (mulf (F := Ideal) (s := S8192x8192) (φ := .f32) (m ((c : Thread nD τ).loc main_arg4)) (m ((c : Thread nD τ).loc main_arg6))) bitsLt_bf16_f32 := by
  show StableHlo.after hostOps0 (fun b => m (c, b)) (Proc.devRef .tc main_v3) = _
  after_results <;> rfl

theorem W1_v5 : W1 m c (Proc.devRef .tc main_v5) = truncf (F := Ideal) (s := S4096x8192) (φ := .f32) .bf16 (mulf (F := Ideal) (s := S4096x8192) (φ := .f32) (m ((c : Thread nD τ).loc main_arg7)) (m ((c : Thread nD τ).loc main_arg9))) bitsLt_bf16_f32 := by
  show StableHlo.after hostOps0 (fun b => m (c, b)) (Proc.devRef .tc main_v5) = _
  after_results <;> rfl

theorem W1_v7 : W1 m c (Proc.devRef .tc main_v7) = truncf (F := Ideal) (s := S1024x4096) (φ := .f32) .bf16 (mulf (F := Ideal) (s := S1024x4096) (φ := .f32) (m ((c : Thread nD τ).loc main_arg10)) (m ((c : Thread nD τ).loc main_arg12))) bitsLt_bf16_f32 := by
  show StableHlo.after hostOps0 (fun b => m (c, b)) (Proc.devRef .tc main_v7) = _
  after_results <;> rfl

theorem W1_v9 : W1 m c (Proc.devRef .tc main_v9) = shapeCast S1x8192 (m ((c : Thread nD τ).loc main_arg2)) shapeCasts_S8192_S1x8192 := by
  show StableHlo.after hostOps0 (fun b => m (c, b)) (Proc.devRef .tc main_v9) = _
  after_results <;> rfl

/-! ## Buffers carried untouched to a later region's entry -/

theorem W2_keep (r : Ref sig .tc) (a0 : ∀ w, Pipeline.arrRef spec0 w ≠ r) : W2 m c (Proc.devRef .tc r) = W1 m c (Proc.devRef .tc r) := W2_of_ne m c r a0
theorem W3_keep (r : Ref sig .tc) (h1 : r ∉ hostOps1_W) : W3 m c (Proc.devRef .tc r) = W2 m c (Proc.devRef .tc r) :=
  StableHlo.after_of_writes_sub hostOps1 _ hostOps1_writes h1
theorem W4_keep (r : Ref sig .tc) (a1 : ∀ w, Pipeline.arrRef spec1 w ≠ r) : W4 m c (Proc.devRef .tc r) = W3 m c (Proc.devRef .tc r) := W4_of_ne m c r a1
theorem W5_keep (r : Ref sig .tc) (h2 : r ∉ hostOps2_W) : W5 m c (Proc.devRef .tc r) = W4 m c (Proc.devRef .tc r) :=
  StableHlo.after_of_writes_sub hostOps2 _ hostOps2_writes h2
theorem W6_keep (r : Ref sig .tc) (a2 : ∀ w, Pipeline.arrRef spec2 w ≠ r) : W6 m c (Proc.devRef .tc r) = W5 m c (Proc.devRef .tc r) := W6_of_ne m c r a2
theorem W7_keep (r : Ref sig .tc) (h3 : r ∉ hostOps3_W) : W7 m c (Proc.devRef .tc r) = W6 m c (Proc.devRef .tc r) :=
  StableHlo.after_of_writes_sub hostOps3 _ hostOps3_writes h3
theorem W1_arg (r : Ref sig .tc) (h0 : r ∉ hostOps0_W) : W1 m c (Proc.devRef .tc r) = m ((c : Thread nD τ).loc r) :=
  StableHlo.after_of_writes_sub hostOps0 _ hostOps0_writes h0

/-! ## The bias rows -/

theorem W3_v11 : W3 m c (Proc.devRef .tc main_v11) = shapeCast S1x8192 (m ((c : Thread nD τ).loc main_arg5)) shapeCasts_S8192_S1x8192 := by
  have e : W2 m c (Proc.devRef .tc main_arg5) = m ((c : Thread nD τ).loc main_arg5) :=
    (W2_keep m c main_arg5 (by decide)).trans (W1_arg m c main_arg5 (by decide))
  rw [← e]
  show StableHlo.after hostOps1 (W2 m c) (Proc.devRef .tc main_v11) = _
  after_results <;> rfl

theorem W5_v13 : W5 m c (Proc.devRef .tc main_v13) = shapeCast S1x4096 (m ((c : Thread nD τ).loc main_arg8)) shapeCasts_S4096_S1x4096 := by
  have e : W4 m c (Proc.devRef .tc main_arg8) = m ((c : Thread nD τ).loc main_arg8) :=
    (W4_keep m c main_arg8 (by decide)).trans ((W3_keep m c main_arg8 (by decide)).trans ((W2_keep m c main_arg8 (by decide)).trans (W1_arg m c main_arg8 (by decide))))
  rw [← e]
  show StableHlo.after hostOps2 (W4 m c) (Proc.devRef .tc main_v13) = _
  after_results <;> rfl

theorem W7_v15 : W7 m c (Proc.devRef .tc main_v15) = shapeCast S1x1024 (m ((c : Thread nD τ).loc main_arg11)) shapeCasts_S1024_S1x1024 := by
  have e : W6 m c (Proc.devRef .tc main_arg11) = m ((c : Thread nD τ).loc main_arg11) :=
    (W6_keep m c main_arg11 (by decide)).trans ((W5_keep m c main_arg11 (by decide)).trans ((W4_keep m c main_arg11 (by decide)).trans ((W3_keep m c main_arg11 (by decide)).trans ((W2_keep m c main_arg11 (by decide)).trans (W1_arg m c main_arg11 (by decide))))))
  rw [← e]
  show StableHlo.after hostOps3 (W6 m c) (Proc.devRef .tc main_v15) = _
  after_results <;> rfl

/-! ## The masked weights at the later regions' entries -/

theorem W3_v3 : W3 m c (Proc.devRef .tc main_v3) = truncf (F := Ideal) (s := S8192x8192) (φ := .f32) .bf16 (mulf (F := Ideal) (s := S8192x8192) (φ := .f32) (m ((c : Thread nD τ).loc main_arg4)) (m ((c : Thread nD τ).loc main_arg6))) bitsLt_bf16_f32 :=
  (W3_keep m c main_v3 (by decide)).trans ((W2_keep m c main_v3 (by decide)).trans (W1_v3 m c))
theorem W5_v5 : W5 m c (Proc.devRef .tc main_v5) = truncf (F := Ideal) (s := S4096x8192) (φ := .f32) .bf16 (mulf (F := Ideal) (s := S4096x8192) (φ := .f32) (m ((c : Thread nD τ).loc main_arg7)) (m ((c : Thread nD τ).loc main_arg9))) bitsLt_bf16_f32 :=
  (W5_keep m c main_v5 (by decide)).trans ((W4_keep m c main_v5 (by decide)).trans ((W3_keep m c main_v5 (by decide)).trans ((W2_keep m c main_v5 (by decide)).trans (W1_v5 m c))))
theorem W7_v7 : W7 m c (Proc.devRef .tc main_v7) = truncf (F := Ideal) (s := S1024x4096) (φ := .f32) .bf16 (mulf (F := Ideal) (s := S1024x4096) (φ := .f32) (m ((c : Thread nD τ).loc main_arg10)) (m ((c : Thread nD τ).loc main_arg12))) bitsLt_bf16_f32 :=
  (W7_keep m c main_v7 (by decide)).trans ((W6_keep m c main_v7 (by decide)).trans ((W5_keep m c main_v7 (by decide)).trans ((W4_keep m c main_v7 (by decide)).trans ((W3_keep m c main_v7 (by decide)).trans ((W2_keep m c main_v7 (by decide)).trans (W1_v7 m c))))))

/-! ## Each region's output feeds the next -/

theorem W3_v10 : W3 m c (Proc.devRef .tc main_v10) = (dat0 (V1 m) c).arrAt 3 cfg0.N :=
  (W3_keep m c main_v10 (by decide)).trans (W2_arr m c 3)
theorem W5_v12 : W5 m c (Proc.devRef .tc main_v12) = (dat1 (V3 m) c).arrAt 3 cfg1.N :=
  (W5_keep m c main_v12 (by decide)).trans (W4_arr m c 3)
theorem W7_v14 : W7 m c (Proc.devRef .tc main_v14) = (dat2 (V5 m) c).arrAt 3 cfg2.N :=
  (W7_keep m c main_v14 (by decide)).trans (W6_arr m c 3)

/-! ## The four layers -/

theorem layer0 : (dat0 (V1 m) c).arrAt 3 cfg0.N
    = Cert.MLP.hid (B := 8192) (K := 4096) (N := 8192) (m ((c : Thread nD τ).loc main_arg0)) (m ((c : Thread nD τ).loc main_arg1)) (m ((c : Thread nD τ).loc main_arg3)) (m ((c : Thread nD τ).loc main_arg2)) := by
  rw [arr0_val (V1 m) c]
  show Cert.MLP.khid (B := 8192) (K := 4096) (N := 8192) (W1 m c (Proc.devRef .tc main_v8)) (W1 m c (Proc.devRef .tc main_v1)) (W1 m c (Proc.devRef .tc main_v9)) = _
  rw [W1_v8, W1_v1, W1_v9]
  exact Cert.MLP.khid_eq _ _ _ _ _ _ (fun i => rfl) (fun q => shapeCast_a_1a_apply _ _ _ _)

theorem layer1 : (dat1 (V3 m) c).arrAt 3 cfg1.N
    = Cert.MLP.hid (B := 8192) (K := 8192) (N := 8192) ((dat0 (V1 m) c).arrAt 3 cfg0.N) (m ((c : Thread nD τ).loc main_arg4)) (m ((c : Thread nD τ).loc main_arg6)) (m ((c : Thread nD τ).loc main_arg5)) := by
  rw [arr1_val (V3 m) c]
  show Cert.MLP.khid (B := 8192) (K := 8192) (N := 8192) (W3 m c (Proc.devRef .tc main_v10)) (W3 m c (Proc.devRef .tc main_v3)) (W3 m c (Proc.devRef .tc main_v11)) = _
  rw [W3_v10, W3_v3, W3_v11]
  exact Cert.MLP.khid_eq _ _ _ _ _ _ (fun i => rfl) (fun q => shapeCast_a_1a_apply _ _ _ _)

theorem layer2 : (dat2 (V5 m) c).arrAt 3 cfg2.N
    = Cert.MLP.hid (B := 8192) (K := 8192) (N := 4096) ((dat1 (V3 m) c).arrAt 3 cfg1.N) (m ((c : Thread nD τ).loc main_arg7)) (m ((c : Thread nD τ).loc main_arg9)) (m ((c : Thread nD τ).loc main_arg8)) := by
  rw [arr2_val (V5 m) c]
  show Cert.MLP.khid (B := 8192) (K := 8192) (N := 4096) (W5 m c (Proc.devRef .tc main_v12)) (W5 m c (Proc.devRef .tc main_v5)) (W5 m c (Proc.devRef .tc main_v13)) = _
  rw [W5_v12, W5_v5, W5_v13]
  exact Cert.MLP.khid_eq _ _ _ _ _ _ (fun i => rfl) (fun q => shapeCast_a_1a_apply _ _ _ _)

theorem layer3 : (dat3 (V7 m) c).arrAt 3 cfg3.N
    = Cert.MLP.lin (B := 8192) (K := 4096) (N := 1024) ((dat2 (V5 m) c).arrAt 3 cfg2.N) (m ((c : Thread nD τ).loc main_arg10)) (m ((c : Thread nD τ).loc main_arg12)) (m ((c : Thread nD τ).loc main_arg11)) := by
  rw [arr3_val (V7 m) c]
  show Cert.MLP.klin (B := 8192) (K := 4096) (N := 1024) (W7 m c (Proc.devRef .tc main_v14)) (W7 m c (Proc.devRef .tc main_v7)) (W7 m c (Proc.devRef .tc main_v15)) = _
  rw [W7_v14, W7_v7, W7_v15]
  exact Cert.MLP.klin_eq _ _ _ _ _ _ (fun i => rfl) (fun q => shapeCast_a_1a_apply _ _ _ _)

/-- The kernel's result array is the network of its argument arrays. -/
theorem kernel_value : (dat3 (V7 m) c).arrAt 3 cfg3.N
    = Cert.MLP.net (m ((c : Thread nD τ).loc main_arg0))
        (m ((c : Thread nD τ).loc main_arg1)) (m ((c : Thread nD τ).loc main_arg3)) (m ((c : Thread nD τ).loc main_arg2))
        (m ((c : Thread nD τ).loc main_arg4)) (m ((c : Thread nD τ).loc main_arg6)) (m ((c : Thread nD τ).loc main_arg5))
        (m ((c : Thread nD τ).loc main_arg7)) (m ((c : Thread nD τ).loc main_arg9)) (m ((c : Thread nD τ).loc main_arg8))
        (m ((c : Thread nD τ).loc main_arg10)) (m ((c : Thread nD τ).loc main_arg12)) (m ((c : Thread nD τ).loc main_arg11)) := by
  rw [layer3, layer2, layer1, layer0]; rfl

end Cert.KernelIdeal.Hand

end
-- ==== Proof.RefNet.lean ====
/-
  The reference program read as the four-layer network.

  Each layer of the reference multiplies the weight by its mask entry by entry, transposes the product, contracts the
  activations with it over the fan-in axis, adds the bias broadcast along the rows and, for the first three layers,
  takes the maximum with a zero array. Read at an output index (p, q) this is the sum over k of
  h (p, k) * (W (q, k) * M (q, k)), plus b q, and then the maximum with 0: the layer of the shared specification.
  The four layers compose to the network.
-/
import proofs.«122649_j45518063403493_2_alg».proof.Proof.Gen.ReferenceIdeal.Read
import proofs.«122649_j45518063403493_2_alg».proof.Proof.LayerSpec

noncomputable section

namespace Cert.MLP.Ref

open Cert.ReferenceIdeal Cert.ReferenceIdeal.Read Idealize.ShloMosaic Idealize.ShloMosaic.ValueIdx

/-- The first layer: the stage after the first maximum is the hidden layer of the input. -/
theorem layer0 (x W0 : (⟨S8192x4096, .f32⟩ : BufTy).Contents (Elt Ideal)) (b0 : (⟨S8192, .f32⟩ : BufTy).Contents (Elt Ideal))
    (M0 : (⟨S8192x4096, .f32⟩ : BufTy).Contents (Elt Ideal)) :
    val_main_v6 (F := Ideal) x W0 b0 M0 = Cert.MLP.hid (B := 8192) (K := 4096) (N := 8192) x W0 M0 b0 := by
  funext j
  obtain ⟨p, q, rfl⟩ : ∃ (p : Fin 8192) (q : Fin 8192), j = ix2 p q := ⟨j 0, j 1, eq_ix2 j⟩
  rw [val_main_v6_apply, val_main_v5_apply, val_main_v2_apply, val_main_v4_apply, val_main_v3_apply, val_main_call0_v0_apply, val_main_call0_cst_apply]
  simp only [val_main_v1_apply, val_main_v0_apply, Ideal.mulf_def, Ideal.addf_def, Ideal.maximumf_def, Ideal.ofBits_def,
    Ideal.ofBits_zero_f32]
  rw [Cert.MLP.hid_ix2]
  unfold Cert.MLP.preAt
  have e1 : ∀ k : Fin 4096, lidx_main_v2 (ix2 p q) k = ix2 p k := fun k => funext fun a => Fin.ext (by
    match a with
    | ⟨0, _⟩ => rfl
    | ⟨1, _⟩ => rfl)
  have e2 : ∀ k : Fin 4096, idx_main_v1 (ridx_main_v2 (ix2 p q) k) = ix2 q k := fun k => funext fun a => Fin.ext (by
    match a with
    | ⟨0, _⟩ => rfl
    | ⟨1, _⟩ => rfl)
  have e3 : idx_main_v3 (idx_main_v4 (ix2 p q)) = ix1 q := funext fun a => Fin.ext (by
    match a with
    | ⟨0, _⟩ => rfl)
  simp only [e1, e2, e3]

/-- The second layer: the stage after the second maximum is the hidden layer of the first layer's result. -/
theorem layer1 (x W0 : (⟨S8192x4096, .f32⟩ : BufTy).Contents (Elt Ideal)) (b0 : (⟨S8192, .f32⟩ : BufTy).Contents (Elt Ideal))
    (M0 : (⟨S8192x4096, .f32⟩ : BufTy).Contents (Elt Ideal))
    (W1 : (⟨S8192x8192, .f32⟩ : BufTy).Contents (Elt Ideal)) (b1 : (⟨S8192, .f32⟩ : BufTy).Contents (Elt Ideal))
    (M1 : (⟨S8192x8192, .f32⟩ : BufTy).Contents (Elt Ideal)) :
    val_main_v13 (F := Ideal) x W0 b0 M0 W1 b1 M1 = Cert.MLP.hid (B := 8192) (K := 8192) (N := 8192) (val_main_v6 (F := Ideal) x W0 b0 M0) W1 M1 b1 := by
  funext j
  obtain ⟨p, q, rfl⟩ : ∃ (p : Fin 8192) (q : Fin 8192), j = ix2 p q := ⟨j 0, j 1, eq_ix2 j⟩
  rw [val_main_v13_apply, val_main_v12_apply, val_main_v9_apply, val_main_v11_apply, val_main_v10_apply, val_main_call1_v0_apply, val_main_call1_cst_apply]
  simp only [val_main_v8_apply, val_main_v7_apply, Ideal.mulf_def, Ideal.addf_def, Ideal.maximumf_def, Ideal.ofBits_def,
    Ideal.ofBits_zero_f32]
  rw [Cert.MLP.hid_ix2]
  unfold Cert.MLP.preAt
  have e1 : ∀ k : Fin 8192, lidx_main_v9 (ix2 p q) k = ix2 p k := fun k => funext fun a => Fin.ext (by
    match a with
    | ⟨0, _⟩ => rfl
    | ⟨1, _⟩ => rfl)
  have e2 : ∀ k : Fin 8192, idx_main_v8 (ridx_main_v9 (ix2 p q) k) = ix2 q k := fun k => funext fun a => Fin.ext (by
    match a with
    | ⟨0, _⟩ => rfl
    | ⟨1, _⟩ => rfl)
  have e3 : idx_main_v10 (idx_main_v11 (ix2 p q)) = ix1 q := funext fun a => Fin.ext (by
    match a with
    | ⟨0, _⟩ => rfl)
  simp only [e1, e2, e3]

/-- The third layer: the stage after the third maximum is the hidden layer of the second layer's result. -/
theorem layer2 (x W0 : (⟨S8192x4096, .f32⟩ : BufTy).Contents (Elt Ideal)) (b0 : (⟨S8192, .f32⟩ : BufTy).Contents (Elt Ideal))
    (M0 : (⟨S8192x4096, .f32⟩ : BufTy).Contents (Elt Ideal))
    (W1 : (⟨S8192x8192, .f32⟩ : BufTy).Contents (Elt Ideal)) (b1 : (⟨S8192, .f32⟩ : BufTy).Contents (Elt Ideal))
    (M1 : (⟨S8192x8192, .f32⟩ : BufTy).Contents (Elt Ideal))
    (W2 : (⟨S4096x8192, .f32⟩ : BufTy).Contents (Elt Ideal)) (b2 : (⟨S4096, .f32⟩ : BufTy).Contents (Elt Ideal))
    (M2 : (⟨S4096x8192, .f32⟩ : BufTy).Contents (Elt Ideal)) :
    val_main_v20 (F := Ideal) x W0 b0 M0 W1 b1 M1 W2 b2 M2 = Cert.MLP.hid (B := 8192) (K := 8192) (N := 4096) (val_main_v13 (F := Ideal) x W0 b0 M0 W1 b1 M1) W2 M2 b2 := by
  funext j
  obtain ⟨p, q, rfl⟩ : ∃ (p : Fin 8192) (q : Fin 4096), j = ix2 p q := ⟨j 0, j 1, eq_ix2 j⟩
  rw [val_main_v20_apply, val_main_v19_apply, val_main_v16_apply, val_main_v18_apply, val_main_v17_apply, val_main_call2_v0_apply, val_main_call2_cst_apply]
  simp only [val_main_v15_apply, val_main_v14_apply, Ideal.mulf_def, Ideal.addf_def, Ideal.maximumf_def, Ideal.ofBits_def,
    Ideal.ofBits_zero_f32]
  rw [Cert.MLP.hid_ix2]
  unfold Cert.MLP.preAt
  have e1 : ∀ k : Fin 8192, lidx_main_v16 (ix2 p q) k = ix2 p k := fun k => funext fun a => Fin.ext (by
    match a with
    | ⟨0, _⟩ => rfl
    | ⟨1, _⟩ => rfl)
  have e2 : ∀ k : Fin 8192, idx_main_v15 (ridx_main_v16 (ix2 p q) k) = ix2 q k := fun k => funext fun a => Fin.ext (by
    match a with
    | ⟨0, _⟩ => rfl
    | ⟨1, _⟩ => rfl)
  have e3 : idx_main_v17 (idx_main_v18 (ix2 p q)) = ix1 q := funext fun a => Fin.ext (by
    match a with
    | ⟨0, _⟩ => rfl)
  simp only [e1, e2, e3]

/-- The last layer: the final sum is the layer without a maximum of the third layer's result. -/
theorem layer3 (x W0 : (⟨S8192x4096, .f32⟩ : BufTy).Contents (Elt Ideal)) (b0 : (⟨S8192, .f32⟩ : BufTy).Contents (Elt Ideal))
    (M0 : (⟨S8192x4096, .f32⟩ : BufTy).Contents (Elt Ideal))
    (W1 : (⟨S8192x8192, .f32⟩ : BufTy).Contents (Elt Ideal)) (b1 : (⟨S8192, .f32⟩ : BufTy).Contents (Elt Ideal))
    (M1 : (⟨S8192x8192, .f32⟩ : BufTy).Contents (Elt Ideal))
    (W2 : (⟨S4096x8192, .f32⟩ : BufTy).Contents (Elt Ideal)) (b2 : (⟨S4096, .f32⟩ : BufTy).Contents (Elt Ideal))
    (M2 : (⟨S4096x8192, .f32⟩ : BufTy).Contents (Elt Ideal))
    (W3 : (⟨S1024x4096, .f32⟩ : BufTy).Contents (Elt Ideal)) (b3 : (⟨S1024, .f32⟩ : BufTy).Contents (Elt Ideal))
    (M3 : (⟨S1024x4096, .f32⟩ : BufTy).Contents (Elt Ideal)) :
    val_main_v26 (F := Ideal) x W0 b0 M0 W1 b1 M1 W2 b2 M2 W3 b3 M3 = Cert.MLP.lin (B := 8192) (K := 4096) (N := 1024) (val_main_v20 (F := Ideal) x W0 b0 M0 W1 b1 M1 W2 b2 M2) W3 M3 b3 := by
  funext j
  obtain ⟨p, q, rfl⟩ : ∃ (p : Fin 8192) (q : Fin 1024), j = ix2 p q := ⟨j 0, j 1, eq_ix2 j⟩
  rw [val_main_v26_apply, val_main_v23_apply, val_main_v25_apply, val_main_v24_apply]
  simp only [val_main_v22_apply, val_main_v21_apply, Ideal.mulf_def, Ideal.addf_def]
  rw [Cert.MLP.lin_ix2]
  unfold Cert.MLP.preAt
  have e1 : ∀ k : Fin 4096, lidx_main_v23 (ix2 p q) k = ix2 p k := fun k => funext fun a => Fin.ext (by
    match a with
    | ⟨0, _⟩ => rfl
    | ⟨1, _⟩ => rfl)
  have e2 : ∀ k : Fin 4096, idx_main_v22 (ridx_main_v23 (ix2 p q) k) = ix2 q k := fun k => funext fun a => Fin.ext (by
    match a with
    | ⟨0, _⟩ => rfl
    | ⟨1, _⟩ => rfl)
  have e3 : idx_main_v24 (idx_main_v25 (ix2 p q)) = ix1 q := funext fun a => Fin.ext (by
    match a with
    | ⟨0, _⟩ => rfl)
  simp only [e1, e2, e3]

/-- The reference's result is the network of the specification. -/
theorem ref_eq (x W0 : (⟨S8192x4096, .f32⟩ : BufTy).Contents (Elt Ideal)) (b0 : (⟨S8192, .f32⟩ : BufTy).Contents (Elt Ideal))
    (M0 : (⟨S8192x4096, .f32⟩ : BufTy).Contents (Elt Ideal))
    (W1 : (⟨S8192x8192, .f32⟩ : BufTy).Contents (Elt Ideal)) (b1 : (⟨S8192, .f32⟩ : BufTy).Contents (Elt Ideal))
    (M1 : (⟨S8192x8192, .f32⟩ : BufTy).Contents (Elt Ideal))
    (W2 : (⟨S4096x8192, .f32⟩ : BufTy).Contents (Elt Ideal)) (b2 : (⟨S4096, .f32⟩ : BufTy).Contents (Elt Ideal))
    (M2 : (⟨S4096x8192, .f32⟩ : BufTy).Contents (Elt Ideal))
    (W3 : (⟨S1024x4096, .f32⟩ : BufTy).Contents (Elt Ideal)) (b3 : (⟨S1024, .f32⟩ : BufTy).Contents (Elt Ideal))
    (M3 : (⟨S1024x4096, .f32⟩ : BufTy).Contents (Elt Ideal)) :
    Cert.ReferenceIdeal.Read.val_main_v26 (F := Ideal) x W0 b0 M0 W1 b1 M1 W2 b2 M2 W3 b3 M3
      = Cert.MLP.net x W0 M0 b0 W1 M1 b1 W2 M2 b2 W3 M3 b3 := by
  rw [layer3, layer2, layer1, layer0]
  rfl

end Cert.MLP.Ref

end
-- ==== Proof.lean ====
/-
  A four-layer masked dense network: the Pallas kernel program against its jnp reference, on the extended reals.

  Both programs compute, layer by layer, `h ↦ act (h · (W ∘ M)ᵀ + b)`: entry (p, q) of a layer is the sum over the fan-in
  axis of `h (p, k) * (W (q, k) * M (q, k))`, plus `b q`, and the first three layers then take the maximum with zero
  (Proof/LayerSpec.lean). The reference does each layer with one contraction over the whole fan-in axis
  (Proof/RefNet.lean). The kernel program forms the masked weights once on the host, and runs each layer as a grid of
  kernel calls that walks the fan-in axis in blocks of 1024: an accumulator is cleared at the first block, gains one block
  product per step, and at the last block the bias is added, the activation applied and the output block stored
  (Proof/IH*Frame.lean: the runs; Proof/IH*Acc.lean, IH*Blocks.lean, IH*Val.lean: the accumulator is the sum of the block
  products, the stored blocks tile the output array). A sum taken block by block is the whole sum — addition on the
  extended reals is commutative and associative, so no finiteness is needed and the precondition is never opened — and
  narrowing a float's format is the identity there; so the two result arrays are one function of the arguments
  (Proof/IHNet.lean). The ideal pass rewrote nothing, so the idealized kernel is the kernel's own text and `preserves`
  is trivial. The three frames: each kernel program's from its run through the four regions (Proof/BHRun.lean at the
  word level, Proof/IHRun.lean on the extended reals), the reference's from its run.
-/
import proofs.«122649_j45518063403493_2_alg».proof.Defs
import proofs.«122649_j45518063403493_2_alg».proof.Proof.Gen.Kernel
import proofs.«122649_j45518063403493_2_alg».proof.Proof.Gen.KernelIdeal
import proofs.«122649_j45518063403493_2_alg».proof.Proof.Gen.ReferenceIdeal
import proofs.«122649_j45518063403493_2_alg».proof.Proof.Gen.ReferenceIdeal.Run
import proofs.«122649_j45518063403493_2_alg».proof.Proof.Gen.ReferenceIdeal.Read
import proofs.«122649_j45518063403493_2_alg».proof.Proof.Gen.Pre_finite_inputs
import proofs.«122649_j45518063403493_2_alg».proof.Proof.BHRun
import proofs.«122649_j45518063403493_2_alg».proof.Proof.IHRun
import proofs.«122649_j45518063403493_2_alg».proof.Proof.IHNet
import proofs.«122649_j45518063403493_2_alg».proof.Proof.RefNet
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_k : Cert.frame_Kernel := fun m ρ _ => Cert.Kernel.Hand.frame (F := Bits) m ρ

/-- So does its reading on the extended reals. -/
theorem frame_ki : Cert.frame_KernelIdeal := fun m ρ _ => Cert.KernelIdeal.Hand.frame (F := Ideal) m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the network of the arguments in their result
    arrays: the kernel's last region leaves it there, and the reference's composed term is the same function. -/
theorem algebraic : Cert.algebraic_KernelIdeal_ReferenceIdeal := by
  intro m ρ m' ρ' _ hagree
  refine ⟨fun c => Cert.MLP.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2))
      (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg5))
      (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg8))
      (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Hand.kernel_value m c), (h c).2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6, h7, h8, h9, h10, h11, h12⟩ := hagree c
    rw [(h c).1, Cert.ReferenceIdeal.Read.val_main_v26_eq, Cert.MLP.Ref.ref_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
